-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S600000x2 : Shape := ⟨2, ![600000, 2]⟩
abbrev S4x100000x64 : Shape := ⟨3, ![4, 100000, 64]⟩
abbrev S6x128 : Shape := ⟨2, ![6, 128]⟩
abbrev S128 : Shape := ⟨1, ![128]⟩
abbrev S4x198x128 : Shape := ⟨3, ![4, 198, 128]⟩
abbrev S4x128 : Shape := ⟨2, ![4, 128]⟩
abbrev S128x3 : Shape := ⟨2, ![128, 3]⟩
abbrev S3 : Shape := ⟨1, ![3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S4x100000x64 : S_.BroadcastsInDim S4x100000x64 (![] : Fin 0 → Fin S4x100000x64.rank)
  reducesTo_S4x100000x64_S_d0_1_2 : S4x100000x64.ReducesTo [0, 1, 2] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S4x198x128 : S_.BroadcastsInDim S4x198x128 (![] : Fin 0 → Fin S4x198x128.rank)
  reducesTo_S4x198x128_S_d0_1_2 : S4x198x128.ReducesTo [0, 1, 2] S_
  bcast_S_S4x128 : S_.BroadcastsInDim S4x128 (![] : Fin 0 → Fin S4x128.rank)
  reducesTo_S4x128_S_d0_1 : S4x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg12 : FVec F S3 .f32) (main_v48 : IVec S_ 1) (main_v49 : FVec F S128x3 .f32) (main_v50 : FVec F S128x3 .f32) : IVec S_ 1 :=
  let main_v51 : IVec S128x3 1 := cmpf .olt main_v49 main_v50
  let main_c_19 : IVec S_ 1 := constantI S_ 1 1#1
  let main_v52 : IVec S_ 1 := (fun x v => Host.reduce IntOp.andi x v reducesTo_S128x3_S_d0_1 h_S_) main_v51 main_c_19
  let main_v53 : IVec S_ 1 := andi main_v48 main_v52
  let main_v54 : FVec F S3 .f32 := Host.absf main_arg12
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg8 : FVec F S4x198x128 .f32) (main_arg9 : FVec F S4x128 .f32) (main_arg10 : FVec F S128x3 .f32) (main_arg11 : FVec F S128x3 .f32) (main_arg12 : FVec F S3 .f32) (main_v33 : IVec S_ 1) : IVec S_ 1 :=
  let main_v34 : FVec F S4x198x128 .f32 := Host.absf main_arg8
  let main_cst_12 : FVec F S_ .f32 := constant S_ .f32 0x7F800000#32
  let main_v35 : FVec F S4x198x128 .f32 := broadcastInDim S4x198x128 ![] bcast_S_S4x198x128 main_cst_12
  let main_v36 : IVec S4x198x128 1 := cmpf .olt main_v34 main_v35
  let main_c_13 : IVec S_ 1 := constantI S_ 1 1#1
  let main_v37 : IVec S_ 1 := (fun x v => Host.reduce IntOp.andi x v reducesTo_S4x198x128_S_d0_1_2 h_S_) main_v36 main_c_13
  let main_v38 : IVec S_ 1 := andi main_v33 main_v37
  let main_v39 : FVec F S4x128 .f32 := Host.absf main_arg9
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S128x3 .f32 := Host.absf main_arg10
  let main_cst_16 : FVec F S_ .f32 := constant S_ .f32 0x7F800000#32
  let main_v45 : FVec F S128x3 .f32 := broadcastInDim S128x3 ![] bcast_S_S128x3 main_cst_16
  let main_v46 : IVec S128x3 1 := cmpf .olt main_v44 main_v45
  let main_c_17 : IVec S_ 1 := constantI S_ 1 1#1
  let main_v47 : IVec S_ 1 := (fun x v => Host.reduce IntOp.andi x v reducesTo_S128x3_S_d0_1 h_S_) main_v46 main_c_17
  let main_v48 : IVec S_ 1 := andi main_v43 main_v47
  let main_v49 : FVec F S128x3 .f32 := Host.absf main_arg11
  let main_cst_18 : FVec F S_ .f32 := constant S_ .f32 0x7F800000#32
  let main_v50 : FVec F S128x3 .f32 := broadcastInDim S128x3 ![] bcast_S_S128x3 main_cst_18
  fn_part3 (F := F) main_arg12 main_v48 main_v49 main_v50

def fn_part1 {F : FTy → Type} [FloatOps F] (main_arg5 : FVec F S6x128 .f32) (main_arg6 : FVec F S128 .f32) (main_arg7 : FVec F S4x198x128 .f32) (main_arg8 : FVec F S4x198x128 .f32) (main_arg9 : FVec F S4x128 .f32) (main_arg10 : FVec F S128x3 .f32) (main_arg11 : FVec F S128x3 .f32) (main_arg12 : FVec F S3 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S6x128 .f32 := Host.absf main_arg5
  let main_cst_6 : FVec F S_ .f32 := constant S_ .f32 0x7F800000#32
  let main_v20 : FVec F S6x128 .f32 := broadcastInDim S6x128 ![] bcast_S_S6x128 main_cst_6
  let main_v21 : IVec S6x128 1 := cmpf .olt main_v19 main_v20
  let main_c_7 : IVec S_ 1 := constantI S_ 1 1#1
  let main_v22 : IVec S_ 1 := (fun x v => Host.reduce IntOp.andi x v reducesTo_S6x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S4x198x128 .f32 := Host.absf main_arg7
  let main_cst_10 : FVec F S_ .f32 := constant S_ .f32 0x7F800000#32
  let main_v30 : FVec F S4x198x128 .f32 := broadcastInDim S4x198x128 ![] bcast_S_S4x198x128 main_cst_10
  let main_v31 : IVec S4x198x128 1 := cmpf .olt main_v29 main_v30
  let main_c_11 : IVec S_ 1 := constantI S_ 1 1#1
  let main_v32 : IVec S_ 1 := (fun x v => Host.reduce IntOp.andi x v reducesTo_S4x198x128_S_d0_1_2 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x3 .f32) (main_arg1 : IVec S600000x2 32) (main_arg2 : FVec F S100000x3 .f32) (main_arg3 : FVec F S4x100000x64 .f32) (main_arg4 : FVec F S6x128 .f32) (main_arg5 : FVec F S6x128 .f32) (main_arg6 : FVec F S128 .f32) (main_arg7 : FVec F S4x198x128 .f32) (main_arg8 : FVec F S4x198x128 .f32) (main_arg9 : FVec F S4x128 .f32) (main_arg10 : FVec F S128x3 .f32) (main_arg11 : FVec F S128x3 .f32) (main_arg12 : FVec F S3 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x3 .f32 := Host.absf main_arg2
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S4x100000x64 .f32 := Host.absf main_arg3
  let main_cst_2 : FVec F S_ .f32 := constant S_ .f32 0x7F800000#32
  let main_v10 : FVec F S4x100000x64 .f32 := broadcastInDim S4x100000x64 ![] bcast_S_S4x100000x64 main_cst_2
  let main_v11 : IVec S4x100000x64 1 := cmpf .olt main_v9 main_v10
  let main_c_3 : IVec S_ 1 := constantI S_ 1 1#1
  let main_v12 : IVec S_ 1 := (fun x v => Host.reduce IntOp.andi x v reducesTo_S4x100000x64_S_d0_1_2 h_S_) main_v11 main_c_3
  let main_v13 : IVec S_ 1 := andi main_v8 main_v12
  let main_v14 : FVec F S6x128 .f32 := Host.absf main_arg4
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg5 main_arg6 main_arg7 main_arg8 main_arg9 main_arg10 main_arg11 main_arg12 main_v13 main_v16
-- ==== Kernel.lean ====
abbrev S100000x3 : Shape := ⟨2, ![100000, 3]⟩
abbrev S600000x2 : Shape := ⟨2, ![600000, 2]⟩
abbrev S4x100000x64 : Shape := ⟨3, ![4, 100000, 64]⟩
abbrev S6x128 : Shape := ⟨2, ![6, 128]⟩
abbrev S128 : Shape := ⟨1, ![128]⟩
abbrev S4x198x128 : Shape := ⟨3, ![4, 198, 128]⟩
abbrev S4x128 : Shape := ⟨2, ![4, 128]⟩
abbrev S128x3 : Shape := ⟨2, ![128, 3]⟩
abbrev S3 : Shape := ⟨1, ![3]⟩
abbrev S600000x1 : Shape := ⟨2, ![600000, 1]⟩
abbrev S600000 : Shape := ⟨1, ![600000]⟩
abbrev S_ : Shape := ⟨0, ![]⟩
abbrev S100000x1 : Shape := ⟨2, ![100000, 1]⟩
abbrev S100000x6 : Shape := ⟨2, ![100000, 6]⟩
abbrev S600000x6 : Shape := ⟨2, ![600000, 6]⟩
abbrev S1x128 : Shape := ⟨2, ![1, 128]⟩
abbrev S100000x128 : Shape := ⟨2, ![100000, 128]⟩
abbrev S4000x6 : Shape := ⟨2, ![4000, 6]⟩
abbrev S4000x128 : Shape := ⟨2, ![4000, 128]⟩
abbrev S1x100000x64 : Shape := ⟨3, ![1, 100000, 64]⟩
abbrev S100000x64 : Shape := ⟨2, ![100000, 64]⟩
abbrev S100000x198 : Shape := ⟨2, ![100000, 198]⟩
abbrev S1x198x128 : Shape := ⟨3, ![1, 198, 128]⟩
abbrev S198x128 : Shape := ⟨2, ![198, 128]⟩
abbrev S600000x198 : Shape := ⟨2, ![600000, 198]⟩
abbrev S4000x198 : Shape := ⟨2, ![4000, 198]⟩
abbrev S600000x128 : Shape := ⟨2, ![600000, 128]⟩
abbrev S1x3 : Shape := ⟨2, ![1, 3]⟩
abbrev S4000x3 : Shape := ⟨2, ![4000, 3]⟩

abbrev nBuf : Space → Nat
  | .hbm => 165
  | .vmem => 54
  | .smem => 0
  | _ => 0

abbrev hbmTy0_0 (i : Nat) : BufTy := match i % 128 with
  | 0 => ⟨S100000x3, .f32⟩
  | 1 => ⟨S600000x2, .i32⟩
  | 2 => ⟨S100000x3, .f32⟩
  | 3 => ⟨S4x100000x64, .f32⟩
  | 4 => ⟨S6x128, .f32⟩
  | 5 => ⟨S6x128, .f32⟩
  | 6 => ⟨S128, .f32⟩
  | 7 => ⟨S4x198x128, .f32⟩
  | 8 => ⟨S4x198x128, .f32⟩
  | 9 => ⟨S4x128, .f32⟩
  | 10 => ⟨S128x3, .f32⟩
  | 11 => ⟨S128x3, .f32⟩
  | 12 => ⟨S3, .f32⟩
  | 13 => ⟨S600000x1, .i32⟩
  | 14 => ⟨S600000, .i32⟩
  | 15 => ⟨S600000x1, .i32⟩
  | 16 => ⟨S600000, .i32⟩
  | 17 => ⟨S_, .f32⟩
  | 18 => ⟨S600000x1, .f32⟩
  | 19 => ⟨S_, .f32⟩
  | 20 => ⟨S100000x1, .f32⟩
  | 21 => ⟨S600000x1, .i32⟩
  | 22 => ⟨S100000x1, .f32⟩
  | 23 => ⟨S_, .f32⟩
  | 24 => ⟨S100000x1, .f32⟩
  | 25 => ⟨S100000x1, .f32⟩
  | 26 => ⟨S100000x6, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x6, .f32⟩
  | 36 => ⟨S_, .f32⟩
  | 37 => ⟨S100000x6, .f32⟩
  | 38 => ⟨S600000x1, .i32⟩
  | 39 => ⟨S100000x6, .f32⟩
  | 40 => ⟨S100000x6, .f32⟩
  | 41 => ⟨S100000x6, .f32⟩
  | 42 => ⟨S1x128, .f32⟩
  | 43 => ⟨S100000x128, .f32⟩
  | 44 => ⟨S1x100000x64, .f32⟩
  | 45 => ⟨S100000x64, .f32⟩
  | 46 => ⟨S100000x198, .f32⟩
  | 47 => ⟨S1x198x128, .f32⟩
  | 48 => ⟨S198x128, .f32⟩
  | 49 => ⟨S1x198x128, .f32⟩
  | 50 => ⟨S198x128, .f32⟩
  | 51 => ⟨S1x128, .f32⟩
  | 52 => ⟨S128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x198, .f32⟩
  | 62 => ⟨S_, .f32⟩
  | 63 => ⟨S100000x198, .f32⟩
  | 64 => ⟨S600000x1, .i32⟩
  | 65 => ⟨S100000x198, .f32⟩
  | 66 => ⟨S100000x198, .f32⟩
  | 67 => ⟨S100000x198, .f32⟩
  | 68 => ⟨S1x128, .f32⟩
  | 69 => ⟨S100000x128, .f32⟩
  | 70 => ⟨S1x100000x64, .f32⟩
  | 71 => ⟨S100000x64, .f32⟩
  | 72 => ⟨S100000x198, .f32⟩
  | 73 => ⟨S1x198x128, .f32⟩
  | 74 => ⟨S198x128, .f32⟩
  | 75 => ⟨S1x198x128, .f32⟩
  | 76 => ⟨S198x128, .f32⟩
  | 77 => ⟨S1x128, .f32⟩
  | 78 => ⟨S128, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x198, .f32⟩
  | 88 => ⟨S_, .f32⟩
  | 89 => ⟨S100000x198, .f32⟩
  | 90 => ⟨S600000x1, .i32⟩
  | 91 => ⟨S100000x198, .f32⟩
  | 92 => ⟨S100000x198, .f32⟩
  | 93 => ⟨S100000x198, .f32⟩
  | 94 => ⟨S1x128, .f32⟩
  | 95 => ⟨S100000x128, .f32⟩
  | 96 => ⟨S1x100000x64, .f32⟩
  | 97 => ⟨S100000x64, .f32⟩
  | 98 => ⟨S100000x198, .f32⟩
  | 99 => ⟨S1x198x128, .f32⟩
  | 100 => ⟨S198x128, .f32⟩
  | 101 => ⟨S1x198x128, .f32⟩
  | 102 => ⟨S198x128, .f32⟩
  | 103 => ⟨S1x128, .f32⟩
  | 104 => ⟨S128, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x198, .f32⟩
  | 114 => ⟨S_, .f32⟩
  | 115 => ⟨S100000x198, .f32⟩
  | 116 => ⟨S600000x1, .i32⟩
  | 117 => ⟨S100000x198, .f32⟩
  | 118 => ⟨S100000x198, .f32⟩
  | 119 => ⟨S100000x198, .f32⟩
  | 120 => ⟨S1x128, .f32⟩
  | 121 => ⟨S100000x128, .f32⟩
  | 122 => ⟨S1x100000x64, .f32⟩
  | 123 => ⟨S100000x64, .f32⟩
  | 124 => ⟨S100000x198, .f32⟩
  | 125 => ⟨S1x198x128, .f32⟩
  | 126 => ⟨S198x128, .f32⟩
  | 127 => ⟨S1x198x128, .f32⟩
  | _ => ⟨S100000x3, .f32⟩

abbrev hbmTy0_1 (i : Nat) : BufTy := match i % 128 with
  | 0 => ⟨S198x128, .f32⟩
  | 1 => ⟨S1x128, .f32⟩
  | 2 => ⟨S128, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000x198, .f32⟩
  | 12 => ⟨S_, .f32⟩
  | 13 => ⟨S100000x198, .f32⟩
  | 14 => ⟨S600000x1, .i32⟩
  | 15 => ⟨S100000x198, .f32⟩
  | 16 => ⟨S100000x198, .f32⟩
  | 17 => ⟨S100000x198, .f32⟩
  | 18 => ⟨S1x128, .f32⟩
  | 19 => ⟨S100000x128, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .f32⟩
  | 30 => ⟨S100000x128, .f32⟩
  | 31 => ⟨S600000x1, .i32⟩
  | 32 => ⟨S100000x128, .f32⟩
  | 33 => ⟨S100000x128, .f32⟩
  | 34 => ⟨S100000x128, .f32⟩
  | 35 => ⟨S1x3, .f32⟩
  | 36 => ⟨S100000x3, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S4000x6, .f32⟩
  | .local _ .vmem, ⟨1, _⟩ => ⟨S4000x6, .f32⟩
  | .local _ .vmem, ⟨2, _⟩ => ⟨S4000x6, .f32⟩
  | .local _ .vmem, ⟨3, _⟩ => ⟨S4000x6, .f32⟩
  | .local _ .vmem, ⟨4, _⟩ => ⟨S6x128, .f32⟩
  | .local _ .vmem, ⟨5, _⟩ => ⟨S6x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x198, .f32⟩
  | .local _ .vmem, ⟨10, _⟩ => ⟨S4000x198, .f32⟩
  | .local _ .vmem, ⟨11, _⟩ => ⟨S4000x198, .f32⟩
  | .local _ .vmem, ⟨12, _⟩ => ⟨S4000x198, .f32⟩
  | .local _ .vmem, ⟨13, _⟩ => ⟨S198x128, .f32⟩
  | .local _ .vmem, ⟨14, _⟩ => ⟨S198x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x198, .f32⟩
  | .local _ .vmem, ⟨19, _⟩ => ⟨S4000x198, .f32⟩
  | .local _ .vmem, ⟨20, _⟩ => ⟨S4000x198, .f32⟩
  | .local _ .vmem, ⟨21, _⟩ => ⟨S4000x198, .f32⟩
  | .local _ .vmem, ⟨22, _⟩ => ⟨S198x128, .f32⟩
  | .local _ .vmem, ⟨23, _⟩ => ⟨S198x128, .f32⟩
  | .local _ .vmem, ⟨24, _⟩ => ⟨S1x128, .f32⟩
  | .local _ .vmem, ⟨25, _⟩ => ⟨S4000x128, .f32⟩
  | .local _ .vmem, ⟨26, _⟩ => ⟨S4000x128, .f32⟩
  | .local _ .vmem, ⟨27, _⟩ => ⟨S4000x198, .f32⟩
  | .local _ .vmem, ⟨28, _⟩ => ⟨S4000x198, .f32⟩
  | .local _ .vmem, ⟨29, _⟩ => ⟨S4000x198, .f32⟩
  | .local _ .vmem, ⟨30, _⟩ => ⟨S4000x198, .f32⟩
  | .local _ .vmem, ⟨31, _⟩ => ⟨S198x128, .f32⟩
  | .local _ .vmem, ⟨32, _⟩ => ⟨S198x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | .local _ .vmem, ⟨36, _⟩ => ⟨S4000x198, .f32⟩
  | .local _ .vmem, ⟨37, _⟩ => ⟨S4000x198, .f32⟩
  | .local _ .vmem, ⟨38, _⟩ => ⟨S4000x198, .f32⟩
  | .local _ .vmem, ⟨39, _⟩ => ⟨S4000x198, .f32⟩
  | .local _ .vmem, ⟨40, _⟩ => ⟨S198x128, .f32⟩
  | .local _ .vmem, ⟨41, _⟩ => ⟨S198x128, .f32⟩
  | .local _ .vmem, ⟨42, _⟩ => ⟨S1x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S128x3, .f32⟩
  | .local _ .vmem, ⟨50, _⟩ => ⟨S128x3, .f32⟩
  | .local _ .vmem, ⟨51, _⟩ => ⟨S1x3, .f32⟩
  | .local _ .vmem, ⟨52, _⟩ => ⟨S4000x3, .f32⟩
  | .local _ .vmem, ⟨53, _⟩ => ⟨S4000x3, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_7 : Ref sig .tc := ⟨.hbm, 79, rfl⟩
abbrev main_v57 : Ref sig .tc := ⟨.hbm, 80, rfl⟩
abbrev main_v58 : Ref sig .tc := ⟨.hbm, 81, rfl⟩
abbrev main_c_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_9 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_10 : Ref sig .tc := ⟨.hbm, 105, rfl⟩
abbrev main_v80 : Ref sig .tc := ⟨.hbm, 106, rfl⟩
abbrev main_v81 : Ref sig .tc := ⟨.hbm, 107, rfl⟩
abbrev main_c_11 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_12 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_c_13 : Ref sig .tc := ⟨.hbm, 131, rfl⟩
abbrev main_v103 : Ref sig .tc := ⟨.hbm, 132, rfl⟩
abbrev main_v104 : Ref sig .tc := ⟨.hbm, 133, rfl⟩
abbrev main_c_14 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_15 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_c_16 : Ref sig .tc := ⟨.hbm, 148, rfl⟩
abbrev main_v117 : Ref sig .tc := ⟨.hbm, 149, rfl⟩
abbrev main_v118 : Ref sig .tc := ⟨.hbm, 150, rfl⟩
abbrev main_c_17 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_18 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x198 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x198 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S198x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S198x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x198 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x198 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S198x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S198x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x198 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x198 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S198x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S198x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x198 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x198 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S198x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S198x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x3 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x3 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x3 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x3 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000x1 : S_.BroadcastsInDim S600000x1 (![] : Fin 0 → Fin S600000x1.rank)
  bcast_S_S100000x1 : S_.BroadcastsInDim S100000x1 (![] : Fin 0 → Fin S100000x1.rank)
  bcast_S600000_S600000x1_0 : S600000.BroadcastsInDim S600000x1 (![0] : Fin 1 → Fin S600000x1.rank)
  concatenates_S100000x3_S100000x3_S100000x6_d1 : Shape.Concatenates [S100000x3, S100000x3] S100000x6 1
  bcast_S_S600000 : S_.BroadcastsInDim S600000 (![] : Fin 0 → Fin S600000.rank)
  bcast_S_S100000x6 : S_.BroadcastsInDim S100000x6 (![] : Fin 0 → Fin S100000x6.rank)
  bcast_S100000x1_S100000x6_0_1 : S100000x1.BroadcastsInDim S100000x6 (![0, 1] : Fin 2 → Fin S100000x6.rank)
  shapeCasts_S128_S1x128 : S128.ShapeCasts S1x128
  inb_S4000x6_S4000x6_0_0 : ∀ a, (![0, 0] : Fin 2 → Nat) a + S4000x6.size a ≤ S4000x6.size a
  h_S4000x6 : 0 < S4000x6.numel
  shapeCasts_S4000x6_S4000x6 : S4000x6.ShapeCasts S4000x6
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  slices_S4x100000x64_S1x100000x64_0_0_0 : S4x100000x64.Slices ![0, 0, 0] S1x100000x64
  shapeCasts_S1x100000x64_S100000x64 : S1x100000x64.ShapeCasts S100000x64
  concatenates_S100000x128_S100000x64_S100000x6_S100000x198_d1 : Shape.Concatenates [S100000x128, S100000x64, S100000x6] S100000x198 1
  slices_S4x198x128_S1x198x128_0_0_0 : S4x198x128.Slices ![0, 0, 0] S1x198x128
  shapeCasts_S1x198x128_S198x128 : S1x198x128.ShapeCasts S198x128
  slices_S4x128_S1x128_0_0 : S4x128.Slices ![0, 0] S1x128
  shapeCasts_S1x128_S128 : S1x128.ShapeCasts S128
  bcast_S_S100000x198 : S_.BroadcastsInDim S100000x198 (![] : Fin 0 → Fin S100000x198.rank)
  bcast_S100000x1_S100000x198_0_1 : S100000x1.BroadcastsInDim S100000x198 (![0, 1] : Fin 2 → Fin S100000x198.rank)
  inb_S4000x198_S4000x198_0_0 : ∀ a, (![0, 0] : Fin 2 → Nat) a + S4000x198.size a ≤ S4000x198.size a
  h_S4000x198 : 0 < S4000x198.numel
  shapeCasts_S4000x198_S4000x198 : S4000x198.ShapeCasts S4000x198
  inb_S198x128_S198x128_0_0 : ∀ a, (![0, 0] : Fin 2 → Nat) a + S198x128.size a ≤ S198x128.size a
  h_S198x128 : 0 < S198x128.numel
  shapeCasts_S198x128_S198x128 : S198x128.ShapeCasts S198x128
  slices_S4x100000x64_S1x100000x64_1_0_0 : S4x100000x64.Slices ![1, 0, 0] S1x100000x64
  slices_S4x198x128_S1x198x128_1_0_0 : S4x198x128.Slices ![1, 0, 0] S1x198x128
  slices_S4x128_S1x128_1_0 : S4x128.Slices ![1, 0] S1x128
  slices_S4x100000x64_S1x100000x64_2_0_0 : S4x100000x64.Slices ![2, 0, 0] S1x100000x64
  slices_S4x198x128_S1x198x128_2_0_0 : S4x198x128.Slices ![2, 0, 0] S1x198x128
  slices_S4x128_S1x128_2_0 : S4x128.Slices ![2, 0] S1x128
  slices_S4x100000x64_S1x100000x64_3_0_0 : S4x100000x64.Slices ![3, 0, 0] S1x100000x64
  slices_S4x198x128_S1x198x128_3_0_0 : S4x198x128.Slices ![3, 0, 0] S1x198x128
  slices_S4x128_S1x128_3_0 : S4x128.Slices ![3, 0] S1x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S3_S1x3 : S3.ShapeCasts S1x3
  shapeCasts_S4000x128_S4000x128 : S4000x128.ShapeCasts S4000x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  inb_S4000x3_S4000x3_0_0 : ∀ a, (![0, 0] : Fin 2 → Nat) a + S4000x3.size a ≤ S4000x3.size a
  h_S4000x3 : 0 < S4000x3.numel
  scatter_S100000x1_S600000x1_S600000x1_1_0_0_1_wf : ScatterDims.WF S100000x1 S600000x1 S600000x1 [1] [0] [0] 1
  gather_S100000x6_S600000x1_S600000x6_1_0_n_n_0_1_16_wf : GatherDims.WF S100000x6 S600000x1 S600000x6 [1] [0] [] [0] [] 1 ![1, 6]
  scatter_S100000x6_S600000x1_S600000x6_1_0_0_1_wf : ScatterDims.WF S100000x6 S600000x1 S600000x6 [1] [0] [0] 1
  dot_S4000x6_S6x128_S4000x128_1_0_0_1_n_n_wf : DotDims.WF S4000x6 S6x128 S4000x128 [1] [0] [0] [1] [] []
  gather_S100000x198_S600000x1_S600000x198_1_0_n_n_0_1_1198_wf : GatherDims.WF S100000x198 S600000x1 S600000x198 [1] [0] [] [0] [] 1 ![1, 198]
  scatter_S100000x198_S600000x1_S600000x198_1_0_0_1_wf : ScatterDims.WF S100000x198 S600000x1 S600000x198 [1] [0] [0] 1
  dot_S4000x198_S198x128_S4000x128_1_0_0_1_n_n_wf : DotDims.WF S4000x198 S198x128 S4000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x3_S4000x3_1_0_0_1_n_n_wf : DotDims.WF S4000x128 S128x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x6.size a ≤ S100000x6.size a
  hwx0_0 : ∀ i : grid0.Coords, EltTy.bits .f32 = 32 ∨ (Rect.block (s := S100000x6) S4000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x6.size a ≤ S100000x6.size a
  hwx0_1 : ∀ i : grid0.Coords, EltTy.bits .f32 = 32 ∨ (Rect.block (s := S100000x6) S4000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x128.size a ≤ S6x128.size a
  hwx0_2 : ∀ i : grid0.Coords, EltTy.bits .f32 = 32 ∨ (Rect.block (s := S6x128) S6x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x128.size a ≤ S6x128.size a
  hwx0_3 : ∀ i : grid0.Coords, EltTy.bits .f32 = 32 ∨ (Rect.block (s := S6x128) S6x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x198.size a ≤ S100000x198.size a
  hwx1_0 : ∀ i : grid1.Coords, EltTy.bits .f32 = 32 ∨ (Rect.block (s := S100000x198) S4000x198.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x198.size a ≤ S100000x198.size a
  hwx1_1 : ∀ i : grid1.Coords, EltTy.bits .f32 = 32 ∨ (Rect.block (s := S100000x198) S4000x198.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S198x128.size a ≤ S198x128.size a
  hwx1_2 : ∀ i : grid1.Coords, EltTy.bits .f32 = 32 ∨ (Rect.block (s := S198x128) S198x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S198x128.size a ≤ S198x128.size a
  hwx1_3 : ∀ i : grid1.Coords, EltTy.bits .f32 = 32 ∨ (Rect.block (s := S198x128) S198x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x198.size a ≤ S100000x198.size a
  hwx2_0 : ∀ i : grid2.Coords, EltTy.bits .f32 = 32 ∨ (Rect.block (s := S100000x198) S4000x198.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x198.size a ≤ S100000x198.size a
  hwx2_1 : ∀ i : grid2.Coords, EltTy.bits .f32 = 32 ∨ (Rect.block (s := S100000x198) S4000x198.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S198x128.size a ≤ S198x128.size a
  hwx2_2 : ∀ i : grid2.Coords, EltTy.bits .f32 = 32 ∨ (Rect.block (s := S198x128) S198x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S198x128.size a ≤ S198x128.size a
  hwx2_3 : ∀ i : grid2.Coords, EltTy.bits .f32 = 32 ∨ (Rect.block (s := S198x128) S198x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x198.size a ≤ S100000x198.size a
  hwx3_0 : ∀ i : grid3.Coords, EltTy.bits .f32 = 32 ∨ (Rect.block (s := S100000x198) S4000x198.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x198.size a ≤ S100000x198.size a
  hwx3_1 : ∀ i : grid3.Coords, EltTy.bits .f32 = 32 ∨ (Rect.block (s := S100000x198) S4000x198.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S198x128.size a ≤ S198x128.size a
  hwx3_2 : ∀ i : grid3.Coords, EltTy.bits .f32 = 32 ∨ (Rect.block (s := S198x128) S198x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S198x128.size a ≤ S198x128.size a
  hwx3_3 : ∀ i : grid3.Coords, EltTy.bits .f32 = 32 ∨ (Rect.block (s := S198x128) S198x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x198.size a ≤ S100000x198.size a
  hwx4_0 : ∀ i : grid4.Coords, EltTy.bits .f32 = 32 ∨ (Rect.block (s := S100000x198) S4000x198.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x198.size a ≤ S100000x198.size a
  hwx4_1 : ∀ i : grid4.Coords, EltTy.bits .f32 = 32 ∨ (Rect.block (s := S100000x198) S4000x198.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S198x128.size a ≤ S198x128.size a
  hwx4_2 : ∀ i : grid4.Coords, EltTy.bits .f32 = 32 ∨ (Rect.block (s := S198x128) S198x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S198x128.size a ≤ S198x128.size a
  hwx4_3 : ∀ i : grid4.Coords, EltTy.bits .f32 = 32 ∨ (Rect.block (s := S198x128) S198x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S100000x128.size a
  hwx4_5 : ∀ i : grid4.Coords, EltTy.bits .f32 = 32 ∨ (Rect.block (s := S100000x128) S4000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .f32 = 32 ∨ (Rect.block (s := S100000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x3.size a ≤ S128x3.size a
  hwx5_2 : ∀ i : grid5.Coords, EltTy.bits .f32 = 32 ∨ (Rect.block (s := S128x3) S128x3.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x3.size a ≤ S128x3.size a
  hwx5_3 : ∀ i : grid5.Coords, EltTy.bits .f32 = 32 ∨ (Rect.block (s := S128x3) S128x3.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x3.size a ≤ S1x3.size a
  hwx5_4 : ∀ i : grid5.Coords, EltTy.bits .f32 = 32 ∨ (Rect.block (s := S1x3) S1x3.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x3.size a ≤ S100000x3.size a
  hwx5_5 : ∀ i : grid5.Coords, EltTy.bits .f32 = 32 ∨ (Rect.block (s := S100000x3) S4000x3.size (cc5_transform_5 i) (hinb5_5 i)).WholeWords (EltTy.packing .f32)

variable [Facts₀]

def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def gather_S100000x6_S600000x1_S600000x6_1_0_n_n_0_1_16 : GatherDims S100000x6 S600000x1 S600000x6 where
  offsetDims := [1]
  collapsedSliceDims := [0]
  operandBatchingDims := []
  startIndicesBatchingDims := []
  startIndexMap := [0]
  indexVectorDim := 1
  sliceSizes := ![1, 6]
  wf := gather_S100000x6_S600000x1_S600000x6_1_0_n_n_0_1_16_wf
def scatter_S100000x6_S600000x1_S600000x6_1_0_0_1 : ScatterDims S100000x6 S600000x1 S600000x6 where
  updateWindowDims := [1]
  insertedWindowDims := [0]
  scatterDimsToOperandDims := [0]
  indexVectorDim := 1
  wf := scatter_S100000x6_S600000x1_S600000x6_1_0_0_1_wf
def dot_S4000x6_S6x128_S4000x128_1_0_0_1_n_n : DotDims S4000x6 S6x128 S4000x128 where
  lhsContracting := [1]
  rhsContracting := [0]
  lhsNonContracting := [0]
  rhsNonContracting := [1]
  lhsBatch := []
  rhsBatch := []
  wf := dot_S4000x6_S6x128_S4000x128_1_0_0_1_n_n_wf
def gather_S100000x198_S600000x1_S600000x198_1_0_n_n_0_1_1198 : GatherDims S100000x198 S600000x1 S600000x198 where
  offsetDims := [1]
  collapsedSliceDims := [0]
  operandBatchingDims := []
  startIndicesBatchingDims := []
  startIndexMap := [0]
  indexVectorDim := 1
  sliceSizes := ![1, 198]
  wf := gather_S100000x198_S600000x1_S600000x198_1_0_n_n_0_1_1198_wf
def scatter_S100000x198_S600000x1_S600000x198_1_0_0_1 : ScatterDims S100000x198 S600000x1 S600000x198 where
  updateWindowDims := [1]
  insertedWindowDims := [0]
  scatterDimsToOperandDims := [0]
  indexVectorDim := 1
  wf := scatter_S100000x198_S600000x1_S600000x198_1_0_0_1_wf
def dot_S4000x198_S198x128_S4000x128_1_0_0_1_n_n : DotDims S4000x198 S198x128 S4000x128 where
  lhsContracting := [1]
  rhsContracting := [0]
  lhsNonContracting := [0]
  rhsNonContracting := [1]
  lhsBatch := []
  rhsBatch := []
  wf := dot_S4000x198_S198x128_S4000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x3_S4000x3_1_0_0_1_n_n : DotDims S4000x128 S128x3 S4000x3 where
  lhsContracting := [1]
  rhsContracting := [0]
  lhsNonContracting := [0]
  rhsNonContracting := [1]
  lhsBatch := []
  rhsBatch := []
  wf := dot_S4000x128_S128x3_S4000x3_1_0_0_1_n_n_wf

abbrev win0_0 : Pipeline.Window sig grid0 :=
  Pipeline.Window.ofSpec (Memref.whole main_v10) S4000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S6x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S6x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S4000x198.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S4000x198.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S198x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S198x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S4000x198.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S4000x198.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S198x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S198x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v73) S4000x198.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S4000x198.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S198x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S198x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v92) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v93) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v96) S4000x198.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v114) S4000x198.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v98) S198x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100) S198x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v115) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v116) S4000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v116) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v128) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S128x3.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S128x3.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v129) S1x3.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v130) S4000x3.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x3 : Shape := ⟨2, ![100000, 3]⟩
abbrev S600000x2 : Shape := ⟨2, ![600000, 2]⟩
abbrev S4x100000x64 : Shape := ⟨3, ![4, 100000, 64]⟩
abbrev S6x128 : Shape := ⟨2, ![6, 128]⟩
abbrev S128 : Shape := ⟨1, ![128]⟩
abbrev S4x198x128 : Shape := ⟨3, ![4, 198, 128]⟩
abbrev S4x128 : Shape := ⟨2, ![4, 128]⟩
abbrev S128x3 : Shape := ⟨2, ![128, 3]⟩
abbrev S3 : Shape := ⟨1, ![3]⟩
abbrev S600000x1 : Shape := ⟨2, ![600000, 1]⟩
abbrev S600000 : Shape := ⟨1, ![600000]⟩
abbrev S100000x6 : Shape := ⟨2, ![100000, 6]⟩
abbrev S_ : Shape := ⟨0, ![]⟩
abbrev S600000x6 : Shape := ⟨2, ![600000, 6]⟩
abbrev S100000x1 : Shape := ⟨2, ![100000, 1]⟩
abbrev S100000x128 : Shape := ⟨2, ![100000, 128]⟩
abbrev S1x128 : Shape := ⟨2, ![1, 128]⟩
abbrev S1x100000x64 : Shape := ⟨3, ![1, 100000, 64]⟩
abbrev S100000x64 : Shape := ⟨2, ![100000, 64]⟩
abbrev S100000x198 : Shape := ⟨2, ![100000, 198]⟩
abbrev S1x198x128 : Shape := ⟨3, ![1, 198, 128]⟩
abbrev S198x128 : Shape := ⟨2, ![198, 128]⟩
abbrev S600000x198 : Shape := ⟨2, ![600000, 198]⟩
abbrev S600000x128 : Shape := ⟨2, ![600000, 128]⟩
abbrev S1x3 : Shape := ⟨2, ![1, 3]⟩

abbrev nBuf : Space → Nat
  | .hbm => 249
  | .vmem => 0
  | .smem => 0
  | _ => 0

abbrev hbmTy0_0 (i : Nat) : BufTy := match i % 128 with
  | 0 => ⟨S100000x3, .f32⟩
  | 1 => ⟨S600000x2, .i32⟩
  | 2 => ⟨S100000x3, .f32⟩
  | 3 => ⟨S4x100000x64, .f32⟩
  | 4 => ⟨S6x128, .f32⟩
  | 5 => ⟨S6x128, .f32⟩
  | 6 => ⟨S128, .f32⟩
  | 7 => ⟨S4x198x128, .f32⟩
  | 8 => ⟨S4x198x128, .f32⟩
  | 9 => ⟨S4x128, .f32⟩
  | 10 => ⟨S128x3, .f32⟩
  | 11 => ⟨S128x3, .f32⟩
  | 12 => ⟨S3, .f32⟩
  | 13 => ⟨S600000x1, .i32⟩
  | 14 => ⟨S600000, .i32⟩
  | 15 => ⟨S600000x1, .i32⟩
  | 16 => ⟨S600000, .i32⟩
  | 17 => ⟨S100000x6, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x6, .f32⟩
  | 27 => ⟨S_, .f32⟩
  | 28 => ⟨S100000x6, .f32⟩
  | 29 => ⟨S600000x1, .i32⟩
  | 30 => ⟨S100000x6, .f32⟩
  | 31 => ⟨S_, .f32⟩
  | 32 => ⟨S600000x1, .f32⟩
  | 33 => ⟨S_, .f32⟩
  | 34 => ⟨S100000x1, .f32⟩
  | 35 => ⟨S600000x1, .i32⟩
  | 36 => ⟨S100000x1, .f32⟩
  | 37 => ⟨S_, .f32⟩
  | 38 => ⟨S100000x1, .f32⟩
  | 39 => ⟨S100000x1, .f32⟩
  | 40 => ⟨S100000x6, .f32⟩
  | 41 => ⟨S100000x6, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S1x100000x64, .f32⟩
  | 52 => ⟨S100000x64, .f32⟩
  | 53 => ⟨S100000x198, .f32⟩
  | 54 => ⟨S1x198x128, .f32⟩
  | 55 => ⟨S198x128, .f32⟩
  | 56 => ⟨S1x198x128, .f32⟩
  | 57 => ⟨S198x128, .f32⟩
  | 58 => ⟨S1x128, .f32⟩
  | 59 => ⟨S128, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x198, .f32⟩
  | 69 => ⟨S_, .f32⟩
  | 70 => ⟨S100000x198, .f32⟩
  | 71 => ⟨S600000x1, .i32⟩
  | 72 => ⟨S100000x198, .f32⟩
  | 73 => ⟨S_, .f32⟩
  | 74 => ⟨S600000x1, .f32⟩
  | 75 => ⟨S_, .f32⟩
  | 76 => ⟨S100000x1, .f32⟩
  | 77 => ⟨S600000x1, .i32⟩
  | 78 => ⟨S100000x1, .f32⟩
  | 79 => ⟨S_, .f32⟩
  | 80 => ⟨S100000x1, .f32⟩
  | 81 => ⟨S100000x1, .f32⟩
  | 82 => ⟨S100000x198, .f32⟩
  | 83 => ⟨S100000x198, .f32⟩
  | 84 => ⟨S100000x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S1x100000x64, .f32⟩
  | 94 => ⟨S100000x64, .f32⟩
  | 95 => ⟨S100000x198, .f32⟩
  | 96 => ⟨S1x198x128, .f32⟩
  | 97 => ⟨S198x128, .f32⟩
  | 98 => ⟨S1x198x128, .f32⟩
  | 99 => ⟨S198x128, .f32⟩
  | 100 => ⟨S1x128, .f32⟩
  | 101 => ⟨S128, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x198, .f32⟩
  | 111 => ⟨S_, .f32⟩
  | 112 => ⟨S100000x198, .f32⟩
  | 113 => ⟨S600000x1, .i32⟩
  | 114 => ⟨S100000x198, .f32⟩
  | 115 => ⟨S_, .f32⟩
  | 116 => ⟨S600000x1, .f32⟩
  | 117 => ⟨S_, .f32⟩
  | 118 => ⟨S100000x1, .f32⟩
  | 119 => ⟨S600000x1, .i32⟩
  | 120 => ⟨S100000x1, .f32⟩
  | 121 => ⟨S_, .f32⟩
  | 122 => ⟨S100000x1, .f32⟩
  | 123 => ⟨S100000x1, .f32⟩
  | 124 => ⟨S100000x198, .f32⟩
  | 125 => ⟨S100000x198, .f32⟩
  | 126 => ⟨S100000x128, .f32⟩
  | 127 => ⟨S100000x128, .f32⟩
  | _ => ⟨S100000x3, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S1x100000x64, .f32⟩
  | 8 => ⟨S100000x64, .f32⟩
  | 9 => ⟨S100000x198, .f32⟩
  | 10 => ⟨S1x198x128, .f32⟩
  | 11 => ⟨S198x128, .f32⟩
  | 12 => ⟨S1x198x128, .f32⟩
  | 13 => ⟨S198x128, .f32⟩
  | 14 => ⟨S1x128, .f32⟩
  | 15 => ⟨S128, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x198, .f32⟩
  | 25 => ⟨S_, .f32⟩
  | 26 => ⟨S100000x198, .f32⟩
  | 27 => ⟨S600000x1, .i32⟩
  | 28 => ⟨S100000x198, .f32⟩
  | 29 => ⟨S_, .f32⟩
  | 30 => ⟨S600000x1, .f32⟩
  | 31 => ⟨S_, .f32⟩
  | 32 => ⟨S100000x1, .f32⟩
  | 33 => ⟨S600000x1, .i32⟩
  | 34 => ⟨S100000x1, .f32⟩
  | 35 => ⟨S_, .f32⟩
  | 36 => ⟨S100000x1, .f32⟩
  | 37 => ⟨S100000x1, .f32⟩
  | 38 => ⟨S100000x198, .f32⟩
  | 39 => ⟨S100000x198, .f32⟩
  | 40 => ⟨S100000x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S1x100000x64, .f32⟩
  | 50 => ⟨S100000x64, .f32⟩
  | 51 => ⟨S100000x198, .f32⟩
  | 52 => ⟨S1x198x128, .f32⟩
  | 53 => ⟨S198x128, .f32⟩
  | 54 => ⟨S1x198x128, .f32⟩
  | 55 => ⟨S198x128, .f32⟩
  | 56 => ⟨S1x128, .f32⟩
  | 57 => ⟨S128, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x198, .f32⟩
  | 67 => ⟨S_, .f32⟩
  | 68 => ⟨S100000x198, .f32⟩
  | 69 => ⟨S600000x1, .i32⟩
  | 70 => ⟨S100000x198, .f32⟩
  | 71 => ⟨S_, .f32⟩
  | 72 => ⟨S600000x1, .f32⟩
  | 73 => ⟨S_, .f32⟩
  | 74 => ⟨S100000x1, .f32⟩
  | 75 => ⟨S600000x1, .i32⟩
  | 76 => ⟨S100000x1, .f32⟩
  | 77 => ⟨S_, .f32⟩
  | 78 => ⟨S100000x1, .f32⟩
  | 79 => ⟨S100000x1, .f32⟩
  | 80 => ⟨S100000x198, .f32⟩
  | 81 => ⟨S100000x198, .f32⟩
  | 82 => ⟨S100000x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x128, .f32⟩
  | 100 => ⟨S_, .f32⟩
  | 101 => ⟨S100000x128, .f32⟩
  | 102 => ⟨S600000x1, .i32⟩
  | 103 => ⟨S100000x128, .f32⟩
  | 104 => ⟨S_, .f32⟩
  | 105 => ⟨S600000x1, .f32⟩
  | 106 => ⟨S_, .f32⟩
  | 107 => ⟨S100000x1, .f32⟩
  | 108 => ⟨S600000x1, .i32⟩
  | 109 => ⟨S100000x1, .f32⟩
  | 110 => ⟨S_, .f32⟩
  | 111 => ⟨S100000x1, .f32⟩
  | 112 => ⟨S100000x1, .f32⟩
  | 113 => ⟨S100000x128, .f32⟩
  | 114 => ⟨S100000x128, .f32⟩
  | 115 => ⟨S100000x3, .f32⟩
  | 116 => ⟨S100000x3, .f32⟩
  | 117 => ⟨S100000x3, .f32⟩
  | 118 => ⟨S1x3, .f32⟩
  | 119 => ⟨S100000x3, .f32⟩
  | 120 => ⟨S100000x3, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_4 : Ref sig .tc := ⟨.hbm, 60, rfl⟩
abbrev main_v39 : Ref sig .tc := ⟨.hbm, 61, rfl⟩
abbrev main_v40 : Ref sig .tc := ⟨.hbm, 62, rfl⟩
abbrev main_c_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call1_cst : Ref sig .tc := ⟨.hbm, 90, rfl⟩
abbrev main_call1_v0 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_10 : Ref sig .tc := ⟨.hbm, 102, rfl⟩
abbrev main_v73 : Ref sig .tc := ⟨.hbm, 103, rfl⟩
abbrev main_v74 : Ref sig .tc := ⟨.hbm, 104, rfl⟩
abbrev main_c_11 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_12 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_13 : Ref sig .tc := ⟨.hbm, 115, rfl⟩
abbrev main_v83 : Ref sig .tc := ⟨.hbm, 116, rfl⟩
abbrev main_cst_14 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_call2_cst : Ref sig .tc := ⟨.hbm, 132, rfl⟩
abbrev main_call2_v0 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_16 : Ref sig .tc := ⟨.hbm, 144, rfl⟩
abbrev main_v107 : Ref sig .tc := ⟨.hbm, 145, rfl⟩
abbrev main_v108 : Ref sig .tc := ⟨.hbm, 146, rfl⟩
abbrev main_c_17 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_18 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_19 : Ref sig .tc := ⟨.hbm, 157, rfl⟩
abbrev main_v117 : Ref sig .tc := ⟨.hbm, 158, rfl⟩
abbrev main_cst_20 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_21 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_call3_cst : Ref sig .tc := ⟨.hbm, 174, rfl⟩
abbrev main_call3_v0 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_c_22 : Ref sig .tc := ⟨.hbm, 186, rfl⟩
abbrev main_v141 : Ref sig .tc := ⟨.hbm, 187, rfl⟩
abbrev main_v142 : Ref sig .tc := ⟨.hbm, 188, rfl⟩
abbrev main_c_23 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_24 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_25 : Ref sig .tc := ⟨.hbm, 199, rfl⟩
abbrev main_v151 : Ref sig .tc := ⟨.hbm, 200, rfl⟩
abbrev main_cst_26 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_27 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_call4_cst : Ref sig .tc := ⟨.hbm, 216, rfl⟩
abbrev main_call4_v0 : Ref sig .tc := ⟨.hbm, 217, rfl⟩
abbrev main_v165 : Ref sig .tc := ⟨.hbm, 218, rfl⟩
abbrev main_c_28 : Ref sig .tc := ⟨.hbm, 219, rfl⟩
abbrev main_v166 : Ref sig .tc := ⟨.hbm, 220, rfl⟩
abbrev main_v167 : Ref sig .tc := ⟨.hbm, 221, rfl⟩
abbrev main_c_29 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_cst_30 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_31 : Ref sig .tc := ⟨.hbm, 232, rfl⟩
abbrev main_v176 : Ref sig .tc := ⟨.hbm, 233, rfl⟩
abbrev main_cst_32 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_cst_33 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩

abbrev nD : Nat := 1
abbrev τ : Topo := Topo.v7x

variable {F : FTy → Type} [FloatOps F]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  concatenates_S100000x3_S100000x3_S100000x6_d1 : Shape.Concatenates [S100000x3, S100000x3] S100000x6 1
  bcast_S_S600000 : S_.BroadcastsInDim S600000 (![] : Fin 0 → Fin S600000.rank)
  bcast_S600000_S600000x1_0 : S600000.BroadcastsInDim S600000x1 (![0] : Fin 1 → Fin S600000x1.rank)
  bcast_S_S100000x6 : S_.BroadcastsInDim S100000x6 (![] : Fin 0 → Fin S100000x6.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x6_0_1 : S100000x1.BroadcastsInDim S100000x6 (![0, 1] : Fin 2 → Fin S100000x6.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S4x100000x64_S1x100000x64_0_0_0 : S4x100000x64.Slices ![0, 0, 0] S1x100000x64
  shapeCasts_S1x100000x64_S100000x64 : S1x100000x64.ShapeCasts S100000x64
  concatenates_S100000x128_S100000x64_S100000x6_S100000x198_d1 : Shape.Concatenates [S100000x128, S100000x64, S100000x6] S100000x198 1
  slices_S4x198x128_S1x198x128_0_0_0 : S4x198x128.Slices ![0, 0, 0] S1x198x128
  shapeCasts_S1x198x128_S198x128 : S1x198x128.ShapeCasts S198x128
  slices_S4x128_S1x128_0_0 : S4x128.Slices ![0, 0] S1x128
  shapeCasts_S1x128_S128 : S1x128.ShapeCasts S128
  bcast_S_S100000x198 : S_.BroadcastsInDim S100000x198 (![] : Fin 0 → Fin S100000x198.rank)
  bcast_S100000x1_S100000x198_0_1 : S100000x1.BroadcastsInDim S100000x198 (![0, 1] : Fin 2 → Fin S100000x198.rank)
  slices_S4x100000x64_S1x100000x64_1_0_0 : S4x100000x64.Slices ![1, 0, 0] S1x100000x64
  slices_S4x198x128_S1x198x128_1_0_0 : S4x198x128.Slices ![1, 0, 0] S1x198x128
  slices_S4x128_S1x128_1_0 : S4x128.Slices ![1, 0] S1x128
  slices_S4x100000x64_S1x100000x64_2_0_0 : S4x100000x64.Slices ![2, 0, 0] S1x100000x64
  slices_S4x198x128_S1x198x128_2_0_0 : S4x198x128.Slices ![2, 0, 0] S1x198x128
  slices_S4x128_S1x128_2_0 : S4x128.Slices ![2, 0] S1x128
  slices_S4x100000x64_S1x100000x64_3_0_0 : S4x100000x64.Slices ![3, 0, 0] S1x100000x64
  slices_S4x198x128_S1x198x128_3_0_0 : S4x198x128.Slices ![3, 0, 0] S1x198x128
  slices_S4x128_S1x128_3_0 : S4x128.Slices ![3, 0] S1x128
  bcast_S100000x1_S100000x128_0_1 : S100000x1.BroadcastsInDim S100000x128 (![0, 1] : Fin 2 → Fin S100000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S100000x6_S600000x1_S600000x6_1_0_n_n_0_1_16_wf : GatherDims.WF S100000x6 S600000x1 S600000x6 [1] [0] [] [0] [] 1 ![1, 6]
  scatter_S100000x6_S600000x1_S600000x6_1_0_0_1_wf : ScatterDims.WF S100000x6 S600000x1 S600000x6 [1] [0] [0] 1
  scatter_S100000x1_S600000x1_S600000x1_1_0_0_1_wf : ScatterDims.WF S100000x1 S600000x1 S600000x1 [1] [0] [0] 1
  dot_S100000x6_S6x128_S100000x128_1_0_0_1_n_n_wf : DotDims.WF S100000x6 S6x128 S100000x128 [1] [0] [0] [1] [] []
  gather_S100000x198_S600000x1_S600000x198_1_0_n_n_0_1_1198_wf : GatherDims.WF S100000x198 S600000x1 S600000x198 [1] [0] [] [0] [] 1 ![1, 198]
  scatter_S100000x198_S600000x1_S600000x198_1_0_0_1_wf : ScatterDims.WF S100000x198 S600000x1 S600000x198 [1] [0] [0] 1
  dot_S100000x198_S198x128_S100000x128_1_0_0_1_n_n_wf : DotDims.WF S100000x198 S198x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x3_S100000x3_1_0_0_1_n_n_wf : DotDims.WF S100000x128 S128x3 S100000x3 [1] [0] [0] [1] [] []

variable [Facts₀]

def gather_S100000x6_S600000x1_S600000x6_1_0_n_n_0_1_16 : GatherDims S100000x6 S600000x1 S600000x6 where
  offsetDims := [1]
  collapsedSliceDims := [0]
  operandBatchingDims := []
  startIndicesBatchingDims := []
  startIndexMap := [0]
  indexVectorDim := 1
  sliceSizes := ![1, 6]
  wf := gather_S100000x6_S600000x1_S600000x6_1_0_n_n_0_1_16_wf
def scatter_S100000x6_S600000x1_S600000x6_1_0_0_1 : ScatterDims S100000x6 S600000x1 S600000x6 where
  updateWindowDims := [1]
  insertedWindowDims := [0]
  scatterDimsToOperandDims := [0]
  indexVectorDim := 1
  wf := scatter_S100000x6_S600000x1_S600000x6_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def gather_S100000x198_S600000x1_S600000x198_1_0_n_n_0_1_1198 : GatherDims S100000x198 S600000x1 S600000x198 where
  offsetDims := [1]
  collapsedSliceDims := [0]
  operandBatchingDims := []
  startIndicesBatchingDims := []
  startIndexMap := [0]
  indexVectorDim := 1
  sliceSizes := ![1, 198]
  wf := gather_S100000x198_S600000x1_S600000x198_1_0_n_n_0_1_1198_wf
def scatter_S100000x198_S600000x1_S600000x198_1_0_0_1 : ScatterDims S100000x198 S600000x1 S600000x198 where
  updateWindowDims := [1]
  insertedWindowDims := [0]
  scatterDimsToOperandDims := [0]
  indexVectorDim := 1
  wf := scatter_S100000x198_S600000x1_S600000x198_1_0_0_1_wf
def dot_S100000x198_S198x128_S100000x128_1_0_0_1_n_n : DotDims S100000x198 S198x128 S100000x128 where
  lhsContracting := [1]
  rhsContracting := [0]
  lhsNonContracting := [0]
  rhsNonContracting := [1]
  lhsBatch := []
  rhsBatch := []
  wf := dot_S100000x198_S198x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.Kernel.Reg0.lean ====
/-
  Layer 0 of the network as one grid of 25 row tiles. At a grid point the body reads a 4000-row tile of the
  node features and of the neighbour means, the two weight matrices and the bias row whole, and stores
  into the 4000-row tile of its result the two matrix products added together plus the bias row, clipped below at zero.
  This module states what the result tile holds after the body as a function of the five input tiles, proves the
  body's triple by symbolic execution, and packages the per-point facts the tiled launch needs, at an
  arbitrary valuation `V` of the arrays as the launch finds them.
-/
import proofs.«137384_j82008105549935_1_alg».proof.Proof.Gen.Kernel.Launch
import proofs.«137384_j82008105549935_1_alg».proof.Proof.Gen.Kernel.Skeleton
import proofs.«137384_j82008105549935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of operand `w` that grid point `t` sees, read off the operand's array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's staging buffer holds its tile at every point, whether the point fetched it or the tile index did not move. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole result tile as one rectangle. -/
abbrev r0_out : Rect S4000x128 := Rect.unit (s := S4000x128) ![0, 0] S4000x128.size inb_S4000x128_S4000x128_0_0

/-- The result tile after the body: its one store, of the layer's arithmetic on the five input tiles read whole. -/
def out0_5 (x0 : Vec F S4000x6 .f32) (x1 : Vec F S4000x6 .f32) (x2 : Vec F S6x128 .f32) (x3 : Vec F S6x128 .f32) (x4 : Vec F S1x128 .f32) : Vec F S4000x128 .f32 :=
  View.canon [⟨r0_out, k0_pay1 (View.ld x0 (Rect.unit (s := S4000x6) ![0, 0] S4000x6.size inb_S4000x6_S4000x6_0_0)) (View.ld x1 (Rect.unit (s := S4000x6) ![0, 0] S4000x6.size inb_S4000x6_S4000x6_0_0)) (View.ld x2 (Rect.unit (s := S6x128) ![0, 0] S6x128.size inb_S6x128_S6x128_0_0)) (View.ld x3 (Rect.unit (s := S6x128) ![0, 0] S6x128.size inb_S6x128_S6x128_0_0)) (View.ld x4 (Rect.unit (s := S1x128) ![0, 0] S1x128.size inb_S1x128_S1x128_0_0))⟩]

/-- The one store covers the tile. -/
theorem cover0_5 (p0 : Vec F S4000x128 .f32) (y : S4000x128.Idx) :
    ∃ pc ∈ ([⟨r0_out, p0⟩] : List (View.Piece (Elt F) S4000x128 .f32)), y ∈ pc.1.set :=
  View.cover_of_tiled [⟨r0_out, p0⟩] S4000x128.size (by rfl) y

set_option maxHeartbeats 1000000 in
/-- The body on whole staging buffers: the inputs keep their contents and the result buffer ends at `out0_5` of them. -/
theorem sound_kernel0 (c : Dev nD) (E : Set ℕ) (i : grid0.Coords) (arg1 : Memref sig .tc .vmem S4000x6 .f32) (harg1 : arg1.IsWhole) (arg2 : Memref sig .tc .vmem S4000x6 .f32) (harg2 : arg2.IsWhole) (arg3 : Memref sig .tc .vmem S6x128 .f32) (harg3 : arg3.IsWhole) (arg4 : Memref sig .tc .vmem S6x128 .f32) (harg4 : arg4.IsWhole) (arg5 : Memref sig .tc .vmem S1x128 .f32) (harg5 : arg5.IsWhole) (arg6 : Memref sig .tc .vmem S4000x128 .f32) (harg6 : arg6.IsWhole)
    (x0 : Vec F S4000x6 .f32) (x1 : Vec F S4000x6 .f32) (x2 : Vec F S6x128 .f32) (x3 : Vec F S6x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__graph_conv_kernel i arg1 harg1 arg2 harg2 arg3 harg3 arg4 harg4 arg5 harg5 arg6 harg6) K := by
  simp only [cc0__graph_conv_kernel_eq_skeleton]; unfold cc0__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of this layer's launch: the arrays as found; after the body each input buffer at its tile and the
    result buffer at `out0_5` of the tiles; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is entered with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the tiled launch, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Reg1.lean ====
/-
  Layer 1 of the network as one grid of 25 row tiles. At a grid point the body reads a 4000-row tile of the
  node features and of the neighbour means, the two weight matrices and the bias row whole, and stores
  into the 4000-row tile of its result the two matrix products added together plus the bias row, clipped below at zero.
  This module states what the result tile holds after the body as a function of the five input tiles, proves the
  body's triple by symbolic execution, and packages the per-point facts the tiled launch needs, at an
  arbitrary valuation `V` of the arrays as the launch finds them.
-/
import proofs.«137384_j82008105549935_1_alg».proof.Proof.Gen.Kernel.Launch
import proofs.«137384_j82008105549935_1_alg».proof.Proof.Gen.Kernel.Skeleton
import proofs.«137384_j82008105549935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of operand `w` that grid point `t` sees, read off the operand's array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's staging buffer holds its tile at every point, whether the point fetched it or the tile index did not move. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole result tile as one rectangle. -/
abbrev r1_out : Rect S4000x128 := Rect.unit (s := S4000x128) ![0, 0] S4000x128.size inb_S4000x128_S4000x128_0_0

/-- The result tile after the body: its one store, of the layer's arithmetic on the five input tiles read whole. -/
def out1_5 (x0 : Vec F S4000x198 .f32) (x1 : Vec F S4000x198 .f32) (x2 : Vec F S198x128 .f32) (x3 : Vec F S198x128 .f32) (x4 : Vec F S1x128 .f32) : Vec F S4000x128 .f32 :=
  View.canon [⟨r1_out, k1_pay1 (View.ld x0 (Rect.unit (s := S4000x198) ![0, 0] S4000x198.size inb_S4000x198_S4000x198_0_0)) (View.ld x1 (Rect.unit (s := S4000x198) ![0, 0] S4000x198.size inb_S4000x198_S4000x198_0_0)) (View.ld x2 (Rect.unit (s := S198x128) ![0, 0] S198x128.size inb_S198x128_S198x128_0_0)) (View.ld x3 (Rect.unit (s := S198x128) ![0, 0] S198x128.size inb_S198x128_S198x128_0_0)) (View.ld x4 (Rect.unit (s := S1x128) ![0, 0] S1x128.size inb_S1x128_S1x128_0_0))⟩]

/-- The one store covers the tile. -/
theorem cover1_5 (p0 : Vec F S4000x128 .f32) (y : S4000x128.Idx) :
    ∃ pc ∈ ([⟨r1_out, p0⟩] : List (View.Piece (Elt F) S4000x128 .f32)), y ∈ pc.1.set :=
  View.cover_of_tiled [⟨r1_out, p0⟩] S4000x128.size (by rfl) y

set_option maxHeartbeats 1000000 in
/-- The body on whole staging buffers: the inputs keep their contents and the result buffer ends at `out1_5` of them. -/
theorem sound_kernel1 (c : Dev nD) (E : Set ℕ) (i : grid1.Coords) (arg1 : Memref sig .tc .vmem S4000x198 .f32) (harg1 : arg1.IsWhole) (arg2 : Memref sig .tc .vmem S4000x198 .f32) (harg2 : arg2.IsWhole) (arg3 : Memref sig .tc .vmem S198x128 .f32) (harg3 : arg3.IsWhole) (arg4 : Memref sig .tc .vmem S198x128 .f32) (harg4 : arg4.IsWhole) (arg5 : Memref sig .tc .vmem S1x128 .f32) (harg5 : arg5.IsWhole) (arg6 : Memref sig .tc .vmem S4000x128 .f32) (harg6 : arg6.IsWhole)
    (x0 : Vec F S4000x198 .f32) (x1 : Vec F S4000x198 .f32) (x2 : Vec F S198x128 .f32) (x3 : Vec F S198x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__graph_conv_kernel i arg1 harg1 arg2 harg2 arg3 harg3 arg4 harg4 arg5 harg5 arg6 harg6) K := by
  simp only [cc1__graph_conv_kernel_eq_skeleton]; unfold cc1__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this layer's launch: the arrays as found; after the body each input buffer at its tile and the
    result buffer at `out1_5` of the tiles; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is entered with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the tiled launch, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Reg2.lean ====
/-
  Layer 2 of the network as one grid of 25 row tiles. At a grid point the body reads a 4000-row tile of the
  node features and of the neighbour means, the two weight matrices and the bias row whole, and stores
  into the 4000-row tile of its result the two matrix products added together plus the bias row, clipped below at zero.
  This module states what the result tile holds after the body as a function of the five input tiles, proves the
  body's triple by symbolic execution, and packages the per-point facts the tiled launch needs, at an
  arbitrary valuation `V` of the arrays as the launch finds them.
-/
import proofs.«137384_j82008105549935_1_alg».proof.Proof.Gen.Kernel.Launch
import proofs.«137384_j82008105549935_1_alg».proof.Proof.Gen.Kernel.Skeleton
import proofs.«137384_j82008105549935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of operand `w` that grid point `t` sees, read off the operand's array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input's staging buffer holds its tile at every point, whether the point fetched it or the tile index did not move. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole result tile as one rectangle. -/
abbrev r2_out : Rect S4000x128 := Rect.unit (s := S4000x128) ![0, 0] S4000x128.size inb_S4000x128_S4000x128_0_0

/-- The result tile after the body: its one store, of the layer's arithmetic on the five input tiles read whole. -/
def out2_5 (x0 : Vec F S4000x198 .f32) (x1 : Vec F S4000x198 .f32) (x2 : Vec F S198x128 .f32) (x3 : Vec F S198x128 .f32) (x4 : Vec F S1x128 .f32) : Vec F S4000x128 .f32 :=
  View.canon [⟨r2_out, k2_pay1 (View.ld x0 (Rect.unit (s := S4000x198) ![0, 0] S4000x198.size inb_S4000x198_S4000x198_0_0)) (View.ld x1 (Rect.unit (s := S4000x198) ![0, 0] S4000x198.size inb_S4000x198_S4000x198_0_0)) (View.ld x2 (Rect.unit (s := S198x128) ![0, 0] S198x128.size inb_S198x128_S198x128_0_0)) (View.ld x3 (Rect.unit (s := S198x128) ![0, 0] S198x128.size inb_S198x128_S198x128_0_0)) (View.ld x4 (Rect.unit (s := S1x128) ![0, 0] S1x128.size inb_S1x128_S1x128_0_0))⟩]

/-- The one store covers the tile. -/
theorem cover2_5 (p0 : Vec F S4000x128 .f32) (y : S4000x128.Idx) :
    ∃ pc ∈ ([⟨r2_out, p0⟩] : List (View.Piece (Elt F) S4000x128 .f32)), y ∈ pc.1.set :=
  View.cover_of_tiled [⟨r2_out, p0⟩] S4000x128.size (by rfl) y

set_option maxHeartbeats 1000000 in
/-- The body on whole staging buffers: the inputs keep their contents and the result buffer ends at `out2_5` of them. -/
theorem sound_kernel2 (c : Dev nD) (E : Set ℕ) (i : grid2.Coords) (arg1 : Memref sig .tc .vmem S4000x198 .f32) (harg1 : arg1.IsWhole) (arg2 : Memref sig .tc .vmem S4000x198 .f32) (harg2 : arg2.IsWhole) (arg3 : Memref sig .tc .vmem S198x128 .f32) (harg3 : arg3.IsWhole) (arg4 : Memref sig .tc .vmem S198x128 .f32) (harg4 : arg4.IsWhole) (arg5 : Memref sig .tc .vmem S1x128 .f32) (harg5 : arg5.IsWhole) (arg6 : Memref sig .tc .vmem S4000x128 .f32) (harg6 : arg6.IsWhole)
    (x0 : Vec F S4000x198 .f32) (x1 : Vec F S4000x198 .f32) (x2 : Vec F S198x128 .f32) (x3 : Vec F S198x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__graph_conv_kernel i arg1 harg1 arg2 harg2 arg3 harg3 arg4 harg4 arg5 harg5 arg6 harg6) K := by
  simp only [cc2__graph_conv_kernel_eq_skeleton]; unfold cc2__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of this layer's launch: the arrays as found; after the body each input buffer at its tile and the
    result buffer at `out2_5` of the tiles; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is entered with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the tiled launch, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Reg3.lean ====
/-
  Layer 3 of the network as one grid of 25 row tiles. At a grid point the body reads a 4000-row tile of the
  node features and of the neighbour means, the two weight matrices and the bias row whole, and stores
  into the 4000-row tile of its result the two matrix products added together plus the bias row, clipped below at zero.
  This module states what the result tile holds after the body as a function of the five input tiles, proves the
  body's triple by symbolic execution, and packages the per-point facts the tiled launch needs, at an
  arbitrary valuation `V` of the arrays as the launch finds them.
-/
import proofs.«137384_j82008105549935_1_alg».proof.Proof.Gen.Kernel.Launch
import proofs.«137384_j82008105549935_1_alg».proof.Proof.Gen.Kernel.Skeleton
import proofs.«137384_j82008105549935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of operand `w` that grid point `t` sees, read off the operand's array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input's staging buffer holds its tile at every point, whether the point fetched it or the tile index did not move. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole result tile as one rectangle. -/
abbrev r3_out : Rect S4000x128 := Rect.unit (s := S4000x128) ![0, 0] S4000x128.size inb_S4000x128_S4000x128_0_0

/-- The result tile after the body: its one store, of the layer's arithmetic on the five input tiles read whole. -/
def out3_5 (x0 : Vec F S4000x198 .f32) (x1 : Vec F S4000x198 .f32) (x2 : Vec F S198x128 .f32) (x3 : Vec F S198x128 .f32) (x4 : Vec F S1x128 .f32) : Vec F S4000x128 .f32 :=
  View.canon [⟨r3_out, k3_pay1 (View.ld x0 (Rect.unit (s := S4000x198) ![0, 0] S4000x198.size inb_S4000x198_S4000x198_0_0)) (View.ld x1 (Rect.unit (s := S4000x198) ![0, 0] S4000x198.size inb_S4000x198_S4000x198_0_0)) (View.ld x2 (Rect.unit (s := S198x128) ![0, 0] S198x128.size inb_S198x128_S198x128_0_0)) (View.ld x3 (Rect.unit (s := S198x128) ![0, 0] S198x128.size inb_S198x128_S198x128_0_0)) (View.ld x4 (Rect.unit (s := S1x128) ![0, 0] S1x128.size inb_S1x128_S1x128_0_0))⟩]

/-- The one store covers the tile. -/
theorem cover3_5 (p0 : Vec F S4000x128 .f32) (y : S4000x128.Idx) :
    ∃ pc ∈ ([⟨r3_out, p0⟩] : List (View.Piece (Elt F) S4000x128 .f32)), y ∈ pc.1.set :=
  View.cover_of_tiled [⟨r3_out, p0⟩] S4000x128.size (by rfl) y

set_option maxHeartbeats 1000000 in
/-- The body on whole staging buffers: the inputs keep their contents and the result buffer ends at `out3_5` of them. -/
theorem sound_kernel3 (c : Dev nD) (E : Set ℕ) (i : grid3.Coords) (arg1 : Memref sig .tc .vmem S4000x198 .f32) (harg1 : arg1.IsWhole) (arg2 : Memref sig .tc .vmem S4000x198 .f32) (harg2 : arg2.IsWhole) (arg3 : Memref sig .tc .vmem S198x128 .f32) (harg3 : arg3.IsWhole) (arg4 : Memref sig .tc .vmem S198x128 .f32) (harg4 : arg4.IsWhole) (arg5 : Memref sig .tc .vmem S1x128 .f32) (harg5 : arg5.IsWhole) (arg6 : Memref sig .tc .vmem S4000x128 .f32) (harg6 : arg6.IsWhole)
    (x0 : Vec F S4000x198 .f32) (x1 : Vec F S4000x198 .f32) (x2 : Vec F S198x128 .f32) (x3 : Vec F S198x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__graph_conv_kernel i arg1 harg1 arg2 harg2 arg3 harg3 arg4 harg4 arg5 harg5 arg6 harg6) K := by
  simp only [cc3__graph_conv_kernel_eq_skeleton]; unfold cc3__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this layer's launch: the arrays as found; after the body each input buffer at its tile and the
    result buffer at `out3_5` of the tiles; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is entered with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the tiled launch, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Kernel.Reg4.lean ====
/-
  Layer 4 of the network as one grid of 25 row tiles. At a grid point the body reads a 4000-row tile of the
  node features and of the neighbour means, the two weight matrices and the bias row whole, and stores
  into the 4000-row tile of its result the two matrix products added together plus the bias row, clipped below at zero.
  This module states what the result tile holds after the body as a function of the five input tiles, proves the
  body's triple by symbolic execution, and packages the per-point facts the tiled launch needs, at an
  arbitrary valuation `V` of the arrays as the launch finds them.
-/
import proofs.«137384_j82008105549935_1_alg».proof.Proof.Gen.Kernel.Launch
import proofs.«137384_j82008105549935_1_alg».proof.Proof.Gen.Kernel.Skeleton
import proofs.«137384_j82008105549935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of operand `w` that grid point `t` sees, read off the operand's array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input's staging buffer holds its tile at every point, whether the point fetched it or the tile index did not move. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The whole result tile as one rectangle. -/
abbrev r4_out : Rect S4000x128 := Rect.unit (s := S4000x128) ![0, 0] S4000x128.size inb_S4000x128_S4000x128_0_0

/-- The result tile after the body: its one store, of the layer's arithmetic on the five input tiles read whole. -/
def out4_5 (x0 : Vec F S4000x198 .f32) (x1 : Vec F S4000x198 .f32) (x2 : Vec F S198x128 .f32) (x3 : Vec F S198x128 .f32) (x4 : Vec F S1x128 .f32) : Vec F S4000x128 .f32 :=
  View.canon [⟨r4_out, k4_pay1 (View.ld x0 (Rect.unit (s := S4000x198) ![0, 0] S4000x198.size inb_S4000x198_S4000x198_0_0)) (View.ld x1 (Rect.unit (s := S4000x198) ![0, 0] S4000x198.size inb_S4000x198_S4000x198_0_0)) (View.ld x2 (Rect.unit (s := S198x128) ![0, 0] S198x128.size inb_S198x128_S198x128_0_0)) (View.ld x3 (Rect.unit (s := S198x128) ![0, 0] S198x128.size inb_S198x128_S198x128_0_0)) (View.ld x4 (Rect.unit (s := S1x128) ![0, 0] S1x128.size inb_S1x128_S1x128_0_0))⟩]

/-- The one store covers the tile. -/
theorem cover4_5 (p0 : Vec F S4000x128 .f32) (y : S4000x128.Idx) :
    ∃ pc ∈ ([⟨r4_out, p0⟩] : List (View.Piece (Elt F) S4000x128 .f32)), y ∈ pc.1.set :=
  View.cover_of_tiled [⟨r4_out, p0⟩] S4000x128.size (by rfl) y

set_option maxHeartbeats 1000000 in
/-- The body on whole staging buffers: the inputs keep their contents and the result buffer ends at `out4_5` of them. -/
theorem sound_kernel4 (c : Dev nD) (E : Set ℕ) (i : grid4.Coords) (arg1 : Memref sig .tc .vmem S4000x198 .f32) (harg1 : arg1.IsWhole) (arg2 : Memref sig .tc .vmem S4000x198 .f32) (harg2 : arg2.IsWhole) (arg3 : Memref sig .tc .vmem S198x128 .f32) (harg3 : arg3.IsWhole) (arg4 : Memref sig .tc .vmem S198x128 .f32) (harg4 : arg4.IsWhole) (arg5 : Memref sig .tc .vmem S1x128 .f32) (harg5 : arg5.IsWhole) (arg6 : Memref sig .tc .vmem S4000x128 .f32) (harg6 : arg6.IsWhole)
    (x0 : Vec F S4000x198 .f32) (x1 : Vec F S4000x198 .f32) (x2 : Vec F S198x128 .f32) (x3 : Vec F S198x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__graph_conv_kernel i arg1 harg1 arg2 harg2 arg3 harg3 arg4 harg4 arg5 harg5 arg6 harg6) K := by
  simp only [cc4__graph_conv_kernel_eq_skeleton]; unfold cc4__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of this layer's launch: the arrays as found; after the body each input buffer at its tile and the
    result buffer at `out4_5` of the tiles; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is entered with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the tiled launch, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Kernel.Reg5.lean ====
/-
  Layer 5 of the network as one grid of 25 row tiles. At a grid point the body reads a 4000-row tile of the
  node features and of the neighbour means, the two weight matrices and the bias row whole, and stores
  into the 4000-row tile of its result the two matrix products added together plus the bias row.
  This module states what the result tile holds after the body as a function of the five input tiles, proves the
  body's triple by symbolic execution, and packages the per-point facts the tiled launch needs, at an
  arbitrary valuation `V` of the arrays as the launch finds them.
-/
import proofs.«137384_j82008105549935_1_alg».proof.Proof.Gen.Kernel.Launch
import proofs.«137384_j82008105549935_1_alg».proof.Proof.Gen.Kernel.Skeleton
import proofs.«137384_j82008105549935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of operand `w` that grid point `t` sees, read off the operand's array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input's staging buffer holds its tile at every point, whether the point fetched it or the tile index did not move. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole result tile as one rectangle. -/
abbrev r5_out : Rect S4000x3 := Rect.unit (s := S4000x3) ![0, 0] S4000x3.size inb_S4000x3_S4000x3_0_0

/-- The result tile after the body: its one store, of the layer's arithmetic on the five input tiles read whole. -/
def out5_5 (x0 : Vec F S4000x128 .f32) (x1 : Vec F S4000x128 .f32) (x2 : Vec F S128x3 .f32) (x3 : Vec F S128x3 .f32) (x4 : Vec F S1x3 .f32) : Vec F S4000x3 .f32 :=
  View.canon [⟨r5_out, k5_pay1 (View.ld x0 (Rect.unit (s := S4000x128) ![0, 0] S4000x128.size inb_S4000x128_S4000x128_0_0)) (View.ld x1 (Rect.unit (s := S4000x128) ![0, 0] S4000x128.size inb_S4000x128_S4000x128_0_0)) (View.ld x2 (Rect.unit (s := S128x3) ![0, 0] S128x3.size inb_S128x3_S128x3_0_0)) (View.ld x3 (Rect.unit (s := S128x3) ![0, 0] S128x3.size inb_S128x3_S128x3_0_0)) (View.ld x4 (Rect.unit (s := S1x3) ![0, 0] S1x3.size inb_S1x3_S1x3_0_0))⟩]

/-- The one store covers the tile. -/
theorem cover5_5 (p0 : Vec F S4000x3 .f32) (y : S4000x3.Idx) :
    ∃ pc ∈ ([⟨r5_out, p0⟩] : List (View.Piece (Elt F) S4000x3 .f32)), y ∈ pc.1.set :=
  View.cover_of_tiled [⟨r5_out, p0⟩] S4000x3.size (by rfl) y

set_option maxHeartbeats 1000000 in
/-- The body on whole staging buffers: the inputs keep their contents and the result buffer ends at `out5_5` of them. -/
theorem sound_kernel5 (c : Dev nD) (E : Set ℕ) (i : grid5.Coords) (arg1 : Memref sig .tc .vmem S4000x128 .f32) (harg1 : arg1.IsWhole) (arg2 : Memref sig .tc .vmem S4000x128 .f32) (harg2 : arg2.IsWhole) (arg3 : Memref sig .tc .vmem S128x3 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S4000x3 .f32) (harg6 : arg6.IsWhole)
    (x0 : Vec F S4000x128 .f32) (x1 : Vec F S4000x128 .f32) (x2 : Vec F S128x3 .f32) (x3 : Vec F S128x3 .f32) (x4 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__graph_conv_kernel i arg1 harg1 arg2 harg2 arg3 harg3 arg4 harg4 arg5 harg5 arg6 harg6) K := by
  simp only [cc5__graph_conv_kernel_eq_skeleton]; unfold cc5__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this layer's launch: the arrays as found; after the body each input buffer at its tile and the
    result buffer at `out5_5` of the tiles; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is entered with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the tiled launch, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.Kernel.Fold.lean ====
/-
  The contents of every unscoped array between the items of the program: the launch memory, then alternately a
  stretch of host operations applied to it and a layer's tiled launch, which leaves its five operand arrays as found
  and its result array at what the 25 write-backs assemble. An array that no host stretch writes and that is no
  layer's result still holds its launch contents at the end.
-/
import proofs.«137384_j82008105549935_1_alg».proof.Proof.Kernel.Reg0
import proofs.«137384_j82008105549935_1_alg».proof.Proof.Kernel.Reg1
import proofs.«137384_j82008105549935_1_alg».proof.Proof.Kernel.Reg2
import proofs.«137384_j82008105549935_1_alg».proof.Proof.Kernel.Reg3
import proofs.«137384_j82008105549935_1_alg».proof.Proof.Kernel.Reg4
import proofs.«137384_j82008105549935_1_alg».proof.Proof.Kernel.Reg5
import proofs.«137384_j82008105549935_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- An operand array of a layer's launch (any window but the result's) is left as found. -/
theorem arrAt_in0 (V : (c : Dev nD) → (b : Ref sig .tc) → Buf (Elt F) ((c : Thread nD τ).loc b)) (c : Dev nD) :
    ∀ (w : Fin cfg0.W), w ≠ 5 → (dat0 V c).arrAt w cfg0.N = V c (Pipeline.arrRef spec0 w)
  | ⟨0, _⟩, _ => ((dat0 V c).arrAt_in 0 rfl _).trans (A_eq0 V c 0)
  | ⟨1, _⟩, _ => ((dat0 V c).arrAt_in 1 rfl _).trans (A_eq0 V c 1)
  | ⟨2, _⟩, _ => ((dat0 V c).arrAt_in 2 rfl _).trans (A_eq0 V c 2)
  | ⟨3, _⟩, _ => ((dat0 V c).arrAt_in 3 rfl _).trans (A_eq0 V c 3)
  | ⟨4, _⟩, _ => ((dat0 V c).arrAt_in 4 rfl _).trans (A_eq0 V c 4)
  | ⟨5, _⟩, h => absurd rfl h
theorem arrAt_in1 (V : (c : Dev nD) → (b : Ref sig .tc) → Buf (Elt F) ((c : Thread nD τ).loc b)) (c : Dev nD) :
    ∀ (w : Fin cfg1.W), w ≠ 5 → (dat1 V c).arrAt w cfg1.N = V c (Pipeline.arrRef spec1 w)
  | ⟨0, _⟩, _ => ((dat1 V c).arrAt_in 0 rfl _).trans (A_eq1 V c 0)
  | ⟨1, _⟩, _ => ((dat1 V c).arrAt_in 1 rfl _).trans (A_eq1 V c 1)
  | ⟨2, _⟩, _ => ((dat1 V c).arrAt_in 2 rfl _).trans (A_eq1 V c 2)
  | ⟨3, _⟩, _ => ((dat1 V c).arrAt_in 3 rfl _).trans (A_eq1 V c 3)
  | ⟨4, _⟩, _ => ((dat1 V c).arrAt_in 4 rfl _).trans (A_eq1 V c 4)
  | ⟨5, _⟩, h => absurd rfl h
theorem arrAt_in2 (V : (c : Dev nD) → (b : Ref sig .tc) → Buf (Elt F) ((c : Thread nD τ).loc b)) (c : Dev nD) :
    ∀ (w : Fin cfg2.W), w ≠ 5 → (dat2 V c).arrAt w cfg2.N = V c (Pipeline.arrRef spec2 w)
  | ⟨0, _⟩, _ => ((dat2 V c).arrAt_in 0 rfl _).trans (A_eq2 V c 0)
  | ⟨1, _⟩, _ => ((dat2 V c).arrAt_in 1 rfl _).trans (A_eq2 V c 1)
  | ⟨2, _⟩, _ => ((dat2 V c).arrAt_in 2 rfl _).trans (A_eq2 V c 2)
  | ⟨3, _⟩, _ => ((dat2 V c).arrAt_in 3 rfl _).trans (A_eq2 V c 3)
  | ⟨4, _⟩, _ => ((dat2 V c).arrAt_in 4 rfl _).trans (A_eq2 V c 4)
  | ⟨5, _⟩, h => absurd rfl h
theorem arrAt_in3 (V : (c : Dev nD) → (b : Ref sig .tc) → Buf (Elt F) ((c : Thread nD τ).loc b)) (c : Dev nD) :
    ∀ (w : Fin cfg3.W), w ≠ 5 → (dat3 V c).arrAt w cfg3.N = V c (Pipeline.arrRef spec3 w)
  | ⟨0, _⟩, _ => ((dat3 V c).arrAt_in 0 rfl _).trans (A_eq3 V c 0)
  | ⟨1, _⟩, _ => ((dat3 V c).arrAt_in 1 rfl _).trans (A_eq3 V c 1)
  | ⟨2, _⟩, _ => ((dat3 V c).arrAt_in 2 rfl _).trans (A_eq3 V c 2)
  | ⟨3, _⟩, _ => ((dat3 V c).arrAt_in 3 rfl _).trans (A_eq3 V c 3)
  | ⟨4, _⟩, _ => ((dat3 V c).arrAt_in 4 rfl _).trans (A_eq3 V c 4)
  | ⟨5, _⟩, h => absurd rfl h
theorem arrAt_in4 (V : (c : Dev nD) → (b : Ref sig .tc) → Buf (Elt F) ((c : Thread nD τ).loc b)) (c : Dev nD) :
    ∀ (w : Fin cfg4.W), w ≠ 5 → (dat4 V c).arrAt w cfg4.N = V c (Pipeline.arrRef spec4 w)
  | ⟨0, _⟩, _ => ((dat4 V c).arrAt_in 0 rfl _).trans (A_eq4 V c 0)
  | ⟨1, _⟩, _ => ((dat4 V c).arrAt_in 1 rfl _).trans (A_eq4 V c 1)
  | ⟨2, _⟩, _ => ((dat4 V c).arrAt_in 2 rfl _).trans (A_eq4 V c 2)
  | ⟨3, _⟩, _ => ((dat4 V c).arrAt_in 3 rfl _).trans (A_eq4 V c 3)
  | ⟨4, _⟩, _ => ((dat4 V c).arrAt_in 4 rfl _).trans (A_eq4 V c 4)
  | ⟨5, _⟩, h => absurd rfl h
theorem arrAt_in5 (V : (c : Dev nD) → (b : Ref sig .tc) → Buf (Elt F) ((c : Thread nD τ).loc b)) (c : Dev nD) :
    ∀ (w : Fin cfg5.W), w ≠ 5 → (dat5 V c).arrAt w cfg5.N = V c (Pipeline.arrRef spec5 w)
  | ⟨0, _⟩, _ => ((dat5 V c).arrAt_in 0 rfl _).trans (A_eq5 V c 0)
  | ⟨1, _⟩, _ => ((dat5 V c).arrAt_in 1 rfl _).trans (A_eq5 V c 1)
  | ⟨2, _⟩, _ => ((dat5 V c).arrAt_in 2 rfl _).trans (A_eq5 V c 2)
  | ⟨3, _⟩, _ => ((dat5 V c).arrAt_in 3 rfl _).trans (A_eq5 V c 3)
  | ⟨4, _⟩, _ => ((dat5 V c).arrAt_in 4 rfl _).trans (A_eq5 V c 4)
  | ⟨5, _⟩, h => absurd rfl h

/-- The arrays at launch. -/
abbrev W0 : Dev nD → Valuation τ sig (Elt F) := fun c b => m (c, b)

/-- After host stretch 0 (layer 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After layer 0: its arrays at what the launch leaves, every other array as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- Layer 0 changes only its result array. -/
theorem W2_keep (c : Dev nD) (b : Ref sig .tc) (hb : b ≠ main_v24) :
    W2 m c (Proc.devRef .tc b) = W1 m c (Proc.devRef .tc b) := by
  by_cases h : ∃ w, Pipeline.arrRef spec0 w = b
  · obtain ⟨w, rfl⟩ := h
    rw [W2_arr]
    exact arrAt_in0 (U1 m) c w (fun e => hb (by subst e; rfl))
  · exact W2_of_ne m c b fun w e => h ⟨w, e⟩
/-- A host stretch changes only what its operations write. -/
theorem W1_keep (c : Dev nD) (r : Ref sig .tc) (h : r ∉ hostOps0_W) : W1 m c (Proc.devRef .tc r) = W0 m c (Proc.devRef .tc r) :=
  StableHlo.after_of_writes_sub hostOps0 _ hostOps0_writes h

/-- After host stretch 1 (layer 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After layer 1: its arrays at what the launch leaves, every other array as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- Layer 1 changes only its result array. -/
theorem W4_keep (c : Dev nD) (b : Ref sig .tc) (hb : b ≠ main_v47) :
    W4 m c (Proc.devRef .tc b) = W3 m c (Proc.devRef .tc b) := by
  by_cases h : ∃ w, Pipeline.arrRef spec1 w = b
  · obtain ⟨w, rfl⟩ := h
    rw [W4_arr]
    exact arrAt_in1 (U3 m) c w (fun e => hb (by subst e; rfl))
  · exact W4_of_ne m c b fun w e => h ⟨w, e⟩
/-- A host stretch changes only what its operations write. -/
theorem W3_keep (c : Dev nD) (r : Ref sig .tc) (h : r ∉ hostOps1_W) : W3 m c (Proc.devRef .tc r) = W2 m c (Proc.devRef .tc r) :=
  StableHlo.after_of_writes_sub hostOps1 _ hostOps1_writes h

/-- After host stretch 2 (layer 2's entry). -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- After layer 2: its arrays at what the launch leaves, every other array as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- Layer 2 changes only its result array. -/
theorem W6_keep (c : Dev nD) (b : Ref sig .tc) (hb : b ≠ main_v70) :
    W6 m c (Proc.devRef .tc b) = W5 m c (Proc.devRef .tc b) := by
  by_cases h : ∃ w, Pipeline.arrRef spec2 w = b
  · obtain ⟨w, rfl⟩ := h
    rw [W6_arr]
    exact arrAt_in2 (U5 m) c w (fun e => hb (by subst e; rfl))
  · exact W6_of_ne m c b fun w e => h ⟨w, e⟩
/-- A host stretch changes only what its operations write. -/
theorem W5_keep (c : Dev nD) (r : Ref sig .tc) (h : r ∉ hostOps2_W) : W5 m c (Proc.devRef .tc r) = W4 m c (Proc.devRef .tc r) :=
  StableHlo.after_of_writes_sub hostOps2 _ hostOps2_writes h

/-- After host stretch 3 (layer 3's entry). -/
abbrev W7 : Dev nD → Valuation τ sig (Elt F) := fun c => StableHlo.after hostOps3 (W6 m c)
abbrev U7 : (c : Dev nD) → (b : Ref sig .tc) → Buf (Elt F) ((c : Thread nD τ).loc b) := fun c b => W7 m c b
/-- After layer 3: its arrays at what the launch leaves, every other array as entered. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
/-- Layer 3 changes only its result array. -/
theorem W8_keep (c : Dev nD) (b : Ref sig .tc) (hb : b ≠ main_v93) :
    W8 m c (Proc.devRef .tc b) = W7 m c (Proc.devRef .tc b) := by
  by_cases h : ∃ w, Pipeline.arrRef spec3 w = b
  · obtain ⟨w, rfl⟩ := h
    rw [W8_arr]
    exact arrAt_in3 (U7 m) c w (fun e => hb (by subst e; rfl))
  · exact W8_of_ne m c b fun w e => h ⟨w, e⟩
/-- A host stretch changes only what its operations write. -/
theorem W7_keep (c : Dev nD) (r : Ref sig .tc) (h : r ∉ hostOps3_W) : W7 m c (Proc.devRef .tc r) = W6 m c (Proc.devRef .tc r) :=
  StableHlo.after_of_writes_sub hostOps3 _ hostOps3_writes h

/-- After host stretch 4 (layer 4's entry). -/
abbrev W9 : Dev nD → Valuation τ sig (Elt F) := fun c => StableHlo.after hostOps4 (W8 m c)
abbrev U9 : (c : Dev nD) → (b : Ref sig .tc) → Buf (Elt F) ((c : Thread nD τ).loc b) := fun c b => W9 m c b
/-- After layer 4: its arrays at what the launch leaves, every other array as entered. -/
def W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)
/-- Layer 4 changes only its result array. -/
theorem W10_keep (c : Dev nD) (b : Ref sig .tc) (hb : b ≠ main_v116) :
    W10 m c (Proc.devRef .tc b) = W9 m c (Proc.devRef .tc b) := by
  by_cases h : ∃ w, Pipeline.arrRef spec4 w = b
  · obtain ⟨w, rfl⟩ := h
    rw [W10_arr]
    exact arrAt_in4 (U9 m) c w (fun e => hb (by subst e; rfl))
  · exact W10_of_ne m c b fun w e => h ⟨w, e⟩
/-- A host stretch changes only what its operations write. -/
theorem W9_keep (c : Dev nD) (r : Ref sig .tc) (h : r ∉ hostOps4_W) : W9 m c (Proc.devRef .tc r) = W8 m c (Proc.devRef .tc r) :=
  StableHlo.after_of_writes_sub hostOps4 _ hostOps4_writes h

/-- After host stretch 5 (layer 5's entry). -/
abbrev W11 : Dev nD → Valuation τ sig (Elt F) := fun c => StableHlo.after hostOps5 (W10 m c)
abbrev U11 : (c : Dev nD) → (b : Ref sig .tc) → Buf (Elt F) ((c : Thread nD τ).loc b) := fun c b => W11 m c b
/-- After layer 5: its arrays at what the launch leaves, every other array as entered. -/
def W12 (c : Dev nD) : Valuation τ sig (Elt F) :=
  Pipeline.withArrays spec5 c (W11 m c) fun w => (dat5 (U11 m) c).arrAt w cfg5.N
theorem W12_arr (c : Dev nD) (w : Fin cfg5.W) :
    W12 m c (Proc.devRef .tc (Pipeline.arrRef spec5 w)) = (dat5 (U11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev U12 : (c : Dev nD) → (b : Ref sig .tc) → Buf (Elt F) ((c : Thread nD τ).loc b) := fun c b => W12 m c b
theorem hF5 (c : Dev nD) (w : Fin cfg5.W) : (dat5 (U11 m) c).arrAt w cfg5.N = U12 m c (Pipeline.arrRef spec5 w) :=
  (W12_arr m c w).symm
theorem hrest5 (c : Dev nD) : ∀ b, b ∉ Finset.univ.image (Pipeline.arrRef spec5) → U12 m c b = U11 m c b :=
  fun b hb => W12_of_ne m c b fun w e => hb (Finset.mem_image.mpr ⟨w, Finset.mem_univ _, e⟩)
/-- Layer 5 changes only its result array. -/
theorem W12_keep (c : Dev nD) (b : Ref sig .tc) (hb : b ≠ main_v130) :
    W12 m c (Proc.devRef .tc b) = W11 m c (Proc.devRef .tc b) := by
  by_cases h : ∃ w, Pipeline.arrRef spec5 w = b
  · obtain ⟨w, rfl⟩ := h
    rw [W12_arr]
    exact arrAt_in5 (U11 m) c w (fun e => hb (by subst e; rfl))
  · exact W12_of_ne m c b fun w e => h ⟨w, e⟩
/-- A host stretch changes only what its operations write. -/
theorem W11_keep (c : Dev nD) (r : Ref sig .tc) (h : r ∉ hostOps5_W) : W11 m c (Proc.devRef .tc r) = W10 m c (Proc.devRef .tc r) :=
  StableHlo.after_of_writes_sub hostOps5 _ hostOps5_writes h

/-- An array no item writes ends at its launch contents. -/
theorem W12_kept (c : Dev nD) (b : Ref sig .tc) (h1 : b ∉ hostOps0_W) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) (h10 : b ≠ main_v116) (h11 : b ∉ hostOps5_W) (h12 : b ≠ main_v130) :
    W12 m c (Proc.devRef .tc b) = m ((c : Thread nD τ).loc b) :=
  (W12_keep m c b h12).trans <| (W11_keep m c b h11).trans <| (W10_keep m c b h10).trans <| (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| (W1_keep m c b h1).trans <| rfl

/-! The same for every earlier boundary: an array that no item so far wrote holds its launch contents, and one that nothing
    after the first host stretch wrote holds what that stretch left. -/
theorem W1_kept (c : Dev nD) (b : Ref sig .tc) (h1 : b ∉ hostOps0_W) :
    W1 m c (Proc.devRef .tc b) = m ((c : Thread nD τ).loc b) :=
  (W1_keep m c b h1).trans <| rfl
theorem W2_kept (c : Dev nD) (b : Ref sig .tc) (h1 : b ∉ hostOps0_W) (h2 : b ≠ main_v24) :
    W2 m c (Proc.devRef .tc b) = m ((c : Thread nD τ).loc b) :=
  (W2_keep m c b h2).trans <| (W1_keep m c b h1).trans <| rfl
theorem W3_kept (c : Dev nD) (b : Ref sig .tc) (h1 : b ∉ hostOps0_W) (h2 : b ≠ main_v24) (h3 : b ∉ hostOps1_W) :
    W3 m c (Proc.devRef .tc b) = m ((c : Thread nD τ).loc b) :=
  (W3_keep m c b h3).trans <| (W2_keep m c b h2).trans <| (W1_keep m c b h1).trans <| rfl
theorem W4_kept (c : Dev nD) (b : Ref sig .tc) (h1 : b ∉ hostOps0_W) (h2 : b ≠ main_v24) (h3 : b ∉ hostOps1_W) (h4 : b ≠ main_v47) :
    W4 m c (Proc.devRef .tc b) = m ((c : Thread nD τ).loc b) :=
  (W4_keep m c b h4).trans <| (W3_keep m c b h3).trans <| (W2_keep m c b h2).trans <| (W1_keep m c b h1).trans <| rfl
theorem W5_kept (c : Dev nD) (b : Ref sig .tc) (h1 : b ∉ hostOps0_W) (h2 : b ≠ main_v24) (h3 : b ∉ hostOps1_W) (h4 : b ≠ main_v47) (h5 : b ∉ hostOps2_W) :
    W5 m c (Proc.devRef .tc b) = m ((c : Thread nD τ).loc b) :=
  (W5_keep m c b h5).trans <| (W4_keep m c b h4).trans <| (W3_keep m c b h3).trans <| (W2_keep m c b h2).trans <| (W1_keep m c b h1).trans <| rfl
theorem W6_kept (c : Dev nD) (b : Ref sig .tc) (h1 : b ∉ hostOps0_W) (h2 : b ≠ main_v24) (h3 : b ∉ hostOps1_W) (h4 : b ≠ main_v47) (h5 : b ∉ hostOps2_W) (h6 : b ≠ main_v70) :
    W6 m c (Proc.devRef .tc b) = m ((c : Thread nD τ).loc b) :=
  (W6_keep m c b h6).trans <| (W5_keep m c b h5).trans <| (W4_keep m c b h4).trans <| (W3_keep m c b h3).trans <| (W2_keep m c b h2).trans <| (W1_keep m c b h1).trans <| rfl
theorem W7_kept (c : Dev nD) (b : Ref sig .tc) (h1 : b ∉ hostOps0_W) (h2 : b ≠ main_v24) (h3 : b ∉ hostOps1_W) (h4 : b ≠ main_v47) (h5 : b ∉ hostOps2_W) (h6 : b ≠ main_v70) (h7 : b ∉ hostOps3_W) :
    W7 m c (Proc.devRef .tc b) = m ((c : Thread nD τ).loc b) :=
  (W7_keep m c b h7).trans <| (W6_keep m c b h6).trans <| (W5_keep m c b h5).trans <| (W4_keep m c b h4).trans <| (W3_keep m c b h3).trans <| (W2_keep m c b h2).trans <| (W1_keep m c b h1).trans <| rfl
theorem W8_kept (c : Dev nD) (b : Ref sig .tc) (h1 : b ∉ hostOps0_W) (h2 : b ≠ main_v24) (h3 : b ∉ hostOps1_W) (h4 : b ≠ main_v47) (h5 : b ∉ hostOps2_W) (h6 : b ≠ main_v70) (h7 : b ∉ hostOps3_W) (h8 : b ≠ main_v93) :
    W8 m c (Proc.devRef .tc b) = m ((c : Thread nD τ).loc b) :=
  (W8_keep m c b h8).trans <| (W7_keep m c b h7).trans <| (W6_keep m c b h6).trans <| (W5_keep m c b h5).trans <| (W4_keep m c b h4).trans <| (W3_keep m c b h3).trans <| (W2_keep m c b h2).trans <| (W1_keep m c b h1).trans <| rfl
theorem W9_kept (c : Dev nD) (b : Ref sig .tc) (h1 : b ∉ hostOps0_W) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) :
    W9 m c (Proc.devRef .tc b) = m ((c : Thread nD τ).loc b) :=
  (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| (W1_keep m c b h1).trans <| rfl
theorem W10_kept (c : Dev nD) (b : Ref sig .tc) (h1 : b ∉ hostOps0_W) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) (h10 : b ≠ main_v116) :
    W10 m c (Proc.devRef .tc b) = m ((c : Thread nD τ).loc b) :=
  (W10_keep m c b h10).trans <| (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| (W1_keep m c b h1).trans <| rfl
theorem W11_kept (c : Dev nD) (b : Ref sig .tc) (h1 : b ∉ hostOps0_W) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) (h10 : b ≠ main_v116) (h11 : b ∉ hostOps5_W) :
    W11 m c (Proc.devRef .tc b) = m ((c : Thread nD τ).loc b) :=
  (W11_keep m c b h11).trans <| (W10_keep m c b h10).trans <| (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| (W1_keep m c b h1).trans <| rfl
theorem W2_toW1 (c : Dev nD) (b : Ref sig .tc) (h2 : b ≠ main_v24) :
    W2 m c (Proc.devRef .tc b) = W1 m c (Proc.devRef .tc b) :=
  (W2_keep m c b h2).trans <| rfl
theorem W3_toW1 (c : Dev nD) (b : Ref sig .tc) (h2 : b ≠ main_v24) (h3 : b ∉ hostOps1_W) :
    W3 m c (Proc.devRef .tc b) = W1 m c (Proc.devRef .tc b) :=
  (W3_keep m c b h3).trans <| (W2_keep m c b h2).trans <| rfl
theorem W4_toW1 (c : Dev nD) (b : Ref sig .tc) (h2 : b ≠ main_v24) (h3 : b ∉ hostOps1_W) (h4 : b ≠ main_v47) :
    W4 m c (Proc.devRef .tc b) = W1 m c (Proc.devRef .tc b) :=
  (W4_keep m c b h4).trans <| (W3_keep m c b h3).trans <| (W2_keep m c b h2).trans <| rfl
theorem W5_toW1 (c : Dev nD) (b : Ref sig .tc) (h2 : b ≠ main_v24) (h3 : b ∉ hostOps1_W) (h4 : b ≠ main_v47) (h5 : b ∉ hostOps2_W) :
    W5 m c (Proc.devRef .tc b) = W1 m c (Proc.devRef .tc b) :=
  (W5_keep m c b h5).trans <| (W4_keep m c b h4).trans <| (W3_keep m c b h3).trans <| (W2_keep m c b h2).trans <| rfl
theorem W6_toW1 (c : Dev nD) (b : Ref sig .tc) (h2 : b ≠ main_v24) (h3 : b ∉ hostOps1_W) (h4 : b ≠ main_v47) (h5 : b ∉ hostOps2_W) (h6 : b ≠ main_v70) :
    W6 m c (Proc.devRef .tc b) = W1 m c (Proc.devRef .tc b) :=
  (W6_keep m c b h6).trans <| (W5_keep m c b h5).trans <| (W4_keep m c b h4).trans <| (W3_keep m c b h3).trans <| (W2_keep m c b h2).trans <| rfl
theorem W7_toW1 (c : Dev nD) (b : Ref sig .tc) (h2 : b ≠ main_v24) (h3 : b ∉ hostOps1_W) (h4 : b ≠ main_v47) (h5 : b ∉ hostOps2_W) (h6 : b ≠ main_v70) (h7 : b ∉ hostOps3_W) :
    W7 m c (Proc.devRef .tc b) = W1 m c (Proc.devRef .tc b) :=
  (W7_keep m c b h7).trans <| (W6_keep m c b h6).trans <| (W5_keep m c b h5).trans <| (W4_keep m c b h4).trans <| (W3_keep m c b h3).trans <| (W2_keep m c b h2).trans <| rfl
theorem W8_toW1 (c : Dev nD) (b : Ref sig .tc) (h2 : b ≠ main_v24) (h3 : b ∉ hostOps1_W) (h4 : b ≠ main_v47) (h5 : b ∉ hostOps2_W) (h6 : b ≠ main_v70) (h7 : b ∉ hostOps3_W) (h8 : b ≠ main_v93) :
    W8 m c (Proc.devRef .tc b) = W1 m c (Proc.devRef .tc b) :=
  (W8_keep m c b h8).trans <| (W7_keep m c b h7).trans <| (W6_keep m c b h6).trans <| (W5_keep m c b h5).trans <| (W4_keep m c b h4).trans <| (W3_keep m c b h3).trans <| (W2_keep m c b h2).trans <| rfl
theorem W9_toW1 (c : Dev nD) (b : Ref sig .tc) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) :
    W9 m c (Proc.devRef .tc b) = W1 m c (Proc.devRef .tc b) :=
  (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| rfl
theorem W10_toW1 (c : Dev nD) (b : Ref sig .tc) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) (h10 : b ≠ main_v116) :
    W10 m c (Proc.devRef .tc b) = W1 m c (Proc.devRef .tc b) :=
  (W10_keep m c b h10).trans <| (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| rfl
theorem W11_toW1 (c : Dev nD) (b : Ref sig .tc) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) (h10 : b ≠ main_v116) (h11 : b ∉ hostOps5_W) :
    W11 m c (Proc.devRef .tc b) = W1 m c (Proc.devRef .tc b) :=
  (W11_keep m c b h11).trans <| (W10_keep m c b h10).trans <| (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| rfl

/-- Every layer's proof data, each at its entry contents. -/
abbrev admH : (p : Fin 6) → (pcfgs (F := F) p).Adm := fun p => (cfgs p).toPCfg_adm
def pdatsH : (p : Fin 6) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c

abbrev 𝒱H : Variants := Variants.none
abbrev LH : GSem nD τ sig → Finset Unit := fun _ => ∅
abbrev lvH : GSem nD τ sig → Unit → ℕ := fun _ _ => 0

local notation "𝕄" => MT nD τ sig Unit (Elt F) ℕ (UR sig nD τ) ℕ

/-- What rides beside the arrays through every item: the generator register at some state and the core owing nothing. -/
abbrev RH (c : Dev nD) : sProp 𝕄 := iprop((∃ r, prngReg c r) ∗ ∃ W, owes (c : Thread nD τ) (0 : CellTallies nD τ sig Unit) W)

abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev TnH (c : Dev nD) : sProp 𝕄 := iprop(StableHlo.held (c : Thread nD τ) (Pipeline.ucRefs τ sig) (W12 m c) ∗ ∃ r, prngReg c r)

end Cert.Kernel.Hand

end
-- ==== Proof.Kernel.Seg0.lean ====
/-
  Layer 0's tiled launch as one item of the program: entered with every unscoped array at its contents after host
  stretch 0, it takes its six arrays out of them, runs the 25 grid points (the body obligation), and gives the arrays
  back with the result array at what the write-backs assemble and the rest unchanged.
-/
import proofs.«137384_j82008105549935_1_alg».proof.Proof.Kernel.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

set_option backward.isDefEq.respectTransparency.types false in
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg1.lean ====
/-
  Layer 1's tiled launch as one item of the program: entered with every unscoped array at its contents after host
  stretch 1, it takes its six arrays out of them, runs the 25 grid points (the body obligation), and gives the arrays
  back with the result array at what the write-backs assemble and the rest unchanged.
-/
import proofs.«137384_j82008105549935_1_alg».proof.Proof.Kernel.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

set_option backward.isDefEq.respectTransparency.types false in
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg2.lean ====
/-
  Layer 2's tiled launch as one item of the program: entered with every unscoped array at its contents after host
  stretch 2, it takes its six arrays out of them, runs the 25 grid points (the body obligation), and gives the arrays
  back with the result array at what the write-backs assemble and the rest unchanged.
-/
import proofs.«137384_j82008105549935_1_alg».proof.Proof.Kernel.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

set_option backward.isDefEq.respectTransparency.types false in
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ LH lvH 2 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (U5 m c) (U6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg3.lean ====
/-
  Layer 3's tiled launch as one item of the program: entered with every unscoped array at its contents after host
  stretch 3, it takes its six arrays out of them, runs the 25 grid points (the body obligation), and gives the arrays
  back with the result array at what the write-backs assemble and the rest unchanged.
-/
import proofs.«137384_j82008105549935_1_alg».proof.Proof.Kernel.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

set_option backward.isDefEq.respectTransparency.types false in
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ LH lvH 3 fun _ _ => rfl
  pre c := iprop(StableHlo.held (c : Thread nD τ) (Pipeline.ucRefs τ sig) (W7 m c) ∗ RH c)
  post c := iprop(StableHlo.held (c : Thread nD τ) (Pipeline.ucRefs τ sig) (W8 m c) ∗ RH c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (U7 m c) (U8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg4.lean ====
/-
  Layer 4's tiled launch as one item of the program: entered with every unscoped array at its contents after host
  stretch 4, it takes its six arrays out of them, runs the 25 grid points (the body obligation), and gives the arrays
  back with the result array at what the write-backs assemble and the rest unchanged.
-/
import proofs.«137384_j82008105549935_1_alg».proof.Proof.Kernel.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

set_option backward.isDefEq.respectTransparency.types false in
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ LH lvH 4 fun _ _ => rfl
  pre c := iprop(StableHlo.held (c : Thread nD τ) (Pipeline.ucRefs τ sig) (W9 m c) ∗ RH c)
  post c := iprop(StableHlo.held (c : Thread nD τ) (Pipeline.ucRefs τ sig) (W10 m c) ∗ RH c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (U9 m c) (U10 m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg5.lean ====
/-
  Layer 5's tiled launch as one item of the program: entered with every unscoped array at its contents after host
  stretch 5, it takes its six arrays out of them, runs the 25 grid points (the body obligation), and gives the arrays
  back with the result array at what the write-backs assemble and the rest unchanged.
-/
import proofs.«137384_j82008105549935_1_alg».proof.Proof.Kernel.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

set_option backward.isDefEq.respectTransparency.types false in
def reg5 : Pipeline.RegionSeg (pcfgs (F := F)) admH (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (U11 m) c).loose
  hwaits := Pipeline.hwaits_of_owed_zero _ _ _ _ LH lvH 5 fun _ _ => rfl
  pre c := iprop(StableHlo.held (c : Thread nD τ) (Pipeline.ucRefs τ sig) (W11 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := F)) admH (pdatsH m) launch5.win launch5.arr_whole c
      ((pdatsH m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m) ((pdatsH m 5 c).share_full fun _ => rfl)
      (U11 m c) (U12 m c) ((pdatsH m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.Kernel.Run.lean ====
/-
  The whole program as twelve items in order — six stretches of host operations, each followed by a layer's tiled
  launch — run from the launch memory: every weakly fair execution ends, nothing faults, and at the end every unscoped
  array holds the contents the fold `W12` names. The thirteen argument arrays are written by no item, so they end as
  launched.
-/
import proofs.«137384_j82008105549935_1_alg».proof.Proof.Kernel.Seg0
import proofs.«137384_j82008105549935_1_alg».proof.Proof.Kernel.Seg1
import proofs.«137384_j82008105549935_1_alg».proof.Proof.Kernel.Seg2
import proofs.«137384_j82008105549935_1_alg».proof.Proof.Kernel.Seg3
import proofs.«137384_j82008105549935_1_alg».proof.Proof.Kernel.Seg4
import proofs.«137384_j82008105549935_1_alg».proof.Proof.Kernel.Seg5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The program's twelve items in order. -/
abbrev segsH : List (Pipeline.Seg (pcfgs (F := F)) admH (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)),
    .region (reg2 m),
    .host (hsegH hostOps3 hostOps3_sub hostOps3_fresh (W6 m)),
    .region (reg3 m),
    .host (hsegH hostOps4 hostOps4_sub hostOps4_fresh (W8 m)),
    .region (reg4 m),
    .host (hsegH hostOps5 hostOps5_sub hostOps5_fresh (W10 m)),
    .region (reg5 m) ]

set_option backward.isDefEq.respectTransparency.types false in
/-- Every weakly fair execution from memory `m` ends, and every unscoped array then holds what `W12` says. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W12 m c b) :=
  Pipeline.θ_run_regions_kit (pcfgs (F := F)) admH (pdatsH m) () cellOf_inj emb₁ defs₀ 𝒱H LH lvH m ρ main (segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- The argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      (h c _ (mem_uc main_arg0 (by decide))).trans (W12_kept m c main_arg0 (by decide) (by decide) (by decide) (by decide) (by decide) (by decide) (by decide) (by decide) (by decide) (by decide) (by decide) (by decide)),
      (h c _ (mem_uc main_arg1 (by decide))).trans (W12_kept m c main_arg1 (by decide) (by decide) (by decide) (by decide) (by decide) (by decide) (by decide) (by decide) (by decide) (by decide) (by decide) (by decide)),
      (h c _ (mem_uc main_arg2 (by decide))).trans (W12_kept m c main_arg2 (by decide) (by decide) (by decide) (by decide) (by decide) (by decide) (by decide) (by decide) (by decide) (by decide) (by decide) (by decide)),
      (h c _ (mem_uc main_arg3 (by decide))).trans (W12_kept m c main_arg3 (by decide) (by decide) (by decide) (by decide) (by decide) (by decide) (by decide) (by decide) (by decide) (by decide) (by decide) (by decide)),
      (h c _ (mem_uc main_arg4 (by decide))).trans (W12_kept m c main_arg4 (by decide) (by decide) (by decide) (by decide) (by decide) (by decide) (by decide) (by decide) (by decide) (by decide) (by decide) (by decide)),
      (h c _ (mem_uc main_arg5 (by decide))).trans (W12_kept m c main_arg5 (by decide) (by decide) (by decide) (by decide) (by decide) (by decide) (by decide) (by decide) (by decide) (by decide) (by decide) (by decide)),
      (h c _ (mem_uc main_arg6 (by decide))).trans (W12_kept m c main_arg6 (by decide) (by decide) (by decide) (by decide) (by decide) (by decide) (by decide) (by decide) (by decide) (by decide) (by decide) (by decide)),
      (h c _ (mem_uc main_arg7 (by decide))).trans (W12_kept m c main_arg7 (by decide) (by decide) (by decide) (by decide) (by decide) (by decide) (by decide) (by decide) (by decide) (by decide) (by decide) (by decide)),
      (h c _ (mem_uc main_arg8 (by decide))).trans (W12_kept m c main_arg8 (by decide) (by decide) (by decide) (by decide) (by decide) (by decide) (by decide) (by decide) (by decide) (by decide) (by decide) (by decide)),
      (h c _ (mem_uc main_arg9 (by decide))).trans (W12_kept m c main_arg9 (by decide) (by decide) (by decide) (by decide) (by decide) (by decide) (by decide) (by decide) (by decide) (by decide) (by decide) (by decide)),
      (h c _ (mem_uc main_arg10 (by decide))).trans (W12_kept m c main_arg10 (by decide) (by decide) (by decide) (by decide) (by decide) (by decide) (by decide) (by decide) (by decide) (by decide) (by decide) (by decide)),
      (h c _ (mem_uc main_arg11 (by decide))).trans (W12_kept m c main_arg11 (by decide) (by decide) (by decide) (by decide) (by decide) (by decide) (by decide) (by decide) (by decide) (by decide) (by decide) (by decide)),
      (h c _ (mem_uc main_arg12 (by decide))).trans (W12_kept m c main_arg12 (by decide) (by decide) (by decide) (by decide) (by decide) (by decide) (by decide) (by decide) (by decide) (by decide) (by decide) (by decide))⟩) (run_all m ρ)

end Cert.Kernel.Hand

end
-- ==== Proof.KernelIdeal.Reg0.lean ====
/-
  Layer 0 of the network as one grid of 25 row tiles. At a grid point the body reads a 4000-row tile of the
  node features and of the neighbour means, the two weight matrices and the bias row whole, and stores
  into the 4000-row tile of its result the two matrix products added together plus the bias row, clipped below at zero.
  This module states what the result tile holds after the body as a function of the five input tiles, proves the
  body's triple by symbolic execution, and packages the per-point facts the tiled launch needs, at an
  arbitrary valuation `V` of the arrays as the launch finds them.
-/
import proofs.«137384_j82008105549935_1_alg».proof.Proof.Gen.KernelIdeal.Launch
import proofs.«137384_j82008105549935_1_alg».proof.Proof.Gen.KernelIdeal.Skeleton
import proofs.«137384_j82008105549935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of operand `w` that grid point `t` sees, read off the operand's array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's staging buffer holds its tile at every point, whether the point fetched it or the tile index did not move. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole result tile as one rectangle. -/
abbrev r0_out : Rect S4000x128 := Rect.unit (s := S4000x128) ![0, 0] S4000x128.size inb_S4000x128_S4000x128_0_0

/-- The result tile after the body: its one store, of the layer's arithmetic on the five input tiles read whole. -/
def out0_5 (x0 : Vec F S4000x6 .f32) (x1 : Vec F S4000x6 .f32) (x2 : Vec F S6x128 .f32) (x3 : Vec F S6x128 .f32) (x4 : Vec F S1x128 .f32) : Vec F S4000x128 .f32 :=
  View.canon [⟨r0_out, k0_pay1 (View.ld x0 (Rect.unit (s := S4000x6) ![0, 0] S4000x6.size inb_S4000x6_S4000x6_0_0)) (View.ld x1 (Rect.unit (s := S4000x6) ![0, 0] S4000x6.size inb_S4000x6_S4000x6_0_0)) (View.ld x2 (Rect.unit (s := S6x128) ![0, 0] S6x128.size inb_S6x128_S6x128_0_0)) (View.ld x3 (Rect.unit (s := S6x128) ![0, 0] S6x128.size inb_S6x128_S6x128_0_0)) (View.ld x4 (Rect.unit (s := S1x128) ![0, 0] S1x128.size inb_S1x128_S1x128_0_0))⟩]

/-- The one store covers the tile. -/
theorem cover0_5 (p0 : Vec F S4000x128 .f32) (y : S4000x128.Idx) :
    ∃ pc ∈ ([⟨r0_out, p0⟩] : List (View.Piece (Elt F) S4000x128 .f32)), y ∈ pc.1.set :=
  View.cover_of_tiled [⟨r0_out, p0⟩] S4000x128.size (by rfl) y

set_option maxHeartbeats 1000000 in
/-- The body on whole staging buffers: the inputs keep their contents and the result buffer ends at `out0_5` of them. -/
theorem sound_kernel0 (c : Dev nD) (E : Set ℕ) (i : grid0.Coords) (arg1 : Memref sig .tc .vmem S4000x6 .f32) (harg1 : arg1.IsWhole) (arg2 : Memref sig .tc .vmem S4000x6 .f32) (harg2 : arg2.IsWhole) (arg3 : Memref sig .tc .vmem S6x128 .f32) (harg3 : arg3.IsWhole) (arg4 : Memref sig .tc .vmem S6x128 .f32) (harg4 : arg4.IsWhole) (arg5 : Memref sig .tc .vmem S1x128 .f32) (harg5 : arg5.IsWhole) (arg6 : Memref sig .tc .vmem S4000x128 .f32) (harg6 : arg6.IsWhole)
    (x0 : Vec F S4000x6 .f32) (x1 : Vec F S4000x6 .f32) (x2 : Vec F S6x128 .f32) (x3 : Vec F S6x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__graph_conv_kernel i arg1 harg1 arg2 harg2 arg3 harg3 arg4 harg4 arg5 harg5 arg6 harg6) K := by
  simp only [cc0__graph_conv_kernel_eq_skeleton]; unfold cc0__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of this layer's launch: the arrays as found; after the body each input buffer at its tile and the
    result buffer at `out0_5` of the tiles; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is entered with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the tiled launch, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Reg1.lean ====
/-
  Layer 1 of the network as one grid of 25 row tiles. At a grid point the body reads a 4000-row tile of the
  node features and of the neighbour means, the two weight matrices and the bias row whole, and stores
  into the 4000-row tile of its result the two matrix products added together plus the bias row, clipped below at zero.
  This module states what the result tile holds after the body as a function of the five input tiles, proves the
  body's triple by symbolic execution, and packages the per-point facts the tiled launch needs, at an
  arbitrary valuation `V` of the arrays as the launch finds them.
-/
import proofs.«137384_j82008105549935_1_alg».proof.Proof.Gen.KernelIdeal.Launch
import proofs.«137384_j82008105549935_1_alg».proof.Proof.Gen.KernelIdeal.Skeleton
import proofs.«137384_j82008105549935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of operand `w` that grid point `t` sees, read off the operand's array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's staging buffer holds its tile at every point, whether the point fetched it or the tile index did not move. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole result tile as one rectangle. -/
abbrev r1_out : Rect S4000x128 := Rect.unit (s := S4000x128) ![0, 0] S4000x128.size inb_S4000x128_S4000x128_0_0

/-- The result tile after the body: its one store, of the layer's arithmetic on the five input tiles read whole. -/
def out1_5 (x0 : Vec F S4000x198 .f32) (x1 : Vec F S4000x198 .f32) (x2 : Vec F S198x128 .f32) (x3 : Vec F S198x128 .f32) (x4 : Vec F S1x128 .f32) : Vec F S4000x128 .f32 :=
  View.canon [⟨r1_out, k1_pay1 (View.ld x0 (Rect.unit (s := S4000x198) ![0, 0] S4000x198.size inb_S4000x198_S4000x198_0_0)) (View.ld x1 (Rect.unit (s := S4000x198) ![0, 0] S4000x198.size inb_S4000x198_S4000x198_0_0)) (View.ld x2 (Rect.unit (s := S198x128) ![0, 0] S198x128.size inb_S198x128_S198x128_0_0)) (View.ld x3 (Rect.unit (s := S198x128) ![0, 0] S198x128.size inb_S198x128_S198x128_0_0)) (View.ld x4 (Rect.unit (s := S1x128) ![0, 0] S1x128.size inb_S1x128_S1x128_0_0))⟩]

/-- The one store covers the tile. -/
theorem cover1_5 (p0 : Vec F S4000x128 .f32) (y : S4000x128.Idx) :
    ∃ pc ∈ ([⟨r1_out, p0⟩] : List (View.Piece (Elt F) S4000x128 .f32)), y ∈ pc.1.set :=
  View.cover_of_tiled [⟨r1_out, p0⟩] S4000x128.size (by rfl) y

set_option maxHeartbeats 1000000 in
/-- The body on whole staging buffers: the inputs keep their contents and the result buffer ends at `out1_5` of them. -/
theorem sound_kernel1 (c : Dev nD) (E : Set ℕ) (i : grid1.Coords) (arg1 : Memref sig .tc .vmem S4000x198 .f32) (harg1 : arg1.IsWhole) (arg2 : Memref sig .tc .vmem S4000x198 .f32) (harg2 : arg2.IsWhole) (arg3 : Memref sig .tc .vmem S198x128 .f32) (harg3 : arg3.IsWhole) (arg4 : Memref sig .tc .vmem S198x128 .f32) (harg4 : arg4.IsWhole) (arg5 : Memref sig .tc .vmem S1x128 .f32) (harg5 : arg5.IsWhole) (arg6 : Memref sig .tc .vmem S4000x128 .f32) (harg6 : arg6.IsWhole)
    (x0 : Vec F S4000x198 .f32) (x1 : Vec F S4000x198 .f32) (x2 : Vec F S198x128 .f32) (x3 : Vec F S198x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__graph_conv_kernel i arg1 harg1 arg2 harg2 arg3 harg3 arg4 harg4 arg5 harg5 arg6 harg6) K := by
  simp only [cc1__graph_conv_kernel_eq_skeleton]; unfold cc1__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this layer's launch: the arrays as found; after the body each input buffer at its tile and the
    result buffer at `out1_5` of the tiles; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is entered with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the tiled launch, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Reg2.lean ====
/-
  Layer 2 of the network as one grid of 25 row tiles. At a grid point the body reads a 4000-row tile of the
  node features and of the neighbour means, the two weight matrices and the bias row whole, and stores
  into the 4000-row tile of its result the two matrix products added together plus the bias row, clipped below at zero.
  This module states what the result tile holds after the body as a function of the five input tiles, proves the
  body's triple by symbolic execution, and packages the per-point facts the tiled launch needs, at an
  arbitrary valuation `V` of the arrays as the launch finds them.
-/
import proofs.«137384_j82008105549935_1_alg».proof.Proof.Gen.KernelIdeal.Launch
import proofs.«137384_j82008105549935_1_alg».proof.Proof.Gen.KernelIdeal.Skeleton
import proofs.«137384_j82008105549935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of operand `w` that grid point `t` sees, read off the operand's array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input's staging buffer holds its tile at every point, whether the point fetched it or the tile index did not move. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole result tile as one rectangle. -/
abbrev r2_out : Rect S4000x128 := Rect.unit (s := S4000x128) ![0, 0] S4000x128.size inb_S4000x128_S4000x128_0_0

/-- The result tile after the body: its one store, of the layer's arithmetic on the five input tiles read whole. -/
def out2_5 (x0 : Vec F S4000x198 .f32) (x1 : Vec F S4000x198 .f32) (x2 : Vec F S198x128 .f32) (x3 : Vec F S198x128 .f32) (x4 : Vec F S1x128 .f32) : Vec F S4000x128 .f32 :=
  View.canon [⟨r2_out, k2_pay1 (View.ld x0 (Rect.unit (s := S4000x198) ![0, 0] S4000x198.size inb_S4000x198_S4000x198_0_0)) (View.ld x1 (Rect.unit (s := S4000x198) ![0, 0] S4000x198.size inb_S4000x198_S4000x198_0_0)) (View.ld x2 (Rect.unit (s := S198x128) ![0, 0] S198x128.size inb_S198x128_S198x128_0_0)) (View.ld x3 (Rect.unit (s := S198x128) ![0, 0] S198x128.size inb_S198x128_S198x128_0_0)) (View.ld x4 (Rect.unit (s := S1x128) ![0, 0] S1x128.size inb_S1x128_S1x128_0_0))⟩]

/-- The one store covers the tile. -/
theorem cover2_5 (p0 : Vec F S4000x128 .f32) (y : S4000x128.Idx) :
    ∃ pc ∈ ([⟨r2_out, p0⟩] : List (View.Piece (Elt F) S4000x128 .f32)), y ∈ pc.1.set :=
  View.cover_of_tiled [⟨r2_out, p0⟩] S4000x128.size (by rfl) y

set_option maxHeartbeats 1000000 in
/-- The body on whole staging buffers: the inputs keep their contents and the result buffer ends at `out2_5` of them. -/
theorem sound_kernel2 (c : Dev nD) (E : Set ℕ) (i : grid2.Coords) (arg1 : Memref sig .tc .vmem S4000x198 .f32) (harg1 : arg1.IsWhole) (arg2 : Memref sig .tc .vmem S4000x198 .f32) (harg2 : arg2.IsWhole) (arg3 : Memref sig .tc .vmem S198x128 .f32) (harg3 : arg3.IsWhole) (arg4 : Memref sig .tc .vmem S198x128 .f32) (harg4 : arg4.IsWhole) (arg5 : Memref sig .tc .vmem S1x128 .f32) (harg5 : arg5.IsWhole) (arg6 : Memref sig .tc .vmem S4000x128 .f32) (harg6 : arg6.IsWhole)
    (x0 : Vec F S4000x198 .f32) (x1 : Vec F S4000x198 .f32) (x2 : Vec F S198x128 .f32) (x3 : Vec F S198x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__graph_conv_kernel i arg1 harg1 arg2 harg2 arg3 harg3 arg4 harg4 arg5 harg5 arg6 harg6) K := by
  simp only [cc2__graph_conv_kernel_eq_skeleton]; unfold cc2__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of this layer's launch: the arrays as found; after the body each input buffer at its tile and the
    result buffer at `out2_5` of the tiles; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is entered with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the tiled launch, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Reg3.lean ====
/-
  Layer 3 of the network as one grid of 25 row tiles. At a grid point the body reads a 4000-row tile of the
  node features and of the neighbour means, the two weight matrices and the bias row whole, and stores
  into the 4000-row tile of its result the two matrix products added together plus the bias row, clipped below at zero.
  This module states what the result tile holds after the body as a function of the five input tiles, proves the
  body's triple by symbolic execution, and packages the per-point facts the tiled launch needs, at an
  arbitrary valuation `V` of the arrays as the launch finds them.
-/
import proofs.«137384_j82008105549935_1_alg».proof.Proof.Gen.KernelIdeal.Launch
import proofs.«137384_j82008105549935_1_alg».proof.Proof.Gen.KernelIdeal.Skeleton
import proofs.«137384_j82008105549935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of operand `w` that grid point `t` sees, read off the operand's array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input's staging buffer holds its tile at every point, whether the point fetched it or the tile index did not move. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole result tile as one rectangle. -/
abbrev r3_out : Rect S4000x128 := Rect.unit (s := S4000x128) ![0, 0] S4000x128.size inb_S4000x128_S4000x128_0_0

/-- The result tile after the body: its one store, of the layer's arithmetic on the five input tiles read whole. -/
def out3_5 (x0 : Vec F S4000x198 .f32) (x1 : Vec F S4000x198 .f32) (x2 : Vec F S198x128 .f32) (x3 : Vec F S198x128 .f32) (x4 : Vec F S1x128 .f32) : Vec F S4000x128 .f32 :=
  View.canon [⟨r3_out, k3_pay1 (View.ld x0 (Rect.unit (s := S4000x198) ![0, 0] S4000x198.size inb_S4000x198_S4000x198_0_0)) (View.ld x1 (Rect.unit (s := S4000x198) ![0, 0] S4000x198.size inb_S4000x198_S4000x198_0_0)) (View.ld x2 (Rect.unit (s := S198x128) ![0, 0] S198x128.size inb_S198x128_S198x128_0_0)) (View.ld x3 (Rect.unit (s := S198x128) ![0, 0] S198x128.size inb_S198x128_S198x128_0_0)) (View.ld x4 (Rect.unit (s := S1x128) ![0, 0] S1x128.size inb_S1x128_S1x128_0_0))⟩]

/-- The one store covers the tile. -/
theorem cover3_5 (p0 : Vec F S4000x128 .f32) (y : S4000x128.Idx) :
    ∃ pc ∈ ([⟨r3_out, p0⟩] : List (View.Piece (Elt F) S4000x128 .f32)), y ∈ pc.1.set :=
  View.cover_of_tiled [⟨r3_out, p0⟩] S4000x128.size (by rfl) y

set_option maxHeartbeats 1000000 in
/-- The body on whole staging buffers: the inputs keep their contents and the result buffer ends at `out3_5` of them. -/
theorem sound_kernel3 (c : Dev nD) (E : Set ℕ) (i : grid3.Coords) (arg1 : Memref sig .tc .vmem S4000x198 .f32) (harg1 : arg1.IsWhole) (arg2 : Memref sig .tc .vmem S4000x198 .f32) (harg2 : arg2.IsWhole) (arg3 : Memref sig .tc .vmem S198x128 .f32) (harg3 : arg3.IsWhole) (arg4 : Memref sig .tc .vmem S198x128 .f32) (harg4 : arg4.IsWhole) (arg5 : Memref sig .tc .vmem S1x128 .f32) (harg5 : arg5.IsWhole) (arg6 : Memref sig .tc .vmem S4000x128 .f32) (harg6 : arg6.IsWhole)
    (x0 : Vec F S4000x198 .f32) (x1 : Vec F S4000x198 .f32) (x2 : Vec F S198x128 .f32) (x3 : Vec F S198x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__graph_conv_kernel i arg1 harg1 arg2 harg2 arg3 harg3 arg4 harg4 arg5 harg5 arg6 harg6) K := by
  simp only [cc3__graph_conv_kernel_eq_skeleton]; unfold cc3__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this layer's launch: the arrays as found; after the body each input buffer at its tile and the
    result buffer at `out3_5` of the tiles; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is entered with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the tiled launch, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.Reg4.lean ====
/-
  Layer 4 of the network as one grid of 25 row tiles. At a grid point the body reads a 4000-row tile of the
  node features and of the neighbour means, the two weight matrices and the bias row whole, and stores
  into the 4000-row tile of its result the two matrix products added together plus the bias row, clipped below at zero.
  This module states what the result tile holds after the body as a function of the five input tiles, proves the
  body's triple by symbolic execution, and packages the per-point facts the tiled launch needs, at an
  arbitrary valuation `V` of the arrays as the launch finds them.
-/
import proofs.«137384_j82008105549935_1_alg».proof.Proof.Gen.KernelIdeal.Launch
import proofs.«137384_j82008105549935_1_alg».proof.Proof.Gen.KernelIdeal.Skeleton
import proofs.«137384_j82008105549935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of operand `w` that grid point `t` sees, read off the operand's array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input's staging buffer holds its tile at every point, whether the point fetched it or the tile index did not move. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The whole result tile as one rectangle. -/
abbrev r4_out : Rect S4000x128 := Rect.unit (s := S4000x128) ![0, 0] S4000x128.size inb_S4000x128_S4000x128_0_0

/-- The result tile after the body: its one store, of the layer's arithmetic on the five input tiles read whole. -/
def out4_5 (x0 : Vec F S4000x198 .f32) (x1 : Vec F S4000x198 .f32) (x2 : Vec F S198x128 .f32) (x3 : Vec F S198x128 .f32) (x4 : Vec F S1x128 .f32) : Vec F S4000x128 .f32 :=
  View.canon [⟨r4_out, k4_pay1 (View.ld x0 (Rect.unit (s := S4000x198) ![0, 0] S4000x198.size inb_S4000x198_S4000x198_0_0)) (View.ld x1 (Rect.unit (s := S4000x198) ![0, 0] S4000x198.size inb_S4000x198_S4000x198_0_0)) (View.ld x2 (Rect.unit (s := S198x128) ![0, 0] S198x128.size inb_S198x128_S198x128_0_0)) (View.ld x3 (Rect.unit (s := S198x128) ![0, 0] S198x128.size inb_S198x128_S198x128_0_0)) (View.ld x4 (Rect.unit (s := S1x128) ![0, 0] S1x128.size inb_S1x128_S1x128_0_0))⟩]

/-- The one store covers the tile. -/
theorem cover4_5 (p0 : Vec F S4000x128 .f32) (y : S4000x128.Idx) :
    ∃ pc ∈ ([⟨r4_out, p0⟩] : List (View.Piece (Elt F) S4000x128 .f32)), y ∈ pc.1.set :=
  View.cover_of_tiled [⟨r4_out, p0⟩] S4000x128.size (by rfl) y

set_option maxHeartbeats 1000000 in
/-- The body on whole staging buffers: the inputs keep their contents and the result buffer ends at `out4_5` of them. -/
theorem sound_kernel4 (c : Dev nD) (E : Set ℕ) (i : grid4.Coords) (arg1 : Memref sig .tc .vmem S4000x198 .f32) (harg1 : arg1.IsWhole) (arg2 : Memref sig .tc .vmem S4000x198 .f32) (harg2 : arg2.IsWhole) (arg3 : Memref sig .tc .vmem S198x128 .f32) (harg3 : arg3.IsWhole) (arg4 : Memref sig .tc .vmem S198x128 .f32) (harg4 : arg4.IsWhole) (arg5 : Memref sig .tc .vmem S1x128 .f32) (harg5 : arg5.IsWhole) (arg6 : Memref sig .tc .vmem S4000x128 .f32) (harg6 : arg6.IsWhole)
    (x0 : Vec F S4000x198 .f32) (x1 : Vec F S4000x198 .f32) (x2 : Vec F S198x128 .f32) (x3 : Vec F S198x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__graph_conv_kernel i arg1 harg1 arg2 harg2 arg3 harg3 arg4 harg4 arg5 harg5 arg6 harg6) K := by
  simp only [cc4__graph_conv_kernel_eq_skeleton]; unfold cc4__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of this layer's launch: the arrays as found; after the body each input buffer at its tile and the
    result buffer at `out4_5` of the tiles; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is entered with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the tiled launch, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KernelIdeal.Reg5.lean ====
/-
  Layer 5 of the network as one grid of 25 row tiles. At a grid point the body reads a 4000-row tile of the
  node features and of the neighbour means, the two weight matrices and the bias row whole, and stores
  into the 4000-row tile of its result the two matrix products added together plus the bias row.
  This module states what the result tile holds after the body as a function of the five input tiles, proves the
  body's triple by symbolic execution, and packages the per-point facts the tiled launch needs, at an
  arbitrary valuation `V` of the arrays as the launch finds them.
-/
import proofs.«137384_j82008105549935_1_alg».proof.Proof.Gen.KernelIdeal.Launch
import proofs.«137384_j82008105549935_1_alg».proof.Proof.Gen.KernelIdeal.Skeleton
import proofs.«137384_j82008105549935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of operand `w` that grid point `t` sees, read off the operand's array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input's staging buffer holds its tile at every point, whether the point fetched it or the tile index did not move. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole result tile as one rectangle. -/
abbrev r5_out : Rect S4000x3 := Rect.unit (s := S4000x3) ![0, 0] S4000x3.size inb_S4000x3_S4000x3_0_0

/-- The result tile after the body: its one store, of the layer's arithmetic on the five input tiles read whole. -/
def out5_5 (x0 : Vec F S4000x128 .f32) (x1 : Vec F S4000x128 .f32) (x2 : Vec F S128x3 .f32) (x3 : Vec F S128x3 .f32) (x4 : Vec F S1x3 .f32) : Vec F S4000x3 .f32 :=
  View.canon [⟨r5_out, k5_pay1 (View.ld x0 (Rect.unit (s := S4000x128) ![0, 0] S4000x128.size inb_S4000x128_S4000x128_0_0)) (View.ld x1 (Rect.unit (s := S4000x128) ![0, 0] S4000x128.size inb_S4000x128_S4000x128_0_0)) (View.ld x2 (Rect.unit (s := S128x3) ![0, 0] S128x3.size inb_S128x3_S128x3_0_0)) (View.ld x3 (Rect.unit (s := S128x3) ![0, 0] S128x3.size inb_S128x3_S128x3_0_0)) (View.ld x4 (Rect.unit (s := S1x3) ![0, 0] S1x3.size inb_S1x3_S1x3_0_0))⟩]

/-- The one store covers the tile. -/
theorem cover5_5 (p0 : Vec F S4000x3 .f32) (y : S4000x3.Idx) :
    ∃ pc ∈ ([⟨r5_out, p0⟩] : List (View.Piece (Elt F) S4000x3 .f32)), y ∈ pc.1.set :=
  View.cover_of_tiled [⟨r5_out, p0⟩] S4000x3.size (by rfl) y

set_option maxHeartbeats 1000000 in
/-- The body on whole staging buffers: the inputs keep their contents and the result buffer ends at `out5_5` of them. -/
theorem sound_kernel5 (c : Dev nD) (E : Set ℕ) (i : grid5.Coords) (arg1 : Memref sig .tc .vmem S4000x128 .f32) (harg1 : arg1.IsWhole) (arg2 : Memref sig .tc .vmem S4000x128 .f32) (harg2 : arg2.IsWhole) (arg3 : Memref sig .tc .vmem S128x3 .f32) (harg3 : arg3.IsWhole) (arg4 : Memref sig .tc .vmem S128x3 .f32) (harg4 : arg4.IsWhole) (arg5 : Memref sig .tc .vmem S1x3 .f32) (harg5 : arg5.IsWhole) (arg6 : Memref sig .tc .vmem S4000x3 .f32) (harg6 : arg6.IsWhole)
    (x0 : Vec F S4000x128 .f32) (x1 : Vec F S4000x128 .f32) (x2 : Vec F S128x3 .f32) (x3 : Vec F S128x3 .f32) (x4 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__graph_conv_kernel i arg1 harg1 arg2 harg2 arg3 harg3 arg4 harg4 arg5 harg5 arg6 harg6) K := by
  simp only [cc5__graph_conv_kernel_eq_skeleton]; unfold cc5__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this layer's launch: the arrays as found; after the body each input buffer at its tile and the
    result buffer at `out5_5` of the tiles; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is entered with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the tiled launch, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KernelIdeal.Fold.lean ====
/-
  The contents of every unscoped array between the items of the program: the launch memory, then alternately a
  stretch of host operations applied to it and a layer's tiled launch, which leaves its five operand arrays as found
  and its result array at what the 25 write-backs assemble. An array that no host stretch writes and that is no
  layer's result still holds its launch contents at the end.
-/
import proofs.«137384_j82008105549935_1_alg».proof.Proof.KernelIdeal.Reg0
import proofs.«137384_j82008105549935_1_alg».proof.Proof.KernelIdeal.Reg1
import proofs.«137384_j82008105549935_1_alg».proof.Proof.KernelIdeal.Reg2
import proofs.«137384_j82008105549935_1_alg».proof.Proof.KernelIdeal.Reg3
import proofs.«137384_j82008105549935_1_alg».proof.Proof.KernelIdeal.Reg4
import proofs.«137384_j82008105549935_1_alg».proof.Proof.KernelIdeal.Reg5
import proofs.«137384_j82008105549935_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- An operand array of a layer's launch (any window but the result's) is left as found. -/
theorem arrAt_in0 (V : (c : Dev nD) → (b : Ref sig .tc) → Buf (Elt F) ((c : Thread nD τ).loc b)) (c : Dev nD) :
    ∀ (w : Fin cfg0.W), w ≠ 5 → (dat0 V c).arrAt w cfg0.N = V c (Pipeline.arrRef spec0 w)
  | ⟨0, _⟩, _ => ((dat0 V c).arrAt_in 0 rfl _).trans (A_eq0 V c 0)
  | ⟨1, _⟩, _ => ((dat0 V c).arrAt_in 1 rfl _).trans (A_eq0 V c 1)
  | ⟨2, _⟩, _ => ((dat0 V c).arrAt_in 2 rfl _).trans (A_eq0 V c 2)
  | ⟨3, _⟩, _ => ((dat0 V c).arrAt_in 3 rfl _).trans (A_eq0 V c 3)
  | ⟨4, _⟩, _ => ((dat0 V c).arrAt_in 4 rfl _).trans (A_eq0 V c 4)
  | ⟨5, _⟩, h => absurd rfl h
theorem arrAt_in1 (V : (c : Dev nD) → (b : Ref sig .tc) → Buf (Elt F) ((c : Thread nD τ).loc b)) (c : Dev nD) :
    ∀ (w : Fin cfg1.W), w ≠ 5 → (dat1 V c).arrAt w cfg1.N = V c (Pipeline.arrRef spec1 w)
  | ⟨0, _⟩, _ => ((dat1 V c).arrAt_in 0 rfl _).trans (A_eq1 V c 0)
  | ⟨1, _⟩, _ => ((dat1 V c).arrAt_in 1 rfl _).trans (A_eq1 V c 1)
  | ⟨2, _⟩, _ => ((dat1 V c).arrAt_in 2 rfl _).trans (A_eq1 V c 2)
  | ⟨3, _⟩, _ => ((dat1 V c).arrAt_in 3 rfl _).trans (A_eq1 V c 3)
  | ⟨4, _⟩, _ => ((dat1 V c).arrAt_in 4 rfl _).trans (A_eq1 V c 4)
  | ⟨5, _⟩, h => absurd rfl h
theorem arrAt_in2 (V : (c : Dev nD) → (b : Ref sig .tc) → Buf (Elt F) ((c : Thread nD τ).loc b)) (c : Dev nD) :
    ∀ (w : Fin cfg2.W), w ≠ 5 → (dat2 V c).arrAt w cfg2.N = V c (Pipeline.arrRef spec2 w)
  | ⟨0, _⟩, _ => ((dat2 V c).arrAt_in 0 rfl _).trans (A_eq2 V c 0)
  | ⟨1, _⟩, _ => ((dat2 V c).arrAt_in 1 rfl _).trans (A_eq2 V c 1)
  | ⟨2, _⟩, _ => ((dat2 V c).arrAt_in 2 rfl _).trans (A_eq2 V c 2)
  | ⟨3, _⟩, _ => ((dat2 V c).arrAt_in 3 rfl _).trans (A_eq2 V c 3)
  | ⟨4, _⟩, _ => ((dat2 V c).arrAt_in 4 rfl _).trans (A_eq2 V c 4)
  | ⟨5, _⟩, h => absurd rfl h
theorem arrAt_in3 (V : (c : Dev nD) → (b : Ref sig .tc) → Buf (Elt F) ((c : Thread nD τ).loc b)) (c : Dev nD) :
    ∀ (w : Fin cfg3.W), w ≠ 5 → (dat3 V c).arrAt w cfg3.N = V c (Pipeline.arrRef spec3 w)
  | ⟨0, _⟩, _ => ((dat3 V c).arrAt_in 0 rfl _).trans (A_eq3 V c 0)
  | ⟨1, _⟩, _ => ((dat3 V c).arrAt_in 1 rfl _).trans (A_eq3 V c 1)
  | ⟨2, _⟩, _ => ((dat3 V c).arrAt_in 2 rfl _).trans (A_eq3 V c 2)
  | ⟨3, _⟩, _ => ((dat3 V c).arrAt_in 3 rfl _).trans (A_eq3 V c 3)
  | ⟨4, _⟩, _ => ((dat3 V c).arrAt_in 4 rfl _).trans (A_eq3 V c 4)
  | ⟨5, _⟩, h => absurd rfl h
theorem arrAt_in4 (V : (c : Dev nD) → (b : Ref sig .tc) → Buf (Elt F) ((c : Thread nD τ).loc b)) (c : Dev nD) :
    ∀ (w : Fin cfg4.W), w ≠ 5 → (dat4 V c).arrAt w cfg4.N = V c (Pipeline.arrRef spec4 w)
  | ⟨0, _⟩, _ => ((dat4 V c).arrAt_in 0 rfl _).trans (A_eq4 V c 0)
  | ⟨1, _⟩, _ => ((dat4 V c).arrAt_in 1 rfl _).trans (A_eq4 V c 1)
  | ⟨2, _⟩, _ => ((dat4 V c).arrAt_in 2 rfl _).trans (A_eq4 V c 2)
  | ⟨3, _⟩, _ => ((dat4 V c).arrAt_in 3 rfl _).trans (A_eq4 V c 3)
  | ⟨4, _⟩, _ => ((dat4 V c).arrAt_in 4 rfl _).trans (A_eq4 V c 4)
  | ⟨5, _⟩, h => absurd rfl h
theorem arrAt_in5 (V : (c : Dev nD) → (b : Ref sig .tc) → Buf (Elt F) ((c : Thread nD τ).loc b)) (c : Dev nD) :
    ∀ (w : Fin cfg5.W), w ≠ 5 → (dat5 V c).arrAt w cfg5.N = V c (Pipeline.arrRef spec5 w)
  | ⟨0, _⟩, _ => ((dat5 V c).arrAt_in 0 rfl _).trans (A_eq5 V c 0)
  | ⟨1, _⟩, _ => ((dat5 V c).arrAt_in 1 rfl _).trans (A_eq5 V c 1)
  | ⟨2, _⟩, _ => ((dat5 V c).arrAt_in 2 rfl _).trans (A_eq5 V c 2)
  | ⟨3, _⟩, _ => ((dat5 V c).arrAt_in 3 rfl _).trans (A_eq5 V c 3)
  | ⟨4, _⟩, _ => ((dat5 V c).arrAt_in 4 rfl _).trans (A_eq5 V c 4)
  | ⟨5, _⟩, h => absurd rfl h

/-- The arrays at launch. -/
abbrev W0 : Dev nD → Valuation τ sig (Elt F) := fun c b => m (c, b)

/-- After host stretch 0 (layer 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After layer 0: its arrays at what the launch leaves, every other array as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- Layer 0 changes only its result array. -/
theorem W2_keep (c : Dev nD) (b : Ref sig .tc) (hb : b ≠ main_v24) :
    W2 m c (Proc.devRef .tc b) = W1 m c (Proc.devRef .tc b) := by
  by_cases h : ∃ w, Pipeline.arrRef spec0 w = b
  · obtain ⟨w, rfl⟩ := h
    rw [W2_arr]
    exact arrAt_in0 (U1 m) c w (fun e => hb (by subst e; rfl))
  · exact W2_of_ne m c b fun w e => h ⟨w, e⟩
/-- A host stretch changes only what its operations write. -/
theorem W1_keep (c : Dev nD) (r : Ref sig .tc) (h : r ∉ hostOps0_W) : W1 m c (Proc.devRef .tc r) = W0 m c (Proc.devRef .tc r) :=
  StableHlo.after_of_writes_sub hostOps0 _ hostOps0_writes h

/-- After host stretch 1 (layer 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After layer 1: its arrays at what the launch leaves, every other array as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- Layer 1 changes only its result array. -/
theorem W4_keep (c : Dev nD) (b : Ref sig .tc) (hb : b ≠ main_v47) :
    W4 m c (Proc.devRef .tc b) = W3 m c (Proc.devRef .tc b) := by
  by_cases h : ∃ w, Pipeline.arrRef spec1 w = b
  · obtain ⟨w, rfl⟩ := h
    rw [W4_arr]
    exact arrAt_in1 (U3 m) c w (fun e => hb (by subst e; rfl))
  · exact W4_of_ne m c b fun w e => h ⟨w, e⟩
/-- A host stretch changes only what its operations write. -/
theorem W3_keep (c : Dev nD) (r : Ref sig .tc) (h : r ∉ hostOps1_W) : W3 m c (Proc.devRef .tc r) = W2 m c (Proc.devRef .tc r) :=
  StableHlo.after_of_writes_sub hostOps1 _ hostOps1_writes h

/-- After host stretch 2 (layer 2's entry). -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- After layer 2: its arrays at what the launch leaves, every other array as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- Layer 2 changes only its result array. -/
theorem W6_keep (c : Dev nD) (b : Ref sig .tc) (hb : b ≠ main_v70) :
    W6 m c (Proc.devRef .tc b) = W5 m c (Proc.devRef .tc b) := by
  by_cases h : ∃ w, Pipeline.arrRef spec2 w = b
  · obtain ⟨w, rfl⟩ := h
    rw [W6_arr]
    exact arrAt_in2 (U5 m) c w (fun e => hb (by subst e; rfl))
  · exact W6_of_ne m c b fun w e => h ⟨w, e⟩
/-- A host stretch changes only what its operations write. -/
theorem W5_keep (c : Dev nD) (r : Ref sig .tc) (h : r ∉ hostOps2_W) : W5 m c (Proc.devRef .tc r) = W4 m c (Proc.devRef .tc r) :=
  StableHlo.after_of_writes_sub hostOps2 _ hostOps2_writes h

/-- After host stretch 3 (layer 3's entry). -/
abbrev W7 : Dev nD → Valuation τ sig (Elt F) := fun c => StableHlo.after hostOps3 (W6 m c)
abbrev U7 : (c : Dev nD) → (b : Ref sig .tc) → Buf (Elt F) ((c : Thread nD τ).loc b) := fun c b => W7 m c b
/-- After layer 3: its arrays at what the launch leaves, every other array as entered. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
/-- Layer 3 changes only its result array. -/
theorem W8_keep (c : Dev nD) (b : Ref sig .tc) (hb : b ≠ main_v93) :
    W8 m c (Proc.devRef .tc b) = W7 m c (Proc.devRef .tc b) := by
  by_cases h : ∃ w, Pipeline.arrRef spec3 w = b
  · obtain ⟨w, rfl⟩ := h
    rw [W8_arr]
    exact arrAt_in3 (U7 m) c w (fun e => hb (by subst e; rfl))
  · exact W8_of_ne m c b fun w e => h ⟨w, e⟩
/-- A host stretch changes only what its operations write. -/
theorem W7_keep (c : Dev nD) (r : Ref sig .tc) (h : r ∉ hostOps3_W) : W7 m c (Proc.devRef .tc r) = W6 m c (Proc.devRef .tc r) :=
  StableHlo.after_of_writes_sub hostOps3 _ hostOps3_writes h

/-- After host stretch 4 (layer 4's entry). -/
abbrev W9 : Dev nD → Valuation τ sig (Elt F) := fun c => StableHlo.after hostOps4 (W8 m c)
abbrev U9 : (c : Dev nD) → (b : Ref sig .tc) → Buf (Elt F) ((c : Thread nD τ).loc b) := fun c b => W9 m c b
/-- After layer 4: its arrays at what the launch leaves, every other array as entered. -/
def W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)
/-- Layer 4 changes only its result array. -/
theorem W10_keep (c : Dev nD) (b : Ref sig .tc) (hb : b ≠ main_v116) :
    W10 m c (Proc.devRef .tc b) = W9 m c (Proc.devRef .tc b) := by
  by_cases h : ∃ w, Pipeline.arrRef spec4 w = b
  · obtain ⟨w, rfl⟩ := h
    rw [W10_arr]
    exact arrAt_in4 (U9 m) c w (fun e => hb (by subst e; rfl))
  · exact W10_of_ne m c b fun w e => h ⟨w, e⟩
/-- A host stretch changes only what its operations write. -/
theorem W9_keep (c : Dev nD) (r : Ref sig .tc) (h : r ∉ hostOps4_W) : W9 m c (Proc.devRef .tc r) = W8 m c (Proc.devRef .tc r) :=
  StableHlo.after_of_writes_sub hostOps4 _ hostOps4_writes h

/-- After host stretch 5 (layer 5's entry). -/
abbrev W11 : Dev nD → Valuation τ sig (Elt F) := fun c => StableHlo.after hostOps5 (W10 m c)
abbrev U11 : (c : Dev nD) → (b : Ref sig .tc) → Buf (Elt F) ((c : Thread nD τ).loc b) := fun c b => W11 m c b
/-- After layer 5: its arrays at what the launch leaves, every other array as entered. -/
def W12 (c : Dev nD) : Valuation τ sig (Elt F) :=
  Pipeline.withArrays spec5 c (W11 m c) fun w => (dat5 (U11 m) c).arrAt w cfg5.N
theorem W12_arr (c : Dev nD) (w : Fin cfg5.W) :
    W12 m c (Proc.devRef .tc (Pipeline.arrRef spec5 w)) = (dat5 (U11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev U12 : (c : Dev nD) → (b : Ref sig .tc) → Buf (Elt F) ((c : Thread nD τ).loc b) := fun c b => W12 m c b
theorem hF5 (c : Dev nD) (w : Fin cfg5.W) : (dat5 (U11 m) c).arrAt w cfg5.N = U12 m c (Pipeline.arrRef spec5 w) :=
  (W12_arr m c w).symm
theorem hrest5 (c : Dev nD) : ∀ b, b ∉ Finset.univ.image (Pipeline.arrRef spec5) → U12 m c b = U11 m c b :=
  fun b hb => W12_of_ne m c b fun w e => hb (Finset.mem_image.mpr ⟨w, Finset.mem_univ _, e⟩)
/-- Layer 5 changes only its result array. -/
theorem W12_keep (c : Dev nD) (b : Ref sig .tc) (hb : b ≠ main_v130) :
    W12 m c (Proc.devRef .tc b) = W11 m c (Proc.devRef .tc b) := by
  by_cases h : ∃ w, Pipeline.arrRef spec5 w = b
  · obtain ⟨w, rfl⟩ := h
    rw [W12_arr]
    exact arrAt_in5 (U11 m) c w (fun e => hb (by subst e; rfl))
  · exact W12_of_ne m c b fun w e => h ⟨w, e⟩
/-- A host stretch changes only what its operations write. -/
theorem W11_keep (c : Dev nD) (r : Ref sig .tc) (h : r ∉ hostOps5_W) : W11 m c (Proc.devRef .tc r) = W10 m c (Proc.devRef .tc r) :=
  StableHlo.after_of_writes_sub hostOps5 _ hostOps5_writes h

/-- An array no item writes ends at its launch contents. -/
theorem W12_kept (c : Dev nD) (b : Ref sig .tc) (h1 : b ∉ hostOps0_W) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) (h10 : b ≠ main_v116) (h11 : b ∉ hostOps5_W) (h12 : b ≠ main_v130) :
    W12 m c (Proc.devRef .tc b) = m ((c : Thread nD τ).loc b) :=
  (W12_keep m c b h12).trans <| (W11_keep m c b h11).trans <| (W10_keep m c b h10).trans <| (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| (W1_keep m c b h1).trans <| rfl

/-! The same for every earlier boundary: an array that no item so far wrote holds its launch contents, and one that nothing
    after the first host stretch wrote holds what that stretch left. -/
theorem W1_kept (c : Dev nD) (b : Ref sig .tc) (h1 : b ∉ hostOps0_W) :
    W1 m c (Proc.devRef .tc b) = m ((c : Thread nD τ).loc b) :=
  (W1_keep m c b h1).trans <| rfl
theorem W2_kept (c : Dev nD) (b : Ref sig .tc) (h1 : b ∉ hostOps0_W) (h2 : b ≠ main_v24) :
    W2 m c (Proc.devRef .tc b) = m ((c : Thread nD τ).loc b) :=
  (W2_keep m c b h2).trans <| (W1_keep m c b h1).trans <| rfl
theorem W3_kept (c : Dev nD) (b : Ref sig .tc) (h1 : b ∉ hostOps0_W) (h2 : b ≠ main_v24) (h3 : b ∉ hostOps1_W) :
    W3 m c (Proc.devRef .tc b) = m ((c : Thread nD τ).loc b) :=
  (W3_keep m c b h3).trans <| (W2_keep m c b h2).trans <| (W1_keep m c b h1).trans <| rfl
theorem W4_kept (c : Dev nD) (b : Ref sig .tc) (h1 : b ∉ hostOps0_W) (h2 : b ≠ main_v24) (h3 : b ∉ hostOps1_W) (h4 : b ≠ main_v47) :
    W4 m c (Proc.devRef .tc b) = m ((c : Thread nD τ).loc b) :=
  (W4_keep m c b h4).trans <| (W3_keep m c b h3).trans <| (W2_keep m c b h2).trans <| (W1_keep m c b h1).trans <| rfl
theorem W5_kept (c : Dev nD) (b : Ref sig .tc) (h1 : b ∉ hostOps0_W) (h2 : b ≠ main_v24) (h3 : b ∉ hostOps1_W) (h4 : b ≠ main_v47) (h5 : b ∉ hostOps2_W) :
    W5 m c (Proc.devRef .tc b) = m ((c : Thread nD τ).loc b) :=
  (W5_keep m c b h5).trans <| (W4_keep m c b h4).trans <| (W3_keep m c b h3).trans <| (W2_keep m c b h2).trans <| (W1_keep m c b h1).trans <| rfl
theorem W6_kept (c : Dev nD) (b : Ref sig .tc) (h1 : b ∉ hostOps0_W) (h2 : b ≠ main_v24) (h3 : b ∉ hostOps1_W) (h4 : b ≠ main_v47) (h5 : b ∉ hostOps2_W) (h6 : b ≠ main_v70) :
    W6 m c (Proc.devRef .tc b) = m ((c : Thread nD τ).loc b) :=
  (W6_keep m c b h6).trans <| (W5_keep m c b h5).trans <| (W4_keep m c b h4).trans <| (W3_keep m c b h3).trans <| (W2_keep m c b h2).trans <| (W1_keep m c b h1).trans <| rfl
theorem W7_kept (c : Dev nD) (b : Ref sig .tc) (h1 : b ∉ hostOps0_W) (h2 : b ≠ main_v24) (h3 : b ∉ hostOps1_W) (h4 : b ≠ main_v47) (h5 : b ∉ hostOps2_W) (h6 : b ≠ main_v70) (h7 : b ∉ hostOps3_W) :
    W7 m c (Proc.devRef .tc b) = m ((c : Thread nD τ).loc b) :=
  (W7_keep m c b h7).trans <| (W6_keep m c b h6).trans <| (W5_keep m c b h5).trans <| (W4_keep m c b h4).trans <| (W3_keep m c b h3).trans <| (W2_keep m c b h2).trans <| (W1_keep m c b h1).trans <| rfl
theorem W8_kept (c : Dev nD) (b : Ref sig .tc) (h1 : b ∉ hostOps0_W) (h2 : b ≠ main_v24) (h3 : b ∉ hostOps1_W) (h4 : b ≠ main_v47) (h5 : b ∉ hostOps2_W) (h6 : b ≠ main_v70) (h7 : b ∉ hostOps3_W) (h8 : b ≠ main_v93) :
    W8 m c (Proc.devRef .tc b) = m ((c : Thread nD τ).loc b) :=
  (W8_keep m c b h8).trans <| (W7_keep m c b h7).trans <| (W6_keep m c b h6).trans <| (W5_keep m c b h5).trans <| (W4_keep m c b h4).trans <| (W3_keep m c b h3).trans <| (W2_keep m c b h2).trans <| (W1_keep m c b h1).trans <| rfl
theorem W9_kept (c : Dev nD) (b : Ref sig .tc) (h1 : b ∉ hostOps0_W) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) :
    W9 m c (Proc.devRef .tc b) = m ((c : Thread nD τ).loc b) :=
  (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| (W1_keep m c b h1).trans <| rfl
theorem W10_kept (c : Dev nD) (b : Ref sig .tc) (h1 : b ∉ hostOps0_W) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) (h10 : b ≠ main_v116) :
    W10 m c (Proc.devRef .tc b) = m ((c : Thread nD τ).loc b) :=
  (W10_keep m c b h10).trans <| (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| (W1_keep m c b h1).trans <| rfl
theorem W11_kept (c : Dev nD) (b : Ref sig .tc) (h1 : b ∉ hostOps0_W) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) (h10 : b ≠ main_v116) (h11 : b ∉ hostOps5_W) :
    W11 m c (Proc.devRef .tc b) = m ((c : Thread nD τ).loc b) :=
  (W11_keep m c b h11).trans <| (W10_keep m c b h10).trans <| (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| (W1_keep m c b h1).trans <| rfl
theorem W2_toW1 (c : Dev nD) (b : Ref sig .tc) (h2 : b ≠ main_v24) :
    W2 m c (Proc.devRef .tc b) = W1 m c (Proc.devRef .tc b) :=
  (W2_keep m c b h2).trans <| rfl
theorem W3_toW1 (c : Dev nD) (b : Ref sig .tc) (h2 : b ≠ main_v24) (h3 : b ∉ hostOps1_W) :
    W3 m c (Proc.devRef .tc b) = W1 m c (Proc.devRef .tc b) :=
  (W3_keep m c b h3).trans <| (W2_keep m c b h2).trans <| rfl
theorem W4_toW1 (c : Dev nD) (b : Ref sig .tc) (h2 : b ≠ main_v24) (h3 : b ∉ hostOps1_W) (h4 : b ≠ main_v47) :
    W4 m c (Proc.devRef .tc b) = W1 m c (Proc.devRef .tc b) :=
  (W4_keep m c b h4).trans <| (W3_keep m c b h3).trans <| (W2_keep m c b h2).trans <| rfl
theorem W5_toW1 (c : Dev nD) (b : Ref sig .tc) (h2 : b ≠ main_v24) (h3 : b ∉ hostOps1_W) (h4 : b ≠ main_v47) (h5 : b ∉ hostOps2_W) :
    W5 m c (Proc.devRef .tc b) = W1 m c (Proc.devRef .tc b) :=
  (W5_keep m c b h5).trans <| (W4_keep m c b h4).trans <| (W3_keep m c b h3).trans <| (W2_keep m c b h2).trans <| rfl
theorem W6_toW1 (c : Dev nD) (b : Ref sig .tc) (h2 : b ≠ main_v24) (h3 : b ∉ hostOps1_W) (h4 : b ≠ main_v47) (h5 : b ∉ hostOps2_W) (h6 : b ≠ main_v70) :
    W6 m c (Proc.devRef .tc b) = W1 m c (Proc.devRef .tc b) :=
  (W6_keep m c b h6).trans <| (W5_keep m c b h5).trans <| (W4_keep m c b h4).trans <| (W3_keep m c b h3).trans <| (W2_keep m c b h2).trans <| rfl
theorem W7_toW1 (c : Dev nD) (b : Ref sig .tc) (h2 : b ≠ main_v24) (h3 : b ∉ hostOps1_W) (h4 : b ≠ main_v47) (h5 : b ∉ hostOps2_W) (h6 : b ≠ main_v70) (h7 : b ∉ hostOps3_W) :
    W7 m c (Proc.devRef .tc b) = W1 m c (Proc.devRef .tc b) :=
  (W7_keep m c b h7).trans <| (W6_keep m c b h6).trans <| (W5_keep m c b h5).trans <| (W4_keep m c b h4).trans <| (W3_keep m c b h3).trans <| (W2_keep m c b h2).trans <| rfl
theorem W8_toW1 (c : Dev nD) (b : Ref sig .tc) (h2 : b ≠ main_v24) (h3 : b ∉ hostOps1_W) (h4 : b ≠ main_v47) (h5 : b ∉ hostOps2_W) (h6 : b ≠ main_v70) (h7 : b ∉ hostOps3_W) (h8 : b ≠ main_v93) :
    W8 m c (Proc.devRef .tc b) = W1 m c (Proc.devRef .tc b) :=
  (W8_keep m c b h8).trans <| (W7_keep m c b h7).trans <| (W6_keep m c b h6).trans <| (W5_keep m c b h5).trans <| (W4_keep m c b h4).trans <| (W3_keep m c b h3).trans <| (W2_keep m c b h2).trans <| rfl
theorem W9_toW1 (c : Dev nD) (b : Ref sig .tc) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) :
    W9 m c (Proc.devRef .tc b) = W1 m c (Proc.devRef .tc b) :=
  (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| rfl
theorem W10_toW1 (c : Dev nD) (b : Ref sig .tc) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) (h10 : b ≠ main_v116) :
    W10 m c (Proc.devRef .tc b) = W1 m c (Proc.devRef .tc b) :=
  (W10_keep m c b h10).trans <| (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| rfl
theorem W11_toW1 (c : Dev nD) (b : Ref sig .tc) (h2 : b ≠ main_v24) (h3 : b ∉ hostOps1_W) (h4 : b ≠ main_v47) (h5 : b ∉ hostOps2_W) (h6 : b ≠ main_v70) (h7 : b ∉ hostOps3_W) (h8 : b ≠ main_v93) (h9 : b ∉ hostOps4_W) (h10 : b ≠ main_v116) (h11 : b ∉ hostOps5_W) :
    W11 m c (Proc.devRef .tc b) = W1 m c (Proc.devRef .tc b) :=
  (W11_keep m c b h11).trans <| (W10_keep m c b h10).trans <| (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| rfl

/-- Every layer's proof data, each at its entry contents. -/
abbrev admH : (p : Fin 6) → (pcfgs (F := F) p).Adm := fun p => (cfgs p).toPCfg_adm
def pdatsH : (p : Fin 6) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c

abbrev 𝒱H : Variants := Variants.none
abbrev LH : GSem nD τ sig → Finset Unit := fun _ => ∅
abbrev lvH : GSem nD τ sig → Unit → ℕ := fun _ _ => 0

local notation "𝕄" => MT nD τ sig Unit (Elt F) ℕ (UR sig nD τ) ℕ

/-- What rides beside the arrays through every item: the generator register at some state and the core owing nothing. -/
abbrev RH (c : Dev nD) : sProp 𝕄 := iprop((∃ r, prngReg c r) ∗ ∃ W, owes (c : Thread nD τ) (0 : CellTallies nD τ sig Unit) W)

abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev TnH (c : Dev nD) : sProp 𝕄 := iprop(StableHlo.held (c : Thread nD τ) (Pipeline.ucRefs τ sig) (W12 m c) ∗ ∃ r, prngReg c r)

end Cert.KernelIdeal.Hand

end
-- ==== Proof.KernelIdeal.Seg0.lean ====
/-
  Layer 0's tiled launch as one item of the program: entered with every unscoped array at its contents after host
  stretch 0, it takes its six arrays out of them, runs the 25 grid points (the body obligation), and gives the arrays
  back with the result array at what the write-backs assemble and the rest unchanged.
-/
import proofs.«137384_j82008105549935_1_alg».proof.Proof.KernelIdeal.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

set_option backward.isDefEq.respectTransparency.types false in
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg1.lean ====
/-
  Layer 1's tiled launch as one item of the program: entered with every unscoped array at its contents after host
  stretch 1, it takes its six arrays out of them, runs the 25 grid points (the body obligation), and gives the arrays
  back with the result array at what the write-backs assemble and the rest unchanged.
-/
import proofs.«137384_j82008105549935_1_alg».proof.Proof.KernelIdeal.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

set_option backward.isDefEq.respectTransparency.types false in
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg2.lean ====
/-
  Layer 2's tiled launch as one item of the program: entered with every unscoped array at its contents after host
  stretch 2, it takes its six arrays out of them, runs the 25 grid points (the body obligation), and gives the arrays
  back with the result array at what the write-backs assemble and the rest unchanged.
-/
import proofs.«137384_j82008105549935_1_alg».proof.Proof.KernelIdeal.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

set_option backward.isDefEq.respectTransparency.types false in
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ LH lvH 2 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (U5 m c) (U6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg3.lean ====
/-
  Layer 3's tiled launch as one item of the program: entered with every unscoped array at its contents after host
  stretch 3, it takes its six arrays out of them, runs the 25 grid points (the body obligation), and gives the arrays
  back with the result array at what the write-backs assemble and the rest unchanged.
-/
import proofs.«137384_j82008105549935_1_alg».proof.Proof.KernelIdeal.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

set_option backward.isDefEq.respectTransparency.types false in
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ LH lvH 3 fun _ _ => rfl
  pre c := iprop(StableHlo.held (c : Thread nD τ) (Pipeline.ucRefs τ sig) (W7 m c) ∗ RH c)
  post c := iprop(StableHlo.held (c : Thread nD τ) (Pipeline.ucRefs τ sig) (W8 m c) ∗ RH c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (U7 m c) (U8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg4.lean ====
/-
  Layer 4's tiled launch as one item of the program: entered with every unscoped array at its contents after host
  stretch 4, it takes its six arrays out of them, runs the 25 grid points (the body obligation), and gives the arrays
  back with the result array at what the write-backs assemble and the rest unchanged.
-/
import proofs.«137384_j82008105549935_1_alg».proof.Proof.KernelIdeal.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

set_option backward.isDefEq.respectTransparency.types false in
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ LH lvH 4 fun _ _ => rfl
  pre c := iprop(StableHlo.held (c : Thread nD τ) (Pipeline.ucRefs τ sig) (W9 m c) ∗ RH c)
  post c := iprop(StableHlo.held (c : Thread nD τ) (Pipeline.ucRefs τ sig) (W10 m c) ∗ RH c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (U9 m c) (U10 m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg5.lean ====
/-
  Layer 5's tiled launch as one item of the program: entered with every unscoped array at its contents after host
  stretch 5, it takes its six arrays out of them, runs the 25 grid points (the body obligation), and gives the arrays
  back with the result array at what the write-backs assemble and the rest unchanged.
-/
import proofs.«137384_j82008105549935_1_alg».proof.Proof.KernelIdeal.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

set_option backward.isDefEq.respectTransparency.types false in
def reg5 : Pipeline.RegionSeg (pcfgs (F := F)) admH (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (U11 m) c).loose
  hwaits := Pipeline.hwaits_of_owed_zero _ _ _ _ LH lvH 5 fun _ _ => rfl
  pre c := iprop(StableHlo.held (c : Thread nD τ) (Pipeline.ucRefs τ sig) (W11 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := F)) admH (pdatsH m) launch5.win launch5.arr_whole c
      ((pdatsH m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m) ((pdatsH m 5 c).share_full fun _ => rfl)
      (U11 m c) (U12 m c) ((pdatsH m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KernelIdeal.Run.lean ====
/-
  The whole program as twelve items in order — six stretches of host operations, each followed by a layer's tiled
  launch — run from the launch memory: every weakly fair execution ends, nothing faults, and at the end every unscoped
  array holds the contents the fold `W12` names. The thirteen argument arrays are written by no item, so they end as
  launched.
-/
import proofs.«137384_j82008105549935_1_alg».proof.Proof.KernelIdeal.Seg0
import proofs.«137384_j82008105549935_1_alg».proof.Proof.KernelIdeal.Seg1
import proofs.«137384_j82008105549935_1_alg».proof.Proof.KernelIdeal.Seg2
import proofs.«137384_j82008105549935_1_alg».proof.Proof.KernelIdeal.Seg3
import proofs.«137384_j82008105549935_1_alg».proof.Proof.KernelIdeal.Seg4
import proofs.«137384_j82008105549935_1_alg».proof.Proof.KernelIdeal.Seg5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The program's twelve items in order. -/
abbrev segsH : List (Pipeline.Seg (pcfgs (F := F)) admH (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)),
    .region (reg2 m),
    .host (hsegH hostOps3 hostOps3_sub hostOps3_fresh (W6 m)),
    .region (reg3 m),
    .host (hsegH hostOps4 hostOps4_sub hostOps4_fresh (W8 m)),
    .region (reg4 m),
    .host (hsegH hostOps5 hostOps5_sub hostOps5_fresh (W10 m)),
    .region (reg5 m) ]

set_option backward.isDefEq.respectTransparency.types false in
/-- Every weakly fair execution from memory `m` ends, and every unscoped array then holds what `W12` says. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W12 m c b) :=
  Pipeline.θ_run_regions_kit (pcfgs (F := F)) admH (pdatsH m) () cellOf_inj emb₁ defs₀ 𝒱H LH lvH m ρ main (segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- The argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      (h c _ (mem_uc main_arg0 (by decide))).trans (W12_kept m c main_arg0 (by decide) (by decide) (by decide) (by decide) (by decide) (by decide) (by decide) (by decide) (by decide) (by decide) (by decide) (by decide)),
      (h c _ (mem_uc main_arg1 (by decide))).trans (W12_kept m c main_arg1 (by decide) (by decide) (by decide) (by decide) (by decide) (by decide) (by decide) (by decide) (by decide) (by decide) (by decide) (by decide)),
      (h c _ (mem_uc main_arg2 (by decide))).trans (W12_kept m c main_arg2 (by decide) (by decide) (by decide) (by decide) (by decide) (by decide) (by decide) (by decide) (by decide) (by decide) (by decide) (by decide)),
      (h c _ (mem_uc main_arg3 (by decide))).trans (W12_kept m c main_arg3 (by decide) (by decide) (by decide) (by decide) (by decide) (by decide) (by decide) (by decide) (by decide) (by decide) (by decide) (by decide)),
      (h c _ (mem_uc main_arg4 (by decide))).trans (W12_kept m c main_arg4 (by decide) (by decide) (by decide) (by decide) (by decide) (by decide) (by decide) (by decide) (by decide) (by decide) (by decide) (by decide)),
      (h c _ (mem_uc main_arg5 (by decide))).trans (W12_kept m c main_arg5 (by decide) (by decide) (by decide) (by decide) (by decide) (by decide) (by decide) (by decide) (by decide) (by decide) (by decide) (by decide)),
      (h c _ (mem_uc main_arg6 (by decide))).trans (W12_kept m c main_arg6 (by decide) (by decide) (by decide) (by decide) (by decide) (by decide) (by decide) (by decide) (by decide) (by decide) (by decide) (by decide)),
      (h c _ (mem_uc main_arg7 (by decide))).trans (W12_kept m c main_arg7 (by decide) (by decide) (by decide) (by decide) (by decide) (by decide) (by decide) (by decide) (by decide) (by decide) (by decide) (by decide)),
      (h c _ (mem_uc main_arg8 (by decide))).trans (W12_kept m c main_arg8 (by decide) (by decide) (by decide) (by decide) (by decide) (by decide) (by decide) (by decide) (by decide) (by decide) (by decide) (by decide)),
      (h c _ (mem_uc main_arg9 (by decide))).trans (W12_kept m c main_arg9 (by decide) (by decide) (by decide) (by decide) (by decide) (by decide) (by decide) (by decide) (by decide) (by decide) (by decide) (by decide)),
      (h c _ (mem_uc main_arg10 (by decide))).trans (W12_kept m c main_arg10 (by decide) (by decide) (by decide) (by decide) (by decide) (by decide) (by decide) (by decide) (by decide) (by decide) (by decide) (by decide)),
      (h c _ (mem_uc main_arg11 (by decide))).trans (W12_kept m c main_arg11 (by decide) (by decide) (by decide) (by decide) (by decide) (by decide) (by decide) (by decide) (by decide) (by decide) (by decide) (by decide)),
      (h c _ (mem_uc main_arg12 (by decide))).trans (W12_kept m c main_arg12 (by decide) (by decide) (by decide) (by decide) (by decide) (by decide) (by decide) (by decide) (by decide) (by decide) (by decide) (by decide))⟩) (run_all m ρ)

/-- The same run, with the last layer's result array named as well. -/
theorem valueH : θ_run defs (onTc (τ := τ) (main (F := F))) ⟨m, fun _ => 0, ρ⟩ (fun r => ∀ c : Dev nD,
      r.2.mem ((c.tc : Thread nD τ).loc main_v130) = W12 m c (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v130 (by decide)),
      (h c _ (mem_uc main_arg0 (by decide))).trans (W12_kept m c main_arg0 (by decide) (by decide) (by decide) (by decide) (by decide) (by decide) (by decide) (by decide) (by decide) (by decide) (by decide) (by decide)),
      (h c _ (mem_uc main_arg1 (by decide))).trans (W12_kept m c main_arg1 (by decide) (by decide) (by decide) (by decide) (by decide) (by decide) (by decide) (by decide) (by decide) (by decide) (by decide) (by decide)),
      (h c _ (mem_uc main_arg2 (by decide))).trans (W12_kept m c main_arg2 (by decide) (by decide) (by decide) (by decide) (by decide) (by decide) (by decide) (by decide) (by decide) (by decide) (by decide) (by decide)),
      (h c _ (mem_uc main_arg3 (by decide))).trans (W12_kept m c main_arg3 (by decide) (by decide) (by decide) (by decide) (by decide) (by decide) (by decide) (by decide) (by decide) (by decide) (by decide) (by decide)),
      (h c _ (mem_uc main_arg4 (by decide))).trans (W12_kept m c main_arg4 (by decide) (by decide) (by decide) (by decide) (by decide) (by decide) (by decide) (by decide) (by decide) (by decide) (by decide) (by decide)),
      (h c _ (mem_uc main_arg5 (by decide))).trans (W12_kept m c main_arg5 (by decide) (by decide) (by decide) (by decide) (by decide) (by decide) (by decide) (by decide) (by decide) (by decide) (by decide) (by decide)),
      (h c _ (mem_uc main_arg6 (by decide))).trans (W12_kept m c main_arg6 (by decide) (by decide) (by decide) (by decide) (by decide) (by decide) (by decide) (by decide) (by decide) (by decide) (by decide) (by decide)),
      (h c _ (mem_uc main_arg7 (by decide))).trans (W12_kept m c main_arg7 (by decide) (by decide) (by decide) (by decide) (by decide) (by decide) (by decide) (by decide) (by decide) (by decide) (by decide) (by decide)),
      (h c _ (mem_uc main_arg8 (by decide))).trans (W12_kept m c main_arg8 (by decide) (by decide) (by decide) (by decide) (by decide) (by decide) (by decide) (by decide) (by decide) (by decide) (by decide) (by decide)),
      (h c _ (mem_uc main_arg9 (by decide))).trans (W12_kept m c main_arg9 (by decide) (by decide) (by decide) (by decide) (by decide) (by decide) (by decide) (by decide) (by decide) (by decide) (by decide) (by decide)),
      (h c _ (mem_uc main_arg10 (by decide))).trans (W12_kept m c main_arg10 (by decide) (by decide) (by decide) (by decide) (by decide) (by decide) (by decide) (by decide) (by decide) (by decide) (by decide) (by decide)),
      (h c _ (mem_uc main_arg11 (by decide))).trans (W12_kept m c main_arg11 (by decide) (by decide) (by decide) (by decide) (by decide) (by decide) (by decide) (by decide) (by decide) (by decide) (by decide) (by decide)),
      (h c _ (mem_uc main_arg12 (by decide))).trans (W12_kept m c main_arg12 (by decide) (by decide) (by decide) (by decide) (by decide) (by decide) (by decide) (by decide) (by decide) (by decide) (by decide) (by decide))⟩) (run_all m ρ)

end Cert.KernelIdeal.Hand

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.KernelIdeal.Tile0.lean ====
/-
  The arithmetic of layer 0's body on one tile, read at an entry. On the extended reals a change of float format is
  the identity and a matrix product into a zero accumulator is the plain sum of products, so the entry `(p, q)` of
  the stored tile is the row `p` of the feature tile against column `q` of the first weight matrix, plus the same for
  the neighbour tile and the second weight matrix, plus the bias entry `q`, clipped below at zero.
-/
import proofs.«137384_j82008105549935_1_alg».proof.Proof.Gen.KernelIdeal.Skeleton
import proofs.«137384_j82008105549935_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

theorem k0_pay1_apply (x0 x1 : Vec Ideal S4000x6 .f32) (x2 x3 : Vec Ideal S6x128 .f32) (x4 : Vec Ideal S1x128 .f32) (p : Fin 4000) (q : Fin 128) :
    k0_pay1 (F := Ideal) x0 x1 x2 x3 x4 (ix2 p q)
      = max ((∑ k : Fin 6, x0 (ix2 p k) * x2 (ix2 k q)) + (∑ k : Fin 6, x1 (ix2 p k) * x3 (ix2 k q)) + x4 (ix2 (0 : Fin 1) q)) (Ideal.ofBits .f32 0x00000000#32) := by
  unfold k0_pay1
  refine congrArg₂ max (congrArg₂ (· + ·) (congrArg₂ (· + ·) ?_ ?_) ?_) rfl
  · refine (Cert.LibPlainDot.matmul_zero_apply (R := 4000) (K := 6) (C := 128) dot_S4000x6_S6x128_S4000x128_1_0_0_1_n_n.wf none _ _ p q).trans ?_
    refine Finset.sum_congr rfl fun k _ => ?_
    simp only [truncf_apply, shapeCast_self]
  · refine (Cert.LibPlainDot.matmul_zero_apply (R := 4000) (K := 6) (C := 128) dot_S4000x6_S6x128_S4000x128_1_0_0_1_n_n.wf none _ _ p q).trans ?_
    refine Finset.sum_congr rfl fun k _ => ?_
    simp only [truncf_apply, shapeCast_self]
  · refine (broadcastTo_1b_ab_apply _ _ p q).trans ?_
    simp only [shapeCast_self]

end Cert.KernelIdeal.Hand

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«137384_j82008105549935_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Spec.lean ====
/-
  One layer of the network as a function of its operand arrays, index by index, over the extended reals.

  For node features `x` and neighbour means `nb` of shape `[N, K]`, weight matrices `ws`, `wn` of shape `[K, C]` and a
  bias row `b` of shape `[1, C]`, the layer before its activation is, at `(r, q)`,
  `sum_k x (r, k) * ws (k, q) + sum_k nb (r, k) * wn (k, q) + b (0, q)`, and the activation clips below at zero.
  Written with the host's operations this is two plain matrix products added, plus the bias vector laid out as a row
  and stretched over the rows, then the maximum with a zero array: the two spellings are one array, because a plain
  product read at an entry is that sum and the stretched row read at `(r, q)` is the vector's entry `q`.
-/
import proofs.«137384_j82008105549935_1_alg».proof.Proof.LibPlainDot
import proofs.«137384_j82008105549935_1_alg».proof.Proof.LibHostDot
import proofs.«137384_j82008105549935_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Spec

open Idealize.ShloMosaic Idealize.ShloMosaic.ValueIdx Cert.LibPlainDot

variable {N Kk C : ℕ}

/-- Row `r` of a left operand at contraction coordinate `k`, for the result entry `i = (r, q)`. -/
abbrev li (i : (⟨2, ![N, C]⟩ : Shape).Idx) (k : Fin Kk) : (⟨2, ![N, Kk]⟩ : Shape).Idx := fun a => match a with
  | ⟨0, _⟩ => ⟨(i 0).val, (i 0).isLt⟩
  | ⟨1, _⟩ => ⟨k.val, k.isLt⟩
/-- Column `q` of a weight matrix at contraction coordinate `k`. -/
abbrev ri (i : (⟨2, ![N, C]⟩ : Shape).Idx) (k : Fin Kk) : (⟨2, ![Kk, C]⟩ : Shape).Idx := fun a => match a with
  | ⟨0, _⟩ => ⟨k.val, k.isLt⟩
  | ⟨1, _⟩ => ⟨(i 1).val, (i 1).isLt⟩
/-- The bias row's entry `q`. -/
abbrev bi (i : (⟨2, ![N, C]⟩ : Shape).Idx) : (⟨2, ![1, C]⟩ : Shape).Idx := fun a => match a with
  | ⟨0, _⟩ => ⟨0, Nat.one_pos⟩
  | ⟨1, _⟩ => ⟨(i 1).val, (i 1).isLt⟩

/-- The layer before its activation. -/
def pre (x nb : FVec Ideal ⟨2, ![N, Kk]⟩ .f32) (ws wn : FVec Ideal ⟨2, ![Kk, C]⟩ .f32) (b : FVec Ideal ⟨2, ![1, C]⟩ .f32) :
    FVec Ideal ⟨2, ![N, C]⟩ .f32 :=
  fun i => (∑ k : Fin Kk, x (li i k) * ws (ri i k)) + (∑ k : Fin Kk, nb (li i k) * wn (ri i k)) + b (bi i)

/-- The activation: every entry clipped below at zero. -/
def clip (f : FVec Ideal ⟨2, ![N, C]⟩ .f32) : FVec Ideal ⟨2, ![N, C]⟩ .f32 :=
  fun i => max (f i) (Ideal.ofBits .f32 0x00000000#32)

theorem li_ix2 (r : Fin N) (q : Fin C) (k : Fin Kk) : li (ix2 r q) k = ix2 r k :=
  funext fun a => by match a with | ⟨0, _⟩ => rfl | ⟨1, _⟩ => rfl
theorem ri_ix2 (r : Fin N) (q : Fin C) (k : Fin Kk) : ri (ix2 r q) k = ix2 k q :=
  funext fun a => by match a with | ⟨0, _⟩ => rfl | ⟨1, _⟩ => rfl
theorem bi_ix2 (r : Fin N) (q : Fin C) : bi (ix2 r q) = ix2 (0 : Fin 1) q :=
  funext fun a => by match a with | ⟨0, _⟩ => rfl | ⟨1, _⟩ => rfl

/-- The layer before its activation, in the host's spelling: two plain products added, plus the bias vector as a row
    stretched over the rows. -/
theorem pre_eq_host (wf : DotDims.WF ⟨2, ![N, Kk]⟩ ⟨2, ![Kk, C]⟩ ⟨2, ![N, C]⟩ [1] [0] [0] [1] [] [])
    (h1 : (⟨1, ![C]⟩ : Shape).BroadcastsInDim ⟨2, ![1, C]⟩ ![1])
    (h2 : (⟨2, ![1, C]⟩ : Shape).BroadcastsInDim ⟨2, ![N, C]⟩ ![0, 1])
    (hs : (⟨1, ![C]⟩ : Shape).ShapeCasts ⟨2, ![1, C]⟩)
    (x nb : FVec Ideal ⟨2, ![N, Kk]⟩ .f32) (ws wn : FVec Ideal ⟨2, ![Kk, C]⟩ .f32) (b : FVec Ideal ⟨1, ![C]⟩ .f32) :
    pre x nb ws wn (shapeCast ⟨2, ![1, C]⟩ b hs)
      = addf (addf (Host.dotGeneral (F := Ideal) (plainDot N Kk C wf) none x ws) (Host.dotGeneral (F := Ideal) (plainDot N Kk C wf) none nb wn))
          (broadcastInDim ⟨2, ![N, C]⟩ ![0, 1] h2 (broadcastInDim ⟨2, ![1, C]⟩ ![1] h1 b)) := by
  funext i
  obtain ⟨r, q, rfl⟩ : ∃ (r : Fin N) (q : Fin C), i = ix2 r q := ⟨i 0, i 1, eq_ix2 i⟩
  unfold pre
  rw [addf_apply, addf_apply, Cert.LibHostDot.hostDot_apply, Cert.LibHostDot.hostDot_apply,
    Cert.LibColumn.bcastInDim_1b_ab_apply, Cert.LibColumn.bcastInDim_b_1b_apply]
  simp only [li_ix2, ri_ix2, bi_ix2]
  rw [shapeCast_a_1a_apply]

/-- The activation, in the host's spelling: the maximum with a zero array. -/
theorem clip_eq_host (h0 : (⟨0, ![]⟩ : Shape).BroadcastsInDim ⟨2, ![N, C]⟩ (![] : Fin 0 → Fin 2))
    (f : FVec Ideal ⟨2, ![N, C]⟩ .f32) :
    clip f = maximumf f (broadcastInDim ⟨2, ![N, C]⟩ ![] h0 (constant (F := Ideal) ⟨0, ![]⟩ .f32 0x00000000#32)) := by
  funext i
  unfold clip
  rw [maximumf_apply, Cert.LibColumn.bcastInDim_scalar_apply _ h0 i ix0]
  rfl

end Cert.Spec

end
-- ==== Proof.KernelIdeal.Val0.lean ====
/-
  Layer 0's result array after its launch, as ONE function of the five operand arrays. Grid point `t` writes rows
  `4000 t … 4000 t + 3999`; the feature and neighbour tiles it reads are the same rows of their arrays, and the weights
  and the bias are read whole at every point. So entry `(r, q)` of the result is row `r` of the features against
  column `q` of the first weights, plus row `r` of the neighbour means against column `q` of the second weights,
  plus the bias entry `q`, clipped below at zero; the 25 tiles cover all 100000 rows.
-/
import proofs.«137384_j82008105549935_1_alg».proof.Proof.KernelIdeal.Reg0
import proofs.«137384_j82008105549935_1_alg».proof.Proof.KernelIdeal.Tile0
import proofs.«137384_j82008105549935_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The layer as one function of its operand arrays. -/
def G0 (x nb : FVec Ideal S100000x6 .f32) (ws wn : FVec Ideal S6x128 .f32) (b : FVec Ideal S1x128 .f32) : FVec Ideal S100000x128 .f32 :=
  Cert.Spec.clip (Cert.Spec.pre x nb ws wn b)

theorem hz0 : (![0, 0] : Fin 2 → Nat) = fun _ => 0 := funext fun a => by fin_cases a <;> rfl

/-- The tile index maps over the grid: features, neighbour means and result move down the rows with the point; the
    weights and the bias stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is tile `t` of `G0` of the operand arrays. -/
theorem flushed0_eq (c : Dev nD) (t : Fin cfg0.N) :
    (dat0 V c).flushed 5 t = ((cfg0.win 5).blk t).view.read (Elt Ideal) (G0 (V c main_v10) (V c main_v22) (V c main_arg4) (V c main_arg5) (V c main_v23)) := by
  show (cfg0.win 5).cut (grid0.coords t) ((dat0 V c).after 5 t) = _
  rw [after0_5]
  unfold out0_5
  rw [View.canon_unit_zero hz0]
  simp only [View.ld_unit_zero (S := S4000x6) hz0, View.ld_unit_zero (S := S6x128) hz0, View.ld_unit_zero (S := S1x128) hz0]
  obtain ⟨e00, e01, e10, e11, e20, e21, e30, e31, e40, e41, e50, e51⟩ := idx_facts0 t
  funext (j : S4000x128.Idx)
  obtain ⟨p, q, rfl⟩ : ∃ (p : Fin 4000) (q : Fin 128), j = ix2 p q := ⟨j 0, j 1, eq_ix2 j⟩
  refine (k0_pay1_apply _ _ _ _ _ p q).trans ?_
  show _ = G0 (V c main_v10) (V c main_v22) (V c main_arg4) (V c main_arg5) (V c main_v23) (((cfg0.win 5).blk t).view.emb (ix2 p q))
  unfold G0 Cert.Spec.clip Cert.Spec.pre
  have hp : p.val < 4000 := p.isLt
  have hq : q.val < 128 := q.isLt
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show V c main_v10 (((cfg0.win 0).blk t).view.emb (ix2 p k)) = V c main_v10 (Cert.Spec.li (((cfg0.win 5).blk t).view.emb (ix2 p q)) k)
    refine congrArg (V c main_v10) (funext fun a => Fin.ext ?_)
    match a with
    | ⟨0, _⟩ => show win0_0.index t (0 : Fin 2) * 4000 + 1 * p.val = win0_5.index t (0 : Fin 2) * 4000 + 1 * p.val; omega
    | ⟨1, _⟩ => show win0_0.index t (1 : Fin 2) * 6 + 1 * k.val = k.val; omega
  · show V c main_arg4 (((cfg0.win 2).blk t).view.emb (ix2 k q)) = V c main_arg4 (Cert.Spec.ri (((cfg0.win 5).blk t).view.emb (ix2 p q)) k)
    refine congrArg (V c main_arg4) (funext fun a => Fin.ext ?_)
    match a with
    | ⟨0, _⟩ => show win0_2.index t (0 : Fin 2) * 6 + 1 * k.val = k.val; omega
    | ⟨1, _⟩ => show win0_2.index t (1 : Fin 2) * 128 + 1 * q.val = win0_5.index t (1 : Fin 2) * 128 + 1 * q.val; omega
  · show V c main_v22 (((cfg0.win 1).blk t).view.emb (ix2 p k)) = V c main_v22 (Cert.Spec.li (((cfg0.win 5).blk t).view.emb (ix2 p q)) k)
    refine congrArg (V c main_v22) (funext fun a => Fin.ext ?_)
    match a with
    | ⟨0, _⟩ => show win0_1.index t (0 : Fin 2) * 4000 + 1 * p.val = win0_5.index t (0 : Fin 2) * 4000 + 1 * p.val; omega
    | ⟨1, _⟩ => show win0_1.index t (1 : Fin 2) * 6 + 1 * k.val = k.val; omega
  · show V c main_arg5 (((cfg0.win 3).blk t).view.emb (ix2 k q)) = V c main_arg5 (Cert.Spec.ri (((cfg0.win 5).blk t).view.emb (ix2 p q)) k)
    refine congrArg (V c main_arg5) (funext fun a => Fin.ext ?_)
    match a with
    | ⟨0, _⟩ => show win0_3.index t (0 : Fin 2) * 6 + 1 * k.val = k.val; omega
    | ⟨1, _⟩ => show win0_3.index t (1 : Fin 2) * 128 + 1 * q.val = win0_5.index t (1 : Fin 2) * 128 + 1 * q.val; omega
  · show V c main_v23 (((cfg0.win 4).blk t).view.emb (ix2 (0 : Fin 1) q)) = V c main_v23 (Cert.Spec.bi (((cfg0.win 5).blk t).view.emb (ix2 p q)))
    refine congrArg (V c main_v23) (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An index of the result array is in point `t`'s tile iff each coordinate is in the tile's range. -/
theorem mem_blk0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v24).slice (win0_5.rect t)).set ↔ _
  rw [View.set_slice_whole, Rect.mem_set_unit]
  exact Iff.rfl

/-- The result array after the launch is `G0` of the operand arrays as the launch found them. -/
theorem final0 (c : Dev nD) : (dat0 V c).arrAt 5 cfg0.N = G0 (V c main_v10) (V c main_v22) (V c main_arg4) (V c main_arg5) (V c main_v23) := by
  refine (dat0 V c).arrAt_eq_of_cover 5 _ (fun t _ => flushed0_eq V c t) fun (i : S100000x128.Idx) => ?_
  have hi0 : (i 0).val < 100000 := (i 0).isLt
  have hi1 : (i 1).val < 128 := (i 1).isLt
  have hN : grid0.N = 25 := N_0
  have htl : (i 0).val / 4000 < grid0.N := by rw [hN]; omega
  obtain ⟨e00, e01, e10, e11, e20, e21, e30, e31, e40, e41, e50, e51⟩ := idx_facts0 ⟨(i 0).val / 4000, htl⟩
  have e50' : win0_5.index ⟨(i 0).val / 4000, htl⟩ (0 : Fin 2) = (i 0).val / 4000 := e50
  refine ⟨⟨(i 0).val / 4000, htl⟩, flush0_5 _, ?_⟩
  rw [mem_blk0]
  intro a
  match a with
  | ⟨0, _⟩ => show win0_5.index ⟨(i 0).val / 4000, htl⟩ (0 : Fin 2) * 4000 ≤ (i 0).val ∧ (i 0).val < win0_5.index ⟨(i 0).val / 4000, htl⟩ (0 : Fin 2) * 4000 + 4000; omega
  | ⟨1, _⟩ => show win0_5.index ⟨(i 0).val / 4000, htl⟩ (1 : Fin 2) * 128 ≤ (i 1).val ∧ (i 1).val < win0_5.index ⟨(i 0).val / 4000, htl⟩ (1 : Fin 2) * 128 + 128; omega

end Cert.KernelIdeal.Hand

end
-- ==== Proof.Bridge.L0.lean ====
/-
  The first host stretch and the first layer, kernel side against reference side. Both programs join the two
  coordinate arrays into the input features, normalise the source indices, gather the source rows, add them up per
  destination node, count the in-degree (at least one) and divide: the same operations on the same arguments, so the
  arrays are equal as they stand. The first layer's result, assembled from its 25 tiles, is then the reference's
  first layer by the layer equation.
-/
import proofs.«137384_j82008105549935_1_alg».proof.Proof.KernelIdeal.Fold
import proofs.«137384_j82008105549935_1_alg».proof.Proof.KernelIdeal.Val0
import proofs.«137384_j82008105549935_1_alg».proof.Proof.RefRead
import proofs.«137384_j82008105549935_1_alg».proof.Proof.Spec

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

/-- The argument arrays as the kernel's program finds them at launch. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)

set_option maxHeartbeats 4000000 in
/-- The joined input features. -/
theorem X0_eq : W1 m c (Proc.devRef .tc main_v10) = Cert.ReferenceIdeal.ReadP.val_main_v4 (F := Ideal) (a0 m c) (a2 m c) := by
  dsimp only [W1, hostOps0]
  after_results_simp
  rfl
set_option maxHeartbeats 4000000 in
/-- The source and destination node of every edge. -/
theorem S_eq : W1 m c (Proc.devRef .tc main_v1) = Cert.ReferenceIdeal.ReadP.val_main_v1 (F := Ideal) (a1 m c) := by
  dsimp only [W1, hostOps0]
  after_results_simp
  rfl
set_option maxHeartbeats 4000000 in
theorem D_eq : W1 m c (Proc.devRef .tc main_v3) = Cert.ReferenceIdeal.ReadP.val_main_v3 (F := Ideal) (a1 m c) := by
  dsimp only [W1, hostOps0]
  after_results_simp
  rfl
set_option maxHeartbeats 4000000 in
/-- The in-degree of every node, at least one. -/
theorem Deg_eq : W1 m c (Proc.devRef .tc main_v9) = Cert.ReferenceIdeal.ReadP.val_main_v20 (F := Ideal) (a1 m c) := by
  dsimp only [W1, hostOps0]
  after_results_simp
  rfl
set_option maxHeartbeats 4000000 in
/-- The neighbour means of the input features. -/
theorem NB0_eq : W1 m c (Proc.devRef .tc main_v22) = Cert.ReferenceIdeal.ReadP.val_main_v22 (F := Ideal) (a0 m c) (a1 m c) (a2 m c) := by
  dsimp only [W1, hostOps0]
  after_results_simp
  rfl
theorem WS0_eq : W1 m c (Proc.devRef .tc main_arg4) = a4 m c := W1_kept m c main_arg4 (by decide)
theorem WN0_eq : W1 m c (Proc.devRef .tc main_arg5) = a5 m c := W1_kept m c main_arg5 (by decide)
set_option maxHeartbeats 4000000 in
/-- The bias vector laid out as a row. -/
theorem B0_eq : W1 m c (Proc.devRef .tc main_v23) = shapeCast S1x128 (a6 m c) shapeCasts_S128_S1x128 := by
  dsimp only [W1, hostOps0]
  after_results_simp
  rfl

/-- The first layer's result is the reference's. -/
theorem L0_eq : W2 m c (Proc.devRef .tc main_v24) = Cert.ReferenceIdeal.ReadP.val_main_v29 (F := Ideal) (a0 m c) (a1 m c) (a2 m c) (a4 m c) (a5 m c) (a6 m c) := by
  refine ((W2_arr m c 5).trans (final0 (U1 m) c)).trans ?_
  dsimp only [U1]
  rw [X0_eq m c, NB0_eq m c, WS0_eq m c, WN0_eq m c, B0_eq m c]
  unfold G0
  refine (congrArg Cert.Spec.clip (Cert.Spec.pre_eq_host (N := 100000) (Kk := 6) (C := 128) Cert.ReferenceIdeal.dot_S100000x6_S6x128_S100000x128_1_0_0_1_n_n.wf Cert.ReferenceIdeal.Gen.bcast_S128_S1x128_1 Cert.ReferenceIdeal.Gen.bcast_S1x128_S100000x128_0_1 shapeCasts_S128_S1x128 _ _ _ _ _)).trans ?_
  refine (Cert.Spec.clip_eq_host Cert.ReferenceIdeal.Gen.bcast_S_S100000x128 _).trans ?_
  rfl

end Cert.Bridge

end
-- ==== Proof.LibNary3.lean ====
/-
  A host operation over a literal family of THREE operand arrays (a concatenation of three pieces).

  Its result is its function applied to the family of the operands' contents; stated with each operand's contents at
  its own array — the family spelt out entry by entry — the contents can be rewritten further one array at a time,
  which the form under a binder over the family's index does not allow.
-/
import Idealize.ShloMosaic.Lib.StableHlo.Run

noncomputable section

namespace Cert.LibNary3

open Idealize.ShloMosaic Idealize.ShloMosaic.StableHlo Idealize.SL.Sem

variable {τ : Topo} {sig : RefSig} {Val : EltTy → Type} {x a b y : Ref sig .tc}

/-- The result of an operation over the literal family `![x, a, b]`, each operand's contents at its own array. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for rewriting by simplification. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

/-- What one array holds after a line of host operations, in one simplification pass, with extra rewriting lemmas for
    operations the pass has no rule of its own for (a concatenation of three pieces, stated at its literal arrays). -/
macro "after_results_with" "[" ts:Lean.Parser.Tactic.simpLemma,* "]" : tactic =>
  `(tactic| (simp (disch := decide) only [$ts,*, Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same computation by rewriting, one step at a time, for the few steps the simplification pass cannot reach (the
    contents of a piece inside a joined array). -/
macro "after_results_rw" : tactic =>
  `(tactic| (repeat (first
      | rw [Idealize.ShloMosaic.StableHlo.nullary_result] | rw [Idealize.ShloMosaic.StableHlo.unary_result] | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))

end
-- ==== Proof.KernelIdeal.Tile1.lean ====
/-
  The arithmetic of layer 1's body on one tile, read at an entry. On the extended reals a change of float format is
  the identity and a matrix product into a zero accumulator is the plain sum of products, so the entry `(p, q)` of
  the stored tile is the row `p` of the feature tile against column `q` of the first weight matrix, plus the same for
  the neighbour tile and the second weight matrix, plus the bias entry `q`, clipped below at zero.
-/
import proofs.«137384_j82008105549935_1_alg».proof.Proof.Gen.KernelIdeal.Skeleton
import proofs.«137384_j82008105549935_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

theorem k1_pay1_apply (x0 x1 : Vec Ideal S4000x198 .f32) (x2 x3 : Vec Ideal S198x128 .f32) (x4 : Vec Ideal S1x128 .f32) (p : Fin 4000) (q : Fin 128) :
    k1_pay1 (F := Ideal) x0 x1 x2 x3 x4 (ix2 p q)
      = max ((∑ k : Fin 198, x0 (ix2 p k) * x2 (ix2 k q)) + (∑ k : Fin 198, x1 (ix2 p k) * x3 (ix2 k q)) + x4 (ix2 (0 : Fin 1) q)) (Ideal.ofBits .f32 0x00000000#32) := by
  unfold k1_pay1
  refine congrArg₂ max (congrArg₂ (· + ·) (congrArg₂ (· + ·) ?_ ?_) ?_) rfl
  · refine (Cert.LibPlainDot.matmul_zero_apply (R := 4000) (K := 198) (C := 128) dot_S4000x198_S198x128_S4000x128_1_0_0_1_n_n.wf none _ _ p q).trans ?_
    refine Finset.sum_congr rfl fun k _ => ?_
    simp only [truncf_apply, shapeCast_self]
  · refine (Cert.LibPlainDot.matmul_zero_apply (R := 4000) (K := 198) (C := 128) dot_S4000x198_S198x128_S4000x128_1_0_0_1_n_n.wf none _ _ p q).trans ?_
    refine Finset.sum_congr rfl fun k _ => ?_
    simp only [truncf_apply, shapeCast_self]
  · refine (broadcastTo_1b_ab_apply _ _ p q).trans ?_
    simp only [shapeCast_self]

end Cert.KernelIdeal.Hand

end
-- ==== Proof.KernelIdeal.Val1.lean ====
/-
  Layer 1's result array after its launch, as ONE function of the five operand arrays. Grid point `t` writes rows
  `4000 t … 4000 t + 3999`; the feature and neighbour tiles it reads are the same rows of their arrays, and the weights
  and the bias are read whole at every point. So entry `(r, q)` of the result is row `r` of the features against
  column `q` of the first weights, plus row `r` of the neighbour means against column `q` of the second weights,
  plus the bias entry `q`, clipped below at zero; the 25 tiles cover all 100000 rows.
-/
import proofs.«137384_j82008105549935_1_alg».proof.Proof.KernelIdeal.Reg1
import proofs.«137384_j82008105549935_1_alg».proof.Proof.KernelIdeal.Tile1
import proofs.«137384_j82008105549935_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The layer as one function of its operand arrays. -/
def G1 (x nb : FVec Ideal S100000x198 .f32) (ws wn : FVec Ideal S198x128 .f32) (b : FVec Ideal S1x128 .f32) : FVec Ideal S100000x128 .f32 :=
  Cert.Spec.clip (Cert.Spec.pre x nb ws wn b)

theorem hz1 : (![0, 0] : Fin 2 → Nat) = fun _ => 0 := funext fun a => by fin_cases a <;> rfl

/-- The tile index maps over the grid: features, neighbour means and result move down the rows with the point; the
    weights and the bias stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is tile `t` of `G1` of the operand arrays. -/
theorem flushed1_eq (c : Dev nD) (t : Fin cfg1.N) :
    (dat1 V c).flushed 5 t = ((cfg1.win 5).blk t).view.read (Elt Ideal) (G1 (V c main_v27) (V c main_v45) (V c main_v29) (V c main_v31) (V c main_v46)) := by
  show (cfg1.win 5).cut (grid1.coords t) ((dat1 V c).after 5 t) = _
  rw [after1_5]
  unfold out1_5
  rw [View.canon_unit_zero hz1]
  simp only [View.ld_unit_zero (S := S4000x198) hz1, View.ld_unit_zero (S := S198x128) hz1, View.ld_unit_zero (S := S1x128) hz1]
  obtain ⟨e00, e01, e10, e11, e20, e21, e30, e31, e40, e41, e50, e51⟩ := idx_facts1 t
  funext (j : S4000x128.Idx)
  obtain ⟨p, q, rfl⟩ : ∃ (p : Fin 4000) (q : Fin 128), j = ix2 p q := ⟨j 0, j 1, eq_ix2 j⟩
  refine (k1_pay1_apply _ _ _ _ _ p q).trans ?_
  show _ = G1 (V c main_v27) (V c main_v45) (V c main_v29) (V c main_v31) (V c main_v46) (((cfg1.win 5).blk t).view.emb (ix2 p q))
  unfold G1 Cert.Spec.clip Cert.Spec.pre
  have hp : p.val < 4000 := p.isLt
  have hq : q.val < 128 := q.isLt
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show V c main_v27 (((cfg1.win 0).blk t).view.emb (ix2 p k)) = V c main_v27 (Cert.Spec.li (((cfg1.win 5).blk t).view.emb (ix2 p q)) k)
    refine congrArg (V c main_v27) (funext fun a => Fin.ext ?_)
    match a with
    | ⟨0, _⟩ => show win1_0.index t (0 : Fin 2) * 4000 + 1 * p.val = win1_5.index t (0 : Fin 2) * 4000 + 1 * p.val; omega
    | ⟨1, _⟩ => show win1_0.index t (1 : Fin 2) * 198 + 1 * k.val = k.val; omega
  · show V c main_v29 (((cfg1.win 2).blk t).view.emb (ix2 k q)) = V c main_v29 (Cert.Spec.ri (((cfg1.win 5).blk t).view.emb (ix2 p q)) k)
    refine congrArg (V c main_v29) (funext fun a => Fin.ext ?_)
    match a with
    | ⟨0, _⟩ => show win1_2.index t (0 : Fin 2) * 198 + 1 * k.val = k.val; omega
    | ⟨1, _⟩ => show win1_2.index t (1 : Fin 2) * 128 + 1 * q.val = win1_5.index t (1 : Fin 2) * 128 + 1 * q.val; omega
  · show V c main_v45 (((cfg1.win 1).blk t).view.emb (ix2 p k)) = V c main_v45 (Cert.Spec.li (((cfg1.win 5).blk t).view.emb (ix2 p q)) k)
    refine congrArg (V c main_v45) (funext fun a => Fin.ext ?_)
    match a with
    | ⟨0, _⟩ => show win1_1.index t (0 : Fin 2) * 4000 + 1 * p.val = win1_5.index t (0 : Fin 2) * 4000 + 1 * p.val; omega
    | ⟨1, _⟩ => show win1_1.index t (1 : Fin 2) * 198 + 1 * k.val = k.val; omega
  · show V c main_v31 (((cfg1.win 3).blk t).view.emb (ix2 k q)) = V c main_v31 (Cert.Spec.ri (((cfg1.win 5).blk t).view.emb (ix2 p q)) k)
    refine congrArg (V c main_v31) (funext fun a => Fin.ext ?_)
    match a with
    | ⟨0, _⟩ => show win1_3.index t (0 : Fin 2) * 198 + 1 * k.val = k.val; omega
    | ⟨1, _⟩ => show win1_3.index t (1 : Fin 2) * 128 + 1 * q.val = win1_5.index t (1 : Fin 2) * 128 + 1 * q.val; omega
  · show V c main_v46 (((cfg1.win 4).blk t).view.emb (ix2 (0 : Fin 1) q)) = V c main_v46 (Cert.Spec.bi (((cfg1.win 5).blk t).view.emb (ix2 p q)))
    refine congrArg (V c main_v46) (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega

/-- An index of the result array is in point `t`'s tile iff each coordinate is in the tile's range. -/
theorem mem_blk1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v47).slice (win1_5.rect t)).set ↔ _
  rw [View.set_slice_whole, Rect.mem_set_unit]
  exact Iff.rfl

/-- The result array after the launch is `G1` of the operand arrays as the launch found them. -/
theorem final1 (c : Dev nD) : (dat1 V c).arrAt 5 cfg1.N = G1 (V c main_v27) (V c main_v45) (V c main_v29) (V c main_v31) (V c main_v46) := by
  refine (dat1 V c).arrAt_eq_of_cover 5 _ (fun t _ => flushed1_eq V c t) fun (i : S100000x128.Idx) => ?_
  have hi0 : (i 0).val < 100000 := (i 0).isLt
  have hi1 : (i 1).val < 128 := (i 1).isLt
  have hN : grid1.N = 25 := N_1
  have htl : (i 0).val / 4000 < grid1.N := by rw [hN]; omega
  obtain ⟨e00, e01, e10, e11, e20, e21, e30, e31, e40, e41, e50, e51⟩ := idx_facts1 ⟨(i 0).val / 4000, htl⟩
  have e50' : win1_5.index ⟨(i 0).val / 4000, htl⟩ (0 : Fin 2) = (i 0).val / 4000 := e50
  refine ⟨⟨(i 0).val / 4000, htl⟩, flush1_5 _, ?_⟩
  rw [mem_blk1]
  intro a
  match a with
  | ⟨0, _⟩ => show win1_5.index ⟨(i 0).val / 4000, htl⟩ (0 : Fin 2) * 4000 ≤ (i 0).val ∧ (i 0).val < win1_5.index ⟨(i 0).val / 4000, htl⟩ (0 : Fin 2) * 4000 + 4000; omega
  | ⟨1, _⟩ => show win1_5.index ⟨(i 0).val / 4000, htl⟩ (1 : Fin 2) * 128 ≤ (i 1).val ∧ (i 1).val < win1_5.index ⟨(i 0).val / 4000, htl⟩ (1 : Fin 2) * 128 + 128; omega

end Cert.KernelIdeal.Hand

end
-- ==== Proof.Bridge.L1.lean ====
/-
  Host stretch 1 and layer 1, kernel side against reference side. The stretch joins the previous layer's result, one slab of
  the latent features and the input features into the layer's input, takes one slab each of the stacked weights and biases,
  and forms the neighbour means of the input as before: the same operations on equal arrays. The layer's result,
  assembled from its 25 tiles, is then the reference's by the layer equation.
-/
import proofs.«137384_j82008105549935_1_alg».proof.Proof.Bridge.L0
import proofs.«137384_j82008105549935_1_alg».proof.Proof.LibNary3
import proofs.«137384_j82008105549935_1_alg».proof.Proof.KernelIdeal.Val1

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

set_option maxHeartbeats 4000000 in
/-- The layer's input is the previous result, a slab of latent features and the input features side by side: the
    joining operation's result, each piece's contents at its own array. -/
theorem cat1 (F : Valuation τ sig (Elt Ideal)) (hxs hy) :
    (StableHlo.nary (τ := τ) ![main_v24, main_v26, main_v10] main_v27 (fun u => concatenate S100000x198 1 [⟨S100000x128, u 0⟩, ⟨S100000x64, u 1⟩, ⟨S100000x6, u 2⟩] concatenates_S100000x128_S100000x64_S100000x6_S100000x198_d1) hxs hy).result F (no_index (Proc.devRef .tc main_v27))
      = concatenate S100000x198 1 [⟨S100000x128, F (Proc.devRef .tc main_v24)⟩, ⟨S100000x64, F (Proc.devRef .tc main_v26)⟩, ⟨S100000x6, F (Proc.devRef .tc main_v10)⟩] concatenates_S100000x128_S100000x64_S100000x6_S100000x198_d1 :=
  (StableHlo.nary_result _ _ _ hxs hy F).trans rfl

/-- The layer's input features. -/
theorem X1_eq : W3 m c (Proc.devRef .tc main_v27) = Cert.ReferenceIdeal.ReadP.val_main_v32 (F := Ideal) (a0 m c) (a1 m c) (a2 m c) (a3 m c) (a4 m c) (a5 m c) (a6 m c) := by
  have hprev := L0_eq m c
  have h10 := (W2_toW1 m c main_v10 (by decide)).trans (X0_eq m c)
  have h1 := (W2_toW1 m c main_v1 (by decide)).trans (S_eq m c)
  have h3 := (W2_toW1 m c main_v3 (by decide)).trans (D_eq m c)
  have h9 := (W2_toW1 m c main_v9 (by decide)).trans (Deg_eq m c)
  have hz := W2_kept m c main_arg3 (by decide) (by decide)
  dsimp only [W3, hostOps1]
  after_results_with [cat1]
  after_results_rw
  rw [hprev, h10, hz]
  rfl
set_option maxHeartbeats 4000000 in
/-- Their neighbour means. -/
theorem NB1_eq : W3 m c (Proc.devRef .tc main_v45) = Cert.ReferenceIdeal.ReadP.val_main_v56 (F := Ideal) (a0 m c) (a1 m c) (a2 m c) (a3 m c) (a4 m c) (a5 m c) (a6 m c) := by
  have hprev := L0_eq m c
  have h10 := (W2_toW1 m c main_v10 (by decide)).trans (X0_eq m c)
  have h1 := (W2_toW1 m c main_v1 (by decide)).trans (S_eq m c)
  have h3 := (W2_toW1 m c main_v3 (by decide)).trans (D_eq m c)
  have h9 := (W2_toW1 m c main_v9 (by decide)).trans (Deg_eq m c)
  have hz := W2_kept m c main_arg3 (by decide) (by decide)
  dsimp only [W3, hostOps1]
  after_results_with [cat1]
  after_results_rw
  rw [hprev, h10, hz, h1, h3, h9]
  rfl
set_option maxHeartbeats 4000000 in
/-- The layer's weights and bias: one slab of the stacked arguments. -/
theorem WS1_eq : W3 m c (Proc.devRef .tc main_v29) = Cert.ReferenceIdeal.ReadP.val_main_v34 (F := Ideal) (a7 m c) := by
  have h7 := W2_kept m c main_arg7 (by decide) (by decide)
  dsimp only [W3, hostOps1]
  after_results_with [cat1]
  after_results_rw
  rw [h7]
  rfl
set_option maxHeartbeats 4000000 in
theorem WN1_eq : W3 m c (Proc.devRef .tc main_v31) = Cert.ReferenceIdeal.ReadP.val_main_v36 (F := Ideal) (a8 m c) := by
  have h8 := W2_kept m c main_arg8 (by decide) (by decide)
  dsimp only [W3, hostOps1]
  after_results_with [cat1]
  after_results_rw
  rw [h8]
  rfl
set_option maxHeartbeats 4000000 in
theorem B1_eq : W3 m c (Proc.devRef .tc main_v46) = shapeCast S1x128 (Cert.ReferenceIdeal.ReadP.val_main_v38 (F := Ideal) (a9 m c)) shapeCasts_S128_S1x128 := by
  have h9' := W2_kept m c main_arg9 (by decide) (by decide)
  dsimp only [W3, hostOps1]
  after_results_with [cat1]
  after_results_rw
  rw [h9']
  rfl

/-- The layer's result is the reference's. -/
theorem L1_eq : W4 m c (Proc.devRef .tc main_v47) = Cert.ReferenceIdeal.ReadP.val_main_v63 (F := Ideal) (a0 m c) (a1 m c) (a2 m c) (a3 m c) (a4 m c) (a5 m c) (a6 m c) (a7 m c) (a8 m c) (a9 m c) := by
  refine ((W4_arr m c 5).trans (final1 (U3 m) c)).trans ?_
  dsimp only [U3]
  rw [X1_eq m c, NB1_eq m c, WS1_eq m c, WN1_eq m c, B1_eq m c]
  unfold G1
  refine (congrArg Cert.Spec.clip (Cert.Spec.pre_eq_host (N := 100000) (Kk := 198) (C := 128) Cert.ReferenceIdeal.dot_S100000x198_S198x128_S100000x128_1_0_0_1_n_n.wf Cert.ReferenceIdeal.Gen.bcast_S128_S1x128_1 Cert.ReferenceIdeal.Gen.bcast_S1x128_S100000x128_0_1 shapeCasts_S128_S1x128 _ _ _ _ _)).trans ?_
  refine (Cert.Spec.clip_eq_host Cert.ReferenceIdeal.Gen.bcast_S_S100000x128 _).trans ?_
  rfl

end Cert.Bridge

end
-- ==== Proof.KernelIdeal.Tile2.lean ====
/-
  The arithmetic of layer 2's body on one tile, read at an entry. On the extended reals a change of float format is
  the identity and a matrix product into a zero accumulator is the plain sum of products, so the entry `(p, q)` of
  the stored tile is the row `p` of the feature tile against column `q` of the first weight matrix, plus the same for
  the neighbour tile and the second weight matrix, plus the bias entry `q`, clipped below at zero.
-/
import proofs.«137384_j82008105549935_1_alg».proof.Proof.Gen.KernelIdeal.Skeleton
import proofs.«137384_j82008105549935_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

theorem k2_pay1_apply (x0 x1 : Vec Ideal S4000x198 .f32) (x2 x3 : Vec Ideal S198x128 .f32) (x4 : Vec Ideal S1x128 .f32) (p : Fin 4000) (q : Fin 128) :
    k2_pay1 (F := Ideal) x0 x1 x2 x3 x4 (ix2 p q)
      = max ((∑ k : Fin 198, x0 (ix2 p k) * x2 (ix2 k q)) + (∑ k : Fin 198, x1 (ix2 p k) * x3 (ix2 k q)) + x4 (ix2 (0 : Fin 1) q)) (Ideal.ofBits .f32 0x00000000#32) := by
  unfold k2_pay1
  refine congrArg₂ max (congrArg₂ (· + ·) (congrArg₂ (· + ·) ?_ ?_) ?_) rfl
  · refine (Cert.LibPlainDot.matmul_zero_apply (R := 4000) (K := 198) (C := 128) dot_S4000x198_S198x128_S4000x128_1_0_0_1_n_n.wf none _ _ p q).trans ?_
    refine Finset.sum_congr rfl fun k _ => ?_
    simp only [truncf_apply, shapeCast_self]
  · refine (Cert.LibPlainDot.matmul_zero_apply (R := 4000) (K := 198) (C := 128) dot_S4000x198_S198x128_S4000x128_1_0_0_1_n_n.wf none _ _ p q).trans ?_
    refine Finset.sum_congr rfl fun k _ => ?_
    simp only [truncf_apply, shapeCast_self]
  · refine (broadcastTo_1b_ab_apply _ _ p q).trans ?_
    simp only [shapeCast_self]

end Cert.KernelIdeal.Hand

end
-- ==== Proof.KernelIdeal.Val2.lean ====
/-
  Layer 2's result array after its launch, as ONE function of the five operand arrays. Grid point `t` writes rows
  `4000 t … 4000 t + 3999`; the feature and neighbour tiles it reads are the same rows of their arrays, and the weights
  and the bias are read whole at every point. So entry `(r, q)` of the result is row `r` of the features against
  column `q` of the first weights, plus row `r` of the neighbour means against column `q` of the second weights,
  plus the bias entry `q`, clipped below at zero; the 25 tiles cover all 100000 rows.
-/
import proofs.«137384_j82008105549935_1_alg».proof.Proof.KernelIdeal.Reg2
import proofs.«137384_j82008105549935_1_alg».proof.Proof.KernelIdeal.Tile2
import proofs.«137384_j82008105549935_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The layer as one function of its operand arrays. -/
def G2 (x nb : FVec Ideal S100000x198 .f32) (ws wn : FVec Ideal S198x128 .f32) (b : FVec Ideal S1x128 .f32) : FVec Ideal S100000x128 .f32 :=
  Cert.Spec.clip (Cert.Spec.pre x nb ws wn b)

theorem hz2 : (![0, 0] : Fin 2 → Nat) = fun _ => 0 := funext fun a => by fin_cases a <;> rfl

/-- The tile index maps over the grid: features, neighbour means and result move down the rows with the point; the
    weights and the bias stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is tile `t` of `G2` of the operand arrays. -/
theorem flushed2_eq (c : Dev nD) (t : Fin cfg2.N) :
    (dat2 V c).flushed 5 t = ((cfg2.win 5).blk t).view.read (Elt Ideal) (G2 (V c main_v50) (V c main_v68) (V c main_v52) (V c main_v54) (V c main_v69)) := by
  show (cfg2.win 5).cut (grid2.coords t) ((dat2 V c).after 5 t) = _
  rw [after2_5]
  unfold out2_5
  rw [View.canon_unit_zero hz2]
  simp only [View.ld_unit_zero (S := S4000x198) hz2, View.ld_unit_zero (S := S198x128) hz2, View.ld_unit_zero (S := S1x128) hz2]
  obtain ⟨e00, e01, e10, e11, e20, e21, e30, e31, e40, e41, e50, e51⟩ := idx_facts2 t
  funext (j : S4000x128.Idx)
  obtain ⟨p, q, rfl⟩ : ∃ (p : Fin 4000) (q : Fin 128), j = ix2 p q := ⟨j 0, j 1, eq_ix2 j⟩
  refine (k2_pay1_apply _ _ _ _ _ p q).trans ?_
  show _ = G2 (V c main_v50) (V c main_v68) (V c main_v52) (V c main_v54) (V c main_v69) (((cfg2.win 5).blk t).view.emb (ix2 p q))
  unfold G2 Cert.Spec.clip Cert.Spec.pre
  have hp : p.val < 4000 := p.isLt
  have hq : q.val < 128 := q.isLt
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show V c main_v50 (((cfg2.win 0).blk t).view.emb (ix2 p k)) = V c main_v50 (Cert.Spec.li (((cfg2.win 5).blk t).view.emb (ix2 p q)) k)
    refine congrArg (V c main_v50) (funext fun a => Fin.ext ?_)
    match a with
    | ⟨0, _⟩ => show win2_0.index t (0 : Fin 2) * 4000 + 1 * p.val = win2_5.index t (0 : Fin 2) * 4000 + 1 * p.val; omega
    | ⟨1, _⟩ => show win2_0.index t (1 : Fin 2) * 198 + 1 * k.val = k.val; omega
  · show V c main_v52 (((cfg2.win 2).blk t).view.emb (ix2 k q)) = V c main_v52 (Cert.Spec.ri (((cfg2.win 5).blk t).view.emb (ix2 p q)) k)
    refine congrArg (V c main_v52) (funext fun a => Fin.ext ?_)
    match a with
    | ⟨0, _⟩ => show win2_2.index t (0 : Fin 2) * 198 + 1 * k.val = k.val; omega
    | ⟨1, _⟩ => show win2_2.index t (1 : Fin 2) * 128 + 1 * q.val = win2_5.index t (1 : Fin 2) * 128 + 1 * q.val; omega
  · show V c main_v68 (((cfg2.win 1).blk t).view.emb (ix2 p k)) = V c main_v68 (Cert.Spec.li (((cfg2.win 5).blk t).view.emb (ix2 p q)) k)
    refine congrArg (V c main_v68) (funext fun a => Fin.ext ?_)
    match a with
    | ⟨0, _⟩ => show win2_1.index t (0 : Fin 2) * 4000 + 1 * p.val = win2_5.index t (0 : Fin 2) * 4000 + 1 * p.val; omega
    | ⟨1, _⟩ => show win2_1.index t (1 : Fin 2) * 198 + 1 * k.val = k.val; omega
  · show V c main_v54 (((cfg2.win 3).blk t).view.emb (ix2 k q)) = V c main_v54 (Cert.Spec.ri (((cfg2.win 5).blk t).view.emb (ix2 p q)) k)
    refine congrArg (V c main_v54) (funext fun a => Fin.ext ?_)
    match a with
    | ⟨0, _⟩ => show win2_3.index t (0 : Fin 2) * 198 + 1 * k.val = k.val; omega
    | ⟨1, _⟩ => show win2_3.index t (1 : Fin 2) * 128 + 1 * q.val = win2_5.index t (1 : Fin 2) * 128 + 1 * q.val; omega
  · show V c main_v69 (((cfg2.win 4).blk t).view.emb (ix2 (0 : Fin 1) q)) = V c main_v69 (Cert.Spec.bi (((cfg2.win 5).blk t).view.emb (ix2 p q)))
    refine congrArg (V c main_v69) (funext fun a => Fin.ext ?_)
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega

/-- An index of the result array is in point `t`'s tile iff each coordinate is in the tile's range. -/
theorem mem_blk2 (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v70).slice (win2_5.rect t)).set ↔ _
  rw [View.set_slice_whole, Rect.mem_set_unit]
  exact Iff.rfl

/-- The result array after the launch is `G2` of the operand arrays as the launch found them. -/
theorem final2 (c : Dev nD) : (dat2 V c).arrAt 5 cfg2.N = G2 (V c main_v50) (V c main_v68) (V c main_v52) (V c main_v54) (V c main_v69) := by
  refine (dat2 V c).arrAt_eq_of_cover 5 _ (fun t _ => flushed2_eq V c t) fun (i : S100000x128.Idx) => ?_
  have hi0 : (i 0).val < 100000 := (i 0).isLt
  have hi1 : (i 1).val < 128 := (i 1).isLt
  have hN : grid2.N = 25 := N_2
  have htl : (i 0).val / 4000 < grid2.N := by rw [hN]; omega
  obtain ⟨e00, e01, e10, e11, e20, e21, e30, e31, e40, e41, e50, e51⟩ := idx_facts2 ⟨(i 0).val / 4000, htl⟩
  have e50' : win2_5.index ⟨(i 0).val / 4000, htl⟩ (0 : Fin 2) = (i 0).val / 4000 := e50
  refine ⟨⟨(i 0).val / 4000, htl⟩, flush2_5 _, ?_⟩
  rw [mem_blk2]
  intro a
  match a with
  | ⟨0, _⟩ => show win2_5.index ⟨(i 0).val / 4000, htl⟩ (0 : Fin 2) * 4000 ≤ (i 0).val ∧ (i 0).val < win2_5.index ⟨(i 0).val / 4000, htl⟩ (0 : Fin 2) * 4000 + 4000; omega
  | ⟨1, _⟩ => show win2_5.index ⟨(i 0).val / 4000, htl⟩ (1 : Fin 2) * 128 ≤ (i 1).val ∧ (i 1).val < win2_5.index ⟨(i 0).val / 4000, htl⟩ (1 : Fin 2) * 128 + 128; omega

end Cert.KernelIdeal.Hand

end
-- ==== Proof.Bridge.L2.lean ====
/-
  Host stretch 2 and layer 2, kernel side against reference side. The stretch joins the previous layer's result, one slab of
  the latent features and the input features into the layer's input, takes one slab each of the stacked weights and biases,
  and forms the neighbour means of the input as before: the same operations on equal arrays. The layer's result,
  assembled from its 25 tiles, is then the reference's by the layer equation.
-/
import proofs.«137384_j82008105549935_1_alg».proof.Proof.Bridge.L1
import proofs.«137384_j82008105549935_1_alg».proof.Proof.LibNary3
import proofs.«137384_j82008105549935_1_alg».proof.Proof.KernelIdeal.Val2

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

set_option maxHeartbeats 4000000 in
/-- The layer's input is the previous result, a slab of latent features and the input features side by side: the
    joining operation's result, each piece's contents at its own array. -/
theorem cat2 (F : Valuation τ sig (Elt Ideal)) (hxs hy) :
    (StableHlo.nary (τ := τ) ![main_v47, main_v49, main_v10] main_v50 (fun u => concatenate S100000x198 1 [⟨S100000x128, u 0⟩, ⟨S100000x64, u 1⟩, ⟨S100000x6, u 2⟩] concatenates_S100000x128_S100000x64_S100000x6_S100000x198_d1) hxs hy).result F (no_index (Proc.devRef .tc main_v50))
      = concatenate S100000x198 1 [⟨S100000x128, F (Proc.devRef .tc main_v47)⟩, ⟨S100000x64, F (Proc.devRef .tc main_v49)⟩, ⟨S100000x6, F (Proc.devRef .tc main_v10)⟩] concatenates_S100000x128_S100000x64_S100000x6_S100000x198_d1 :=
  (StableHlo.nary_result _ _ _ hxs hy F).trans rfl

/-- The layer's input features. -/
theorem X2_eq : W5 m c (Proc.devRef .tc main_v50) = Cert.ReferenceIdeal.ReadP.val_main_v66 (F := Ideal) (a0 m c) (a1 m c) (a2 m c) (a3 m c) (a4 m c) (a5 m c) (a6 m c) (a7 m c) (a8 m c) (a9 m c) := by
  have hprev := L1_eq m c
  have h10 := (W4_toW1 m c main_v10 (by decide) (by decide) (by decide)).trans (X0_eq m c)
  have h1 := (W4_toW1 m c main_v1 (by decide) (by decide) (by decide)).trans (S_eq m c)
  have h3 := (W4_toW1 m c main_v3 (by decide) (by decide) (by decide)).trans (D_eq m c)
  have h9 := (W4_toW1 m c main_v9 (by decide) (by decide) (by decide)).trans (Deg_eq m c)
  have hz := W4_kept m c main_arg3 (by decide) (by decide) (by decide) (by decide)
  dsimp only [W5, hostOps2]
  after_results_with [cat2]
  after_results_rw
  rw [hprev, h10, hz]
  rfl
set_option maxHeartbeats 4000000 in
/-- Their neighbour means. -/
theorem NB2_eq : W5 m c (Proc.devRef .tc main_v68) = Cert.ReferenceIdeal.ReadP.val_main_v90 (F := Ideal) (a0 m c) (a1 m c) (a2 m c) (a3 m c) (a4 m c) (a5 m c) (a6 m c) (a7 m c) (a8 m c) (a9 m c) := by
  have hprev := L1_eq m c
  have h10 := (W4_toW1 m c main_v10 (by decide) (by decide) (by decide)).trans (X0_eq m c)
  have h1 := (W4_toW1 m c main_v1 (by decide) (by decide) (by decide)).trans (S_eq m c)
  have h3 := (W4_toW1 m c main_v3 (by decide) (by decide) (by decide)).trans (D_eq m c)
  have h9 := (W4_toW1 m c main_v9 (by decide) (by decide) (by decide)).trans (Deg_eq m c)
  have hz := W4_kept m c main_arg3 (by decide) (by decide) (by decide) (by decide)
  dsimp only [W5, hostOps2]
  after_results_with [cat2]
  after_results_rw
  rw [hprev, h10, hz, h1, h3, h9]
  rfl
set_option maxHeartbeats 4000000 in
/-- The layer's weights and bias: one slab of the stacked arguments. -/
theorem WS2_eq : W5 m c (Proc.devRef .tc main_v52) = Cert.ReferenceIdeal.ReadP.val_main_v68 (F := Ideal) (a7 m c) := by
  have h7 := W4_kept m c main_arg7 (by decide) (by decide) (by decide) (by decide)
  dsimp only [W5, hostOps2]
  after_results_with [cat2]
  after_results_rw
  rw [h7]
  rfl
set_option maxHeartbeats 4000000 in
theorem WN2_eq : W5 m c (Proc.devRef .tc main_v54) = Cert.ReferenceIdeal.ReadP.val_main_v70 (F := Ideal) (a8 m c) := by
  have h8 := W4_kept m c main_arg8 (by decide) (by decide) (by decide) (by decide)
  dsimp only [W5, hostOps2]
  after_results_with [cat2]
  after_results_rw
  rw [h8]
  rfl
set_option maxHeartbeats 4000000 in
theorem B2_eq : W5 m c (Proc.devRef .tc main_v69) = shapeCast S1x128 (Cert.ReferenceIdeal.ReadP.val_main_v72 (F := Ideal) (a9 m c)) shapeCasts_S128_S1x128 := by
  have h9' := W4_kept m c main_arg9 (by decide) (by decide) (by decide) (by decide)
  dsimp only [W5, hostOps2]
  after_results_with [cat2]
  after_results_rw
  rw [h9']
  rfl

/-- The layer's result is the reference's. -/
theorem L2_eq : W6 m c (Proc.devRef .tc main_v70) = Cert.ReferenceIdeal.ReadP.val_main_v97 (F := Ideal) (a0 m c) (a1 m c) (a2 m c) (a3 m c) (a4 m c) (a5 m c) (a6 m c) (a7 m c) (a8 m c) (a9 m c) := by
  refine ((W6_arr m c 5).trans (final2 (U5 m) c)).trans ?_
  dsimp only [U5]
  rw [X2_eq m c, NB2_eq m c, WS2_eq m c, WN2_eq m c, B2_eq m c]
  unfold G2
  refine (congrArg Cert.Spec.clip (Cert.Spec.pre_eq_host (N := 100000) (Kk := 198) (C := 128) Cert.ReferenceIdeal.dot_S100000x198_S198x128_S100000x128_1_0_0_1_n_n.wf Cert.ReferenceIdeal.Gen.bcast_S128_S1x128_1 Cert.ReferenceIdeal.Gen.bcast_S1x128_S100000x128_0_1 shapeCasts_S128_S1x128 _ _ _ _ _)).trans ?_
  refine (Cert.Spec.clip_eq_host Cert.ReferenceIdeal.Gen.bcast_S_S100000x128 _).trans ?_
  rfl

end Cert.Bridge

end
-- ==== Proof.KernelIdeal.Tile3.lean ====
/-
  The arithmetic of layer 3's body on one tile, read at an entry. On the extended reals a change of float format is
  the identity and a matrix product into a zero accumulator is the plain sum of products, so the entry `(p, q)` of
  the stored tile is the row `p` of the feature tile against column `q` of the first weight matrix, plus the same for
  the neighbour tile and the second weight matrix, plus the bias entry `q`, clipped below at zero.
-/
import proofs.«137384_j82008105549935_1_alg».proof.Proof.Gen.KernelIdeal.Skeleton
import proofs.«137384_j82008105549935_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

theorem k3_pay1_apply (x0 x1 : Vec Ideal S4000x198 .f32) (x2 x3 : Vec Ideal S198x128 .f32) (x4 : Vec Ideal S1x128 .f32) (p : Fin 4000) (q : Fin 128) :
    k3_pay1 (F := Ideal) x0 x1 x2 x3 x4 (ix2 p q)
      = max ((∑ k : Fin 198, x0 (ix2 p k) * x2 (ix2 k q)) + (∑ k : Fin 198, x1 (ix2 p k) * x3 (ix2 k q)) + x4 (ix2 (0 : Fin 1) q)) (Ideal.ofBits .f32 0x00000000#32) := by
  unfold k3_pay1
  refine congrArg₂ max (congrArg₂ (· + ·) (congrArg₂ (· + ·) ?_ ?_) ?_) rfl
  · refine (Cert.LibPlainDot.matmul_zero_apply (R := 4000) (K := 198) (C := 128) dot_S4000x198_S198x128_S4000x128_1_0_0_1_n_n.wf none _ _ p q).trans ?_
    refine Finset.sum_congr rfl fun k _ => ?_
    simp only [truncf_apply, shapeCast_self]
  · refine (Cert.LibPlainDot.matmul_zero_apply (R := 4000) (K := 198) (C := 128) dot_S4000x198_S198x128_S4000x128_1_0_0_1_n_n.wf none _ _ p q).trans ?_
    refine Finset.sum_congr rfl fun k _ => ?_
    simp only [truncf_apply, shapeCast_self]
  · refine (broadcastTo_1b_ab_apply _ _ p q).trans ?_
    simp only [shapeCast_self]

end Cert.KernelIdeal.Hand

end
-- ==== Proof.KernelIdeal.Val3.lean ====
/-
  Layer 3's result array after its launch, as ONE function of the five operand arrays. Grid point `t` writes rows
  `4000 t … 4000 t + 3999`; the feature and neighbour tiles it reads are the same rows of their arrays, and the weights
  and the bias are read whole at every point. So entry `(r, q)` of the result is row `r` of the features against
  column `q` of the first weights, plus row `r` of the neighbour means against column `q` of the second weights,
  plus the bias entry `q`, clipped below at zero; the 25 tiles cover all 100000 rows.
-/
import proofs.«137384_j82008105549935_1_alg».proof.Proof.KernelIdeal.Reg3
import proofs.«137384_j82008105549935_1_alg».proof.Proof.KernelIdeal.Tile3
import proofs.«137384_j82008105549935_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The layer as one function of its operand arrays. -/
def G3 (x nb : FVec Ideal S100000x198 .f32) (ws wn : FVec Ideal S198x128 .f32) (b : FVec Ideal S1x128 .f32) : FVec Ideal S100000x128 .f32 :=
  Cert.Spec.clip (Cert.Spec.pre x nb ws wn b)

theorem hz3 : (![0, 0] : Fin 2 → Nat) = fun _ => 0 := funext fun a => by fin_cases a <;> rfl

/-- The tile index maps over the grid: features, neighbour means and result move down the rows with the point; the
    weights and the bias stay. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is tile `t` of `G3` of the operand arrays. -/
theorem flushed3_eq (c : Dev nD) (t : Fin cfg3.N) :
    (dat3 V c).flushed 5 t = ((cfg3.win 5).blk t).view.read (Elt Ideal) (G3 (V c main_v73) (V c main_v91) (V c main_v75) (V c main_v77) (V c main_v92)) := by
  show (cfg3.win 5).cut (grid3.coords t) ((dat3 V c).after 5 t) = _
  rw [after3_5]
  unfold out3_5
  rw [View.canon_unit_zero hz3]
  simp only [View.ld_unit_zero (S := S4000x198) hz3, View.ld_unit_zero (S := S198x128) hz3, View.ld_unit_zero (S := S1x128) hz3]
  obtain ⟨e00, e01, e10, e11, e20, e21, e30, e31, e40, e41, e50, e51⟩ := idx_facts3 t
  funext (j : S4000x128.Idx)
  obtain ⟨p, q, rfl⟩ : ∃ (p : Fin 4000) (q : Fin 128), j = ix2 p q := ⟨j 0, j 1, eq_ix2 j⟩
  refine (k3_pay1_apply _ _ _ _ _ p q).trans ?_
  show _ = G3 (V c main_v73) (V c main_v91) (V c main_v75) (V c main_v77) (V c main_v92) (((cfg3.win 5).blk t).view.emb (ix2 p q))
  unfold G3 Cert.Spec.clip Cert.Spec.pre
  have hp : p.val < 4000 := p.isLt
  have hq : q.val < 128 := q.isLt
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show V c main_v73 (((cfg3.win 0).blk t).view.emb (ix2 p k)) = V c main_v73 (Cert.Spec.li (((cfg3.win 5).blk t).view.emb (ix2 p q)) k)
    refine congrArg (V c main_v73) (funext fun a => Fin.ext ?_)
    match a with
    | ⟨0, _⟩ => show win3_0.index t (0 : Fin 2) * 4000 + 1 * p.val = win3_5.index t (0 : Fin 2) * 4000 + 1 * p.val; omega
    | ⟨1, _⟩ => show win3_0.index t (1 : Fin 2) * 198 + 1 * k.val = k.val; omega
  · show V c main_v75 (((cfg3.win 2).blk t).view.emb (ix2 k q)) = V c main_v75 (Cert.Spec.ri (((cfg3.win 5).blk t).view.emb (ix2 p q)) k)
    refine congrArg (V c main_v75) (funext fun a => Fin.ext ?_)
    match a with
    | ⟨0, _⟩ => show win3_2.index t (0 : Fin 2) * 198 + 1 * k.val = k.val; omega
    | ⟨1, _⟩ => show win3_2.index t (1 : Fin 2) * 128 + 1 * q.val = win3_5.index t (1 : Fin 2) * 128 + 1 * q.val; omega
  · show V c main_v91 (((cfg3.win 1).blk t).view.emb (ix2 p k)) = V c main_v91 (Cert.Spec.li (((cfg3.win 5).blk t).view.emb (ix2 p q)) k)
    refine congrArg (V c main_v91) (funext fun a => Fin.ext ?_)
    match a with
    | ⟨0, _⟩ => show win3_1.index t (0 : Fin 2) * 4000 + 1 * p.val = win3_5.index t (0 : Fin 2) * 4000 + 1 * p.val; omega
    | ⟨1, _⟩ => show win3_1.index t (1 : Fin 2) * 198 + 1 * k.val = k.val; omega
  · show V c main_v77 (((cfg3.win 3).blk t).view.emb (ix2 k q)) = V c main_v77 (Cert.Spec.ri (((cfg3.win 5).blk t).view.emb (ix2 p q)) k)
    refine congrArg (V c main_v77) (funext fun a => Fin.ext ?_)
    match a with
    | ⟨0, _⟩ => show win3_3.index t (0 : Fin 2) * 198 + 1 * k.val = k.val; omega
    | ⟨1, _⟩ => show win3_3.index t (1 : Fin 2) * 128 + 1 * q.val = win3_5.index t (1 : Fin 2) * 128 + 1 * q.val; omega
  · show V c main_v92 (((cfg3.win 4).blk t).view.emb (ix2 (0 : Fin 1) q)) = V c main_v92 (Cert.Spec.bi (((cfg3.win 5).blk t).view.emb (ix2 p q)))
    refine congrArg (V c main_v92) (funext fun a => Fin.ext ?_)
    match a with
    | ⟨0, _⟩ => show win3_4.index t (0 : Fin 2) * 1 + 1 * 0 = 0; omega
    | ⟨1, _⟩ => show win3_4.index t (1 : Fin 2) * 128 + 1 * q.val = win3_5.index t (1 : Fin 2) * 128 + 1 * q.val; omega

/-- An index of the result array is in point `t`'s tile iff each coordinate is in the tile's range. -/
theorem mem_blk3 (t : Fin cfg3.N) (i : S100000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v93).slice (win3_5.rect t)).set ↔ _
  rw [View.set_slice_whole, Rect.mem_set_unit]
  exact Iff.rfl

/-- The result array after the launch is `G3` of the operand arrays as the launch found them. -/
theorem final3 (c : Dev nD) : (dat3 V c).arrAt 5 cfg3.N = G3 (V c main_v73) (V c main_v91) (V c main_v75) (V c main_v77) (V c main_v92) := by
  refine (dat3 V c).arrAt_eq_of_cover 5 _ (fun t _ => flushed3_eq V c t) fun (i : S100000x128.Idx) => ?_
  have hi0 : (i 0).val < 100000 := (i 0).isLt
  have hi1 : (i 1).val < 128 := (i 1).isLt
  have hN : grid3.N = 25 := N_3
  have htl : (i 0).val / 4000 < grid3.N := by rw [hN]; omega
  obtain ⟨e00, e01, e10, e11, e20, e21, e30, e31, e40, e41, e50, e51⟩ := idx_facts3 ⟨(i 0).val / 4000, htl⟩
  have e50' : win3_5.index ⟨(i 0).val / 4000, htl⟩ (0 : Fin 2) = (i 0).val / 4000 := e50
  refine ⟨⟨(i 0).val / 4000, htl⟩, flush3_5 _, ?_⟩
  rw [mem_blk3]
  intro a
  match a with
  | ⟨0, _⟩ => show win3_5.index ⟨(i 0).val / 4000, htl⟩ (0 : Fin 2) * 4000 ≤ (i 0).val ∧ (i 0).val < win3_5.index ⟨(i 0).val / 4000, htl⟩ (0 : Fin 2) * 4000 + 4000; omega
  | ⟨1, _⟩ => show win3_5.index ⟨(i 0).val / 4000, htl⟩ (1 : Fin 2) * 128 ≤ (i 1).val ∧ (i 1).val < win3_5.index ⟨(i 0).val / 4000, htl⟩ (1 : Fin 2) * 128 + 128; omega

end Cert.KernelIdeal.Hand

end
-- ==== Proof.Bridge.L3.lean ====
/-
  Host stretch 3 and layer 3, kernel side against reference side. The stretch joins the previous layer's result, one slab of
  the latent features and the input features into the layer's input, takes one slab each of the stacked weights and biases,
  and forms the neighbour means of the input as before: the same operations on equal arrays. The layer's result,
  assembled from its 25 tiles, is then the reference's by the layer equation.
-/
import proofs.«137384_j82008105549935_1_alg».proof.Proof.Bridge.L2
import proofs.«137384_j82008105549935_1_alg».proof.Proof.LibNary3
import proofs.«137384_j82008105549935_1_alg».proof.Proof.KernelIdeal.Val3

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

set_option maxHeartbeats 4000000 in
/-- The layer's input is the previous result, a slab of latent features and the input features side by side: the
    joining operation's result, each piece's contents at its own array. -/
theorem cat3 (F : Valuation τ sig (Elt Ideal)) (hxs hy) :
    (StableHlo.nary (τ := τ) ![main_v70, main_v72, main_v10] main_v73 (fun u => concatenate S100000x198 1 [⟨S100000x128, u 0⟩, ⟨S100000x64, u 1⟩, ⟨S100000x6, u 2⟩] concatenates_S100000x128_S100000x64_S100000x6_S100000x198_d1) hxs hy).result F (no_index (Proc.devRef .tc main_v73))
      = concatenate S100000x198 1 [⟨S100000x128, F (Proc.devRef .tc main_v70)⟩, ⟨S100000x64, F (Proc.devRef .tc main_v72)⟩, ⟨S100000x6, F (Proc.devRef .tc main_v10)⟩] concatenates_S100000x128_S100000x64_S100000x6_S100000x198_d1 :=
  (StableHlo.nary_result _ _ _ hxs hy F).trans rfl

/-- The layer's input features. -/
theorem X3_eq : W7 m c (Proc.devRef .tc main_v73) = Cert.ReferenceIdeal.ReadP.val_main_v100 (F := Ideal) (a0 m c) (a1 m c) (a2 m c) (a3 m c) (a4 m c) (a5 m c) (a6 m c) (a7 m c) (a8 m c) (a9 m c) := by
  have hprev := L2_eq m c
  have h10 := (W6_toW1 m c main_v10 (by decide) (by decide) (by decide) (by decide) (by decide)).trans (X0_eq m c)
  have h1 := (W6_toW1 m c main_v1 (by decide) (by decide) (by decide) (by decide) (by decide)).trans (S_eq m c)
  have h3 := (W6_toW1 m c main_v3 (by decide) (by decide) (by decide) (by decide) (by decide)).trans (D_eq m c)
  have h9 := (W6_toW1 m c main_v9 (by decide) (by decide) (by decide) (by decide) (by decide)).trans (Deg_eq m c)
  have hz := W6_kept m c main_arg3 (by decide) (by decide) (by decide) (by decide) (by decide) (by decide)
  dsimp only [W7, hostOps3]
  after_results_with [cat3]
  after_results_rw
  rw [hprev, h10, hz]
  rfl
set_option maxHeartbeats 4000000 in
/-- Their neighbour means. -/
theorem NB3_eq : W7 m c (Proc.devRef .tc main_v91) = Cert.ReferenceIdeal.ReadP.val_main_v124 (F := Ideal) (a0 m c) (a1 m c) (a2 m c) (a3 m c) (a4 m c) (a5 m c) (a6 m c) (a7 m c) (a8 m c) (a9 m c) := by
  have hprev := L2_eq m c
  have h10 := (W6_toW1 m c main_v10 (by decide) (by decide) (by decide) (by decide) (by decide)).trans (X0_eq m c)
  have h1 := (W6_toW1 m c main_v1 (by decide) (by decide) (by decide) (by decide) (by decide)).trans (S_eq m c)
  have h3 := (W6_toW1 m c main_v3 (by decide) (by decide) (by decide) (by decide) (by decide)).trans (D_eq m c)
  have h9 := (W6_toW1 m c main_v9 (by decide) (by decide) (by decide) (by decide) (by decide)).trans (Deg_eq m c)
  have hz := W6_kept m c main_arg3 (by decide) (by decide) (by decide) (by decide) (by decide) (by decide)
  dsimp only [W7, hostOps3]
  after_results_with [cat3]
  after_results_rw
  rw [hprev, h10, hz, h1, h3, h9]
  rfl
set_option maxHeartbeats 4000000 in
/-- The layer's weights and bias: one slab of the stacked arguments. -/
theorem WS3_eq : W7 m c (Proc.devRef .tc main_v75) = Cert.ReferenceIdeal.ReadP.val_main_v102 (F := Ideal) (a7 m c) := by
  have h7 := W6_kept m c main_arg7 (by decide) (by decide) (by decide) (by decide) (by decide) (by decide)
  dsimp only [W7, hostOps3]
  after_results_with [cat3]
  after_results_rw
  rw [h7]
  rfl
set_option maxHeartbeats 4000000 in
theorem WN3_eq : W7 m c (Proc.devRef .tc main_v77) = Cert.ReferenceIdeal.ReadP.val_main_v104 (F := Ideal) (a8 m c) := by
  have h8 := W6_kept m c main_arg8 (by decide) (by decide) (by decide) (by decide) (by decide) (by decide)
  dsimp only [W7, hostOps3]
  after_results_with [cat3]
  after_results_rw
  rw [h8]
  rfl
set_option maxHeartbeats 4000000 in
theorem B3_eq : W7 m c (Proc.devRef .tc main_v92) = shapeCast S1x128 (Cert.ReferenceIdeal.ReadP.val_main_v106 (F := Ideal) (a9 m c)) shapeCasts_S128_S1x128 := by
  have h9' := W6_kept m c main_arg9 (by decide) (by decide) (by decide) (by decide) (by decide) (by decide)
  dsimp only [W7, hostOps3]
  after_results_with [cat3]
  after_results_rw
  rw [h9']
  rfl

/-- The layer's result is the reference's. -/
theorem L3_eq : W8 m c (Proc.devRef .tc main_v93) = Cert.ReferenceIdeal.ReadP.val_main_v131 (F := Ideal) (a0 m c) (a1 m c) (a2 m c) (a3 m c) (a4 m c) (a5 m c) (a6 m c) (a7 m c) (a8 m c) (a9 m c) := by
  refine ((W8_arr m c 5).trans (final3 (U7 m) c)).trans ?_
  dsimp only [U7]
  rw [X3_eq m c, NB3_eq m c, WS3_eq m c, WN3_eq m c, B3_eq m c]
  unfold G3
  refine (congrArg Cert.Spec.clip (Cert.Spec.pre_eq_host (N := 100000) (Kk := 198) (C := 128) Cert.ReferenceIdeal.dot_S100000x198_S198x128_S100000x128_1_0_0_1_n_n.wf Cert.ReferenceIdeal.Gen.bcast_S128_S1x128_1 Cert.ReferenceIdeal.Gen.bcast_S1x128_S100000x128_0_1 shapeCasts_S128_S1x128 _ _ _ _ _)).trans ?_
  refine (Cert.Spec.clip_eq_host Cert.ReferenceIdeal.Gen.bcast_S_S100000x128 _).trans ?_
  rfl

end Cert.Bridge

end
-- ==== Proof.KernelIdeal.Tile4.lean ====
/-
  The arithmetic of layer 4's body on one tile, read at an entry. On the extended reals a change of float format is
  the identity and a matrix product into a zero accumulator is the plain sum of products, so the entry `(p, q)` of
  the stored tile is the row `p` of the feature tile against column `q` of the first weight matrix, plus the same for
  the neighbour tile and the second weight matrix, plus the bias entry `q`, clipped below at zero.
-/
import proofs.«137384_j82008105549935_1_alg».proof.Proof.Gen.KernelIdeal.Skeleton
import proofs.«137384_j82008105549935_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

theorem k4_pay1_apply (x0 x1 : Vec Ideal S4000x198 .f32) (x2 x3 : Vec Ideal S198x128 .f32) (x4 : Vec Ideal S1x128 .f32) (p : Fin 4000) (q : Fin 128) :
    k4_pay1 (F := Ideal) x0 x1 x2 x3 x4 (ix2 p q)
      = max ((∑ k : Fin 198, x0 (ix2 p k) * x2 (ix2 k q)) + (∑ k : Fin 198, x1 (ix2 p k) * x3 (ix2 k q)) + x4 (ix2 (0 : Fin 1) q)) (Ideal.ofBits .f32 0x00000000#32) := by
  unfold k4_pay1
  refine congrArg₂ max (congrArg₂ (· + ·) (congrArg₂ (· + ·) ?_ ?_) ?_) rfl
  · refine (Cert.LibPlainDot.matmul_zero_apply (R := 4000) (K := 198) (C := 128) dot_S4000x198_S198x128_S4000x128_1_0_0_1_n_n.wf none _ _ p q).trans ?_
    refine Finset.sum_congr rfl fun k _ => ?_
    simp only [truncf_apply, shapeCast_self]
  · refine (Cert.LibPlainDot.matmul_zero_apply (R := 4000) (K := 198) (C := 128) dot_S4000x198_S198x128_S4000x128_1_0_0_1_n_n.wf none _ _ p q).trans ?_
    refine Finset.sum_congr rfl fun k _ => ?_
    simp only [truncf_apply, shapeCast_self]
  · refine (broadcastTo_1b_ab_apply _ _ p q).trans ?_
    simp only [shapeCast_self]

end Cert.KernelIdeal.Hand

end
-- ==== Proof.KernelIdeal.Val4.lean ====
/-
  Layer 4's result array after its launch, as ONE function of the five operand arrays. Grid point `t` writes rows
  `4000 t … 4000 t + 3999`; the feature and neighbour tiles it reads are the same rows of their arrays, and the weights
  and the bias are read whole at every point. So entry `(r, q)` of the result is row `r` of the features against
  column `q` of the first weights, plus row `r` of the neighbour means against column `q` of the second weights,
  plus the bias entry `q`, clipped below at zero; the 25 tiles cover all 100000 rows.
-/
import proofs.«137384_j82008105549935_1_alg».proof.Proof.KernelIdeal.Reg4
import proofs.«137384_j82008105549935_1_alg».proof.Proof.KernelIdeal.Tile4
import proofs.«137384_j82008105549935_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The layer as one function of its operand arrays. -/
def G4 (x nb : FVec Ideal S100000x198 .f32) (ws wn : FVec Ideal S198x128 .f32) (b : FVec Ideal S1x128 .f32) : FVec Ideal S100000x128 .f32 :=
  Cert.Spec.clip (Cert.Spec.pre x nb ws wn b)

theorem hz4 : (![0, 0] : Fin 2 → Nat) = fun _ => 0 := funext fun a => by fin_cases a <;> rfl

/-- The tile index maps over the grid: features, neighbour means and result move down the rows with the point; the
    weights and the bias stay. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point `t` writes back is tile `t` of `G4` of the operand arrays. -/
theorem flushed4_eq (c : Dev nD) (t : Fin cfg4.N) :
    (dat4 V c).flushed 5 t = ((cfg4.win 5).blk t).view.read (Elt Ideal) (G4 (V c main_v96) (V c main_v114) (V c main_v98) (V c main_v100) (V c main_v115)) := by
  show (cfg4.win 5).cut (grid4.coords t) ((dat4 V c).after 5 t) = _
  rw [after4_5]
  unfold out4_5
  rw [View.canon_unit_zero hz4]
  simp only [View.ld_unit_zero (S := S4000x198) hz4, View.ld_unit_zero (S := S198x128) hz4, View.ld_unit_zero (S := S1x128) hz4]
  obtain ⟨e00, e01, e10, e11, e20, e21, e30, e31, e40, e41, e50, e51⟩ := idx_facts4 t
  funext (j : S4000x128.Idx)
  obtain ⟨p, q, rfl⟩ : ∃ (p : Fin 4000) (q : Fin 128), j = ix2 p q := ⟨j 0, j 1, eq_ix2 j⟩
  refine (k4_pay1_apply _ _ _ _ _ p q).trans ?_
  show _ = G4 (V c main_v96) (V c main_v114) (V c main_v98) (V c main_v100) (V c main_v115) (((cfg4.win 5).blk t).view.emb (ix2 p q))
  unfold G4 Cert.Spec.clip Cert.Spec.pre
  have hp : p.val < 4000 := p.isLt
  have hq : q.val < 128 := q.isLt
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show V c main_v96 (((cfg4.win 0).blk t).view.emb (ix2 p k)) = V c main_v96 (Cert.Spec.li (((cfg4.win 5).blk t).view.emb (ix2 p q)) k)
    refine congrArg (V c main_v96) (funext fun a => Fin.ext ?_)
    match a with
    | ⟨0, _⟩ => show win4_0.index t (0 : Fin 2) * 4000 + 1 * p.val = win4_5.index t (0 : Fin 2) * 4000 + 1 * p.val; omega
    | ⟨1, _⟩ => show win4_0.index t (1 : Fin 2) * 198 + 1 * k.val = k.val; omega
  · show V c main_v98 (((cfg4.win 2).blk t).view.emb (ix2 k q)) = V c main_v98 (Cert.Spec.ri (((cfg4.win 5).blk t).view.emb (ix2 p q)) k)
    refine congrArg (V c main_v98) (funext fun a => Fin.ext ?_)
    match a with
    | ⟨0, _⟩ => show win4_2.index t (0 : Fin 2) * 198 + 1 * k.val = k.val; omega
    | ⟨1, _⟩ => show win4_2.index t (1 : Fin 2) * 128 + 1 * q.val = win4_5.index t (1 : Fin 2) * 128 + 1 * q.val; omega
  · show V c main_v114 (((cfg4.win 1).blk t).view.emb (ix2 p k)) = V c main_v114 (Cert.Spec.li (((cfg4.win 5).blk t).view.emb (ix2 p q)) k)
    refine congrArg (V c main_v114) (funext fun a => Fin.ext ?_)
    match a with
    | ⟨0, _⟩ => show win4_1.index t (0 : Fin 2) * 4000 + 1 * p.val = win4_5.index t (0 : Fin 2) * 4000 + 1 * p.val; omega
    | ⟨1, _⟩ => show win4_1.index t (1 : Fin 2) * 198 + 1 * k.val = k.val; omega
  · show V c main_v100 (((cfg4.win 3).blk t).view.emb (ix2 k q)) = V c main_v100 (Cert.Spec.ri (((cfg4.win 5).blk t).view.emb (ix2 p q)) k)
    refine congrArg (V c main_v100) (funext fun a => Fin.ext ?_)
    match a with
    | ⟨0, _⟩ => show win4_3.index t (0 : Fin 2) * 198 + 1 * k.val = k.val; omega
    | ⟨1, _⟩ => show win4_3.index t (1 : Fin 2) * 128 + 1 * q.val = win4_5.index t (1 : Fin 2) * 128 + 1 * q.val; omega
  · show V c main_v115 (((cfg4.win 4).blk t).view.emb (ix2 (0 : Fin 1) q)) = V c main_v115 (Cert.Spec.bi (((cfg4.win 5).blk t).view.emb (ix2 p q)))
    refine congrArg (V c main_v115) (funext fun a => Fin.ext ?_)
    match a with
    | ⟨0, _⟩ => show win4_4.index t (0 : Fin 2) * 1 + 1 * 0 = 0; omega
    | ⟨1, _⟩ => show win4_4.index t (1 : Fin 2) * 128 + 1 * q.val = win4_5.index t (1 : Fin 2) * 128 + 1 * q.val; omega

/-- An index of the result array is in point `t`'s tile iff each coordinate is in the tile's range. -/
theorem mem_blk4 (t : Fin cfg4.N) (i : S100000x128.Idx) :
    i ∈ ((cfg4.win 5).blk t).view.set ↔ ∀ a : Fin 2, win4_5.index t a * S4000x128.size a ≤ (i a).val ∧ (i a).val < win4_5.index t a * S4000x128.size a + S4000x128.size a := by
  show i ∈ ((View.whole main_v116).slice (win4_5.rect t)).set ↔ _
  rw [View.set_slice_whole, Rect.mem_set_unit]
  exact Iff.rfl

/-- The result array after the launch is `G4` of the operand arrays as the launch found them. -/
theorem final4 (c : Dev nD) : (dat4 V c).arrAt 5 cfg4.N = G4 (V c main_v96) (V c main_v114) (V c main_v98) (V c main_v100) (V c main_v115) := by
  refine (dat4 V c).arrAt_eq_of_cover 5 _ (fun t _ => flushed4_eq V c t) fun (i : S100000x128.Idx) => ?_
  have hi0 : (i 0).val < 100000 := (i 0).isLt
  have hi1 : (i 1).val < 128 := (i 1).isLt
  have hN : grid4.N = 25 := N_4
  have htl : (i 0).val / 4000 < grid4.N := by rw [hN]; omega
  obtain ⟨e00, e01, e10, e11, e20, e21, e30, e31, e40, e41, e50, e51⟩ := idx_facts4 ⟨(i 0).val / 4000, htl⟩
  have e50' : win4_5.index ⟨(i 0).val / 4000, htl⟩ (0 : Fin 2) = (i 0).val / 4000 := e50
  refine ⟨⟨(i 0).val / 4000, htl⟩, flush4_5 _, ?_⟩
  rw [mem_blk4]
  intro a
  match a with
  | ⟨0, _⟩ => show win4_5.index ⟨(i 0).val / 4000, htl⟩ (0 : Fin 2) * 4000 ≤ (i 0).val ∧ (i 0).val < win4_5.index ⟨(i 0).val / 4000, htl⟩ (0 : Fin 2) * 4000 + 4000; omega
  | ⟨1, _⟩ => show win4_5.index ⟨(i 0).val / 4000, htl⟩ (1 : Fin 2) * 128 ≤ (i 1).val ∧ (i 1).val < win4_5.index ⟨(i 0).val / 4000, htl⟩ (1 : Fin 2) * 128 + 128; omega

end Cert.KernelIdeal.Hand

end
-- ==== Proof.Bridge.L4.lean ====
/-
  Host stretch 4 and layer 4, kernel side against reference side. The stretch joins the previous layer's result, one slab of
  the latent features and the input features into the layer's input, takes one slab each of the stacked weights and biases,
  and forms the neighbour means of the input as before: the same operations on equal arrays. The layer's result,
  assembled from its 25 tiles, is then the reference's by the layer equation.
-/
import proofs.«137384_j82008105549935_1_alg».proof.Proof.Bridge.L3
import proofs.«137384_j82008105549935_1_alg».proof.Proof.LibNary3
import proofs.«137384_j82008105549935_1_alg».proof.Proof.KernelIdeal.Val4

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

set_option maxHeartbeats 4000000 in
/-- The layer's input is the previous result, a slab of latent features and the input features side by side: the
    joining operation's result, each piece's contents at its own array. -/
theorem cat4 (F : Valuation τ sig (Elt Ideal)) (hxs hy) :
    (StableHlo.nary (τ := τ) ![main_v93, main_v95, main_v10] main_v96 (fun u => concatenate S100000x198 1 [⟨S100000x128, u 0⟩, ⟨S100000x64, u 1⟩, ⟨S100000x6, u 2⟩] concatenates_S100000x128_S100000x64_S100000x6_S100000x198_d1) hxs hy).result F (no_index (Proc.devRef .tc main_v96))
      = concatenate S100000x198 1 [⟨S100000x128, F (Proc.devRef .tc main_v93)⟩, ⟨S100000x64, F (Proc.devRef .tc main_v95)⟩, ⟨S100000x6, F (Proc.devRef .tc main_v10)⟩] concatenates_S100000x128_S100000x64_S100000x6_S100000x198_d1 :=
  (StableHlo.nary_result _ _ _ hxs hy F).trans rfl

/-- The layer's input features. -/
theorem X4_eq : W9 m c (Proc.devRef .tc main_v96) = Cert.ReferenceIdeal.ReadP.val_main_v134 (F := Ideal) (a0 m c) (a1 m c) (a2 m c) (a3 m c) (a4 m c) (a5 m c) (a6 m c) (a7 m c) (a8 m c) (a9 m c) := by
  have hprev := L3_eq m c
  have h10 := (W8_toW1 m c main_v10 (by decide) (by decide) (by decide) (by decide) (by decide) (by decide) (by decide)).trans (X0_eq m c)
  have h1 := (W8_toW1 m c main_v1 (by decide) (by decide) (by decide) (by decide) (by decide) (by decide) (by decide)).trans (S_eq m c)
  have h3 := (W8_toW1 m c main_v3 (by decide) (by decide) (by decide) (by decide) (by decide) (by decide) (by decide)).trans (D_eq m c)
  have h9 := (W8_toW1 m c main_v9 (by decide) (by decide) (by decide) (by decide) (by decide) (by decide) (by decide)).trans (Deg_eq m c)
  have hz := W8_kept m c main_arg3 (by decide) (by decide) (by decide) (by decide) (by decide) (by decide) (by decide) (by decide)
  dsimp only [W9, hostOps4]
  after_results_with [cat4]
  after_results_rw
  rw [hprev, h10, hz]
  rfl
set_option maxHeartbeats 4000000 in
/-- Their neighbour means. -/
theorem NB4_eq : W9 m c (Proc.devRef .tc main_v114) = Cert.ReferenceIdeal.ReadP.val_main_v158 (F := Ideal) (a0 m c) (a1 m c) (a2 m c) (a3 m c) (a4 m c) (a5 m c) (a6 m c) (a7 m c) (a8 m c) (a9 m c) := by
  have hprev := L3_eq m c
  have h10 := (W8_toW1 m c main_v10 (by decide) (by decide) (by decide) (by decide) (by decide) (by decide) (by decide)).trans (X0_eq m c)
  have h1 := (W8_toW1 m c main_v1 (by decide) (by decide) (by decide) (by decide) (by decide) (by decide) (by decide)).trans (S_eq m c)
  have h3 := (W8_toW1 m c main_v3 (by decide) (by decide) (by decide) (by decide) (by decide) (by decide) (by decide)).trans (D_eq m c)
  have h9 := (W8_toW1 m c main_v9 (by decide) (by decide) (by decide) (by decide) (by decide) (by decide) (by decide)).trans (Deg_eq m c)
  have hz := W8_kept m c main_arg3 (by decide) (by decide) (by decide) (by decide) (by decide) (by decide) (by decide) (by decide)
  dsimp only [W9, hostOps4]
  after_results_with [cat4]
  after_results_rw
  rw [hprev, h10, hz, h1, h3, h9]
  rfl
set_option maxHeartbeats 4000000 in
/-- The layer's weights and bias: one slab of the stacked arguments. -/
theorem WS4_eq : W9 m c (Proc.devRef .tc main_v98) = Cert.ReferenceIdeal.ReadP.val_main_v136 (F := Ideal) (a7 m c) := by
  have h7 := W8_kept m c main_arg7 (by decide) (by decide) (by decide) (by decide) (by decide) (by decide) (by decide) (by decide)
  dsimp only [W9, hostOps4]
  after_results_with [cat4]
  after_results_rw
  rw [h7]
  rfl
set_option maxHeartbeats 4000000 in
theorem WN4_eq : W9 m c (Proc.devRef .tc main_v100) = Cert.ReferenceIdeal.ReadP.val_main_v138 (F := Ideal) (a8 m c) := by
  have h8 := W8_kept m c main_arg8 (by decide) (by decide) (by decide) (by decide) (by decide) (by decide) (by decide) (by decide)
  dsimp only [W9, hostOps4]
  after_results_with [cat4]
  after_results_rw
  rw [h8]
  rfl
set_option maxHeartbeats 4000000 in
theorem B4_eq : W9 m c (Proc.devRef .tc main_v115) = shapeCast S1x128 (Cert.ReferenceIdeal.ReadP.val_main_v140 (F := Ideal) (a9 m c)) shapeCasts_S128_S1x128 := by
  have h9' := W8_kept m c main_arg9 (by decide) (by decide) (by decide) (by decide) (by decide) (by decide) (by decide) (by decide)
  dsimp only [W9, hostOps4]
  after_results_with [cat4]
  after_results_rw
  rw [h9']
  rfl

/-- The layer's result is the reference's. -/
theorem L4_eq : W10 m c (Proc.devRef .tc main_v116) = Cert.ReferenceIdeal.ReadP.val_main_v165 (F := Ideal) (a0 m c) (a1 m c) (a2 m c) (a3 m c) (a4 m c) (a5 m c) (a6 m c) (a7 m c) (a8 m c) (a9 m c) := by
  refine ((W10_arr m c 5).trans (final4 (U9 m) c)).trans ?_
  dsimp only [U9]
  rw [X4_eq m c, NB4_eq m c, WS4_eq m c, WN4_eq m c, B4_eq m c]
  unfold G4
  refine (congrArg Cert.Spec.clip (Cert.Spec.pre_eq_host (N := 100000) (Kk := 198) (C := 128) Cert.ReferenceIdeal.dot_S100000x198_S198x128_S100000x128_1_0_0_1_n_n.wf Cert.ReferenceIdeal.Gen.bcast_S128_S1x128_1 Cert.ReferenceIdeal.Gen.bcast_S1x128_S100000x128_0_1 shapeCasts_S128_S1x128 _ _ _ _ _)).trans ?_
  refine (Cert.Spec.clip_eq_host Cert.ReferenceIdeal.Gen.bcast_S_S100000x128 _).trans ?_
  rfl

end Cert.Bridge

end
-- ==== Proof.KernelIdeal.Tile5.lean ====
/-
  The arithmetic of layer 5's body on one tile, read at an entry. On the extended reals a change of float format is
  the identity and a matrix product into a zero accumulator is the plain sum of products, so the entry `(p, q)` of
  the stored tile is the row `p` of the feature tile against column `q` of the first weight matrix, plus the same for
  the neighbour tile and the second weight matrix, plus the bias entry `q`.
-/
import proofs.«137384_j82008105549935_1_alg».proof.Proof.Gen.KernelIdeal.Skeleton
import proofs.«137384_j82008105549935_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

theorem k5_pay1_apply (x0 x1 : Vec Ideal S4000x128 .f32) (x2 x3 : Vec Ideal S128x3 .f32) (x4 : Vec Ideal S1x3 .f32) (p : Fin 4000) (q : Fin 3) :
    k5_pay1 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k5_pay1
  refine congrArg₂ (· + ·) (congrArg₂ (· + ·) ?_ ?_) ?_
  · refine (Cert.LibPlainDot.matmul_zero_apply (R := 4000) (K := 128) (C := 3) dot_S4000x128_S128x3_S4000x3_1_0_0_1_n_n.wf none _ _ p q).trans ?_
    refine Finset.sum_congr rfl fun k _ => ?_
    simp only [truncf_apply, shapeCast_self]
  · refine (Cert.LibPlainDot.matmul_zero_apply (R := 4000) (K := 128) (C := 3) dot_S4000x128_S128x3_S4000x3_1_0_0_1_n_n.wf none _ _ p q).trans ?_
    refine Finset.sum_congr rfl fun k _ => ?_
    simp only [truncf_apply, shapeCast_self]
  · refine (broadcastTo_1b_ab_apply _ _ p q).trans ?_
    simp only [shapeCast_self]

end Cert.KernelIdeal.Hand

end
-- ==== Proof.KernelIdeal.Val5.lean ====
/-
  Layer 5's result array after its launch, as ONE function of the five operand arrays. Grid point `t` writes rows
  `4000 t … 4000 t + 3999`; the feature and neighbour tiles it reads are the same rows of their arrays, and the weights
  and the bias are read whole at every point. So entry `(r, q)` of the result is row `r` of the features against
  column `q` of the first weights, plus row `r` of the neighbour means against column `q` of the second weights,
  plus the bias entry `q`; the 25 tiles cover all 100000 rows.
-/
import proofs.«137384_j82008105549935_1_alg».proof.Proof.KernelIdeal.Reg5
import proofs.«137384_j82008105549935_1_alg».proof.Proof.KernelIdeal.Tile5
import proofs.«137384_j82008105549935_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The layer as one function of its operand arrays. -/
def G5 (x nb : FVec Ideal S100000x128 .f32) (ws wn : FVec Ideal S128x3 .f32) (b : FVec Ideal S1x3 .f32) : FVec Ideal S100000x3 .f32 :=
  Cert.Spec.pre x nb ws wn b

theorem hz5 : (![0, 0] : Fin 2 → Nat) = fun _ => 0 := funext fun a => by fin_cases a <;> rfl

/-- The tile index maps over the grid: features, neighbour means and result move down the rows with the point; the
    weights and the bias stay. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is tile `t` of `G5` of the operand arrays. -/
theorem flushed5_eq (c : Dev nD) (t : Fin cfg5.N) :
    (dat5 V c).flushed 5 t = ((cfg5.win 5).blk t).view.read (Elt Ideal) (G5 (V c main_v116) (V c main_v128) (V c main_arg10) (V c main_arg11) (V c main_v129)) := by
  show (cfg5.win 5).cut (grid5.coords t) ((dat5 V c).after 5 t) = _
  rw [after5_5]
  unfold out5_5
  rw [View.canon_unit_zero hz5]
  simp only [View.ld_unit_zero (S := S4000x128) hz5, View.ld_unit_zero (S := S128x3) hz5, View.ld_unit_zero (S := S1x3) hz5]
  obtain ⟨e00, e01, e10, e11, e20, e21, e30, e31, e40, e41, e50, e51⟩ := idx_facts5 t
  funext (j : S4000x3.Idx)
  obtain ⟨p, q, rfl⟩ : ∃ (p : Fin 4000) (q : Fin 3), j = ix2 p q := ⟨j 0, j 1, eq_ix2 j⟩
  refine (k5_pay1_apply _ _ _ _ _ p q).trans ?_
  show _ = G5 (V c main_v116) (V c main_v128) (V c main_arg10) (V c main_arg11) (V c main_v129) (((cfg5.win 5).blk t).view.emb (ix2 p q))
  unfold G5 Cert.Spec.pre
  have hp : p.val < 4000 := p.isLt
  have hq : q.val < 3 := q.isLt
  refine congrArg₂ (· + ·) (congrArg₂ (· + ·) (Finset.sum_congr rfl fun k _ => congrArg₂ (· * ·) ?_ ?_) (Finset.sum_congr rfl fun k _ => congrArg₂ (· * ·) ?_ ?_)) ?_
  · show V c main_v116 (((cfg5.win 0).blk t).view.emb (ix2 p k)) = V c main_v116 (Cert.Spec.li (((cfg5.win 5).blk t).view.emb (ix2 p q)) k)
    refine congrArg (V c main_v116) (funext fun a => Fin.ext ?_)
    match a with
    | ⟨0, _⟩ => show win5_0.index t (0 : Fin 2) * 4000 + 1 * p.val = win5_5.index t (0 : Fin 2) * 4000 + 1 * p.val; omega
    | ⟨1, _⟩ => show win5_0.index t (1 : Fin 2) * 128 + 1 * k.val = k.val; omega
  · show V c main_arg10 (((cfg5.win 2).blk t).view.emb (ix2 k q)) = V c main_arg10 (Cert.Spec.ri (((cfg5.win 5).blk t).view.emb (ix2 p q)) k)
    refine congrArg (V c main_arg10) (funext fun a => Fin.ext ?_)
    match a with
    | ⟨0, _⟩ => show win5_2.index t (0 : Fin 2) * 128 + 1 * k.val = k.val; omega
    | ⟨1, _⟩ => show win5_2.index t (1 : Fin 2) * 3 + 1 * q.val = win5_5.index t (1 : Fin 2) * 3 + 1 * q.val; omega
  · show V c main_v128 (((cfg5.win 1).blk t).view.emb (ix2 p k)) = V c main_v128 (Cert.Spec.li (((cfg5.win 5).blk t).view.emb (ix2 p q)) k)
    refine congrArg (V c main_v128) (funext fun a => Fin.ext ?_)
    match a with
    | ⟨0, _⟩ => show win5_1.index t (0 : Fin 2) * 4000 + 1 * p.val = win5_5.index t (0 : Fin 2) * 4000 + 1 * p.val; omega
    | ⟨1, _⟩ => show win5_1.index t (1 : Fin 2) * 128 + 1 * k.val = k.val; omega
  · show V c main_arg11 (((cfg5.win 3).blk t).view.emb (ix2 k q)) = V c main_arg11 (Cert.Spec.ri (((cfg5.win 5).blk t).view.emb (ix2 p q)) k)
    refine congrArg (V c main_arg11) (funext fun a => Fin.ext ?_)
    match a with
    | ⟨0, _⟩ => show win5_3.index t (0 : Fin 2) * 128 + 1 * k.val = k.val; omega
    | ⟨1, _⟩ => show win5_3.index t (1 : Fin 2) * 3 + 1 * q.val = win5_5.index t (1 : Fin 2) * 3 + 1 * q.val; omega
  · show V c main_v129 (((cfg5.win 4).blk t).view.emb (ix2 (0 : Fin 1) q)) = V c main_v129 (Cert.Spec.bi (((cfg5.win 5).blk t).view.emb (ix2 p q)))
    refine congrArg (V c main_v129) (funext fun a => Fin.ext ?_)
    match a with
    | ⟨0, _⟩ => show win5_4.index t (0 : Fin 2) * 1 + 1 * 0 = 0; omega
    | ⟨1, _⟩ => show win5_4.index t (1 : Fin 2) * 3 + 1 * q.val = win5_5.index t (1 : Fin 2) * 3 + 1 * q.val; omega

/-- An index of the result array is in point `t`'s tile iff each coordinate is in the tile's range. -/
theorem mem_blk5 (t : Fin cfg5.N) (i : S100000x3.Idx) :
    i ∈ ((cfg5.win 5).blk t).view.set ↔ ∀ a : Fin 2, win5_5.index t a * S4000x3.size a ≤ (i a).val ∧ (i a).val < win5_5.index t a * S4000x3.size a + S4000x3.size a := by
  show i ∈ ((View.whole main_v130).slice (win5_5.rect t)).set ↔ _
  rw [View.set_slice_whole, Rect.mem_set_unit]
  exact Iff.rfl

/-- The result array after the launch is `G5` of the operand arrays as the launch found them. -/
theorem final5 (c : Dev nD) : (dat5 V c).arrAt 5 cfg5.N = G5 (V c main_v116) (V c main_v128) (V c main_arg10) (V c main_arg11) (V c main_v129) := by
  refine (dat5 V c).arrAt_eq_of_cover 5 _ (fun t _ => flushed5_eq V c t) fun (i : S100000x3.Idx) => ?_
  have hi0 : (i 0).val < 100000 := (i 0).isLt
  have hi1 : (i 1).val < 3 := (i 1).isLt
  have hN : grid5.N = 25 := N_5
  have htl : (i 0).val / 4000 < grid5.N := by rw [hN]; omega
  obtain ⟨e00, e01, e10, e11, e20, e21, e30, e31, e40, e41, e50, e51⟩ := idx_facts5 ⟨(i 0).val / 4000, htl⟩
  have e50' : win5_5.index ⟨(i 0).val / 4000, htl⟩ (0 : Fin 2) = (i 0).val / 4000 := e50
  refine ⟨⟨(i 0).val / 4000, htl⟩, flush5_5 _, ?_⟩
  rw [mem_blk5]
  intro a
  match a with
  | ⟨0, _⟩ => show win5_5.index ⟨(i 0).val / 4000, htl⟩ (0 : Fin 2) * 4000 ≤ (i 0).val ∧ (i 0).val < win5_5.index ⟨(i 0).val / 4000, htl⟩ (0 : Fin 2) * 4000 + 4000; omega
  | ⟨1, _⟩ => show win5_5.index ⟨(i 0).val / 4000, htl⟩ (1 : Fin 2) * 3 ≤ (i 1).val ∧ (i 1).val < win5_5.index ⟨(i 0).val / 4000, htl⟩ (1 : Fin 2) * 3 + 3; omega

end Cert.KernelIdeal.Hand

end
-- ==== Proof.Bridge.L5.lean ====
/-
  Host stretch 5 and layer 5, kernel side against reference side. The stretch forms the neighbour means of the previous layer's result as before: the same operations on equal arrays. The layer's result,
  assembled from its 25 tiles, is then the reference's by the layer equation.
-/
import proofs.«137384_j82008105549935_1_alg».proof.Proof.Bridge.L4
import proofs.«137384_j82008105549935_1_alg».proof.Proof.KernelIdeal.Val5

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

/-- The layer's input features: the previous layer's result, which the stretch leaves alone. -/
theorem X5_eq : W11 m c (Proc.devRef .tc main_v116) = Cert.ReferenceIdeal.ReadP.val_main_v165 (F := Ideal) (a0 m c) (a1 m c) (a2 m c) (a3 m c) (a4 m c) (a5 m c) (a6 m c) (a7 m c) (a8 m c) (a9 m c) :=
  (W11_keep m c main_v116 (by decide)).trans (L4_eq m c)
set_option maxHeartbeats 4000000 in
/-- Their neighbour means. -/
theorem NB5_eq : W11 m c (Proc.devRef .tc main_v128) = Cert.ReferenceIdeal.ReadP.val_main_v183 (F := Ideal) (a0 m c) (a1 m c) (a2 m c) (a3 m c) (a4 m c) (a5 m c) (a6 m c) (a7 m c) (a8 m c) (a9 m c) := by
  have hprev := L4_eq m c
  have h1 := (W10_toW1 m c main_v1 (by decide) (by decide) (by decide) (by decide) (by decide) (by decide) (by decide) (by decide) (by decide)).trans (S_eq m c)
  have h3 := (W10_toW1 m c main_v3 (by decide) (by decide) (by decide) (by decide) (by decide) (by decide) (by decide) (by decide) (by decide)).trans (D_eq m c)
  have h9 := (W10_toW1 m c main_v9 (by decide) (by decide) (by decide) (by decide) (by decide) (by decide) (by decide) (by decide) (by decide)).trans (Deg_eq m c)
  dsimp only [W11, hostOps5]
  after_results_simp
  rw [hprev, h1, h3, h9]
  rfl
theorem WS5_eq : W11 m c (Proc.devRef .tc main_arg10) = a10 m c := W11_kept m c main_arg10 (by decide) (by decide) (by decide) (by decide) (by decide) (by decide) (by decide) (by decide) (by decide) (by decide) (by decide)
theorem WN5_eq : W11 m c (Proc.devRef .tc main_arg11) = a11 m c := W11_kept m c main_arg11 (by decide) (by decide) (by decide) (by decide) (by decide) (by decide) (by decide) (by decide) (by decide) (by decide) (by decide)
set_option maxHeartbeats 4000000 in
theorem B5_eq : W11 m c (Proc.devRef .tc main_v129) = shapeCast S1x3 (a12 m c) shapeCasts_S3_S1x3 := by
  have h12 := W10_kept m c main_arg12 (by decide) (by decide) (by decide) (by decide) (by decide) (by decide) (by decide) (by decide) (by decide) (by decide)
  dsimp only [W11, hostOps5]
  after_results_simp
  rw [h12]
  rfl

/-- The layer's result is the reference's. -/
theorem L5_eq : W12 m c (Proc.devRef .tc main_v130) = Cert.ReferenceIdeal.ReadP.val_main_v189 (F := Ideal) (a0 m c) (a1 m c) (a2 m c) (a3 m c) (a4 m c) (a5 m c) (a6 m c) (a7 m c) (a8 m c) (a9 m c) (a10 m c) (a11 m c) (a12 m c) := by
  refine ((W12_arr m c 5).trans (final5 (U11 m) c)).trans ?_
  dsimp only [U11]
  rw [X5_eq m c, NB5_eq m c, WS5_eq m c, WN5_eq m c, B5_eq m c]
  unfold G5
  refine ((Cert.Spec.pre_eq_host (N := 100000) (Kk := 128) (C := 3) Cert.ReferenceIdeal.dot_S100000x128_S128x3_S100000x3_1_0_0_1_n_n.wf Cert.ReferenceIdeal.Gen.bcast_S3_S1x3_1 Cert.ReferenceIdeal.Gen.bcast_S1x3_S100000x3_0_1 shapeCasts_S3_S1x3 _ _ _ _ _)).trans ?_
  rfl

end Cert.Bridge

end
-- ==== Proof.RefRaw.lean ====
/-
  The reference's run, raw. Its @main is a straight line of 236 host operations, so every weakly fair execution ends and
  leaves every array at the fold of the operations over the launch memory. The line is six consecutive chunks — one per
  layer, each ending with that layer's result — and a fold over a concatenation is the folds one after the other, so the
  final contents can be worked out a chunk at a time.
-/
import proofs.«137384_j82008105549935_1_alg».proof.Proof.RefRun

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- No operation allocates a buffer. -/
theorem ops_fresh : (ops : List (HloOp τ sig (Elt F))).Forall fun op => op.fresh = ∅ := by
  simp only [List.Forall]; repeat' constructor

/-- Two lines of operations run one after the other are their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
/-- @main's operations are the six chunks in order. -/
theorem ops_split : (ops : List (HloOp τ sig (Elt F))) = ops0 ++ (ops1 ++ (ops2 ++ (ops3 ++ (ops4 ++ ops5)))) := rfl

/-- The fold over the whole line is the six chunks' folds one after the other. -/
theorem after_ops (V : Valuation τ sig (Elt F)) :
    after ops V = after ops5 (after ops4 (after ops3 (after ops2 (after ops1 (after ops0 V))))) := by
  rw [ops_split, after_append, after_append, after_append, after_append, after_append]

/-- On every device, from any memory with zero counters: every weakly fair execution of @main terminates with every buffer
    at the fold of the operations over its launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (hfresh := fun _ op h => (List.forall_iff_forall_mem.mp ops_fresh) op h)

end Cert.ReferenceIdeal.ValueP

end
-- ==== Proof.RefKeep0.lean ====
/-
  Chunk 0 of the reference's operations writes none of the argument arrays: each holds after the chunk what it held before.
-/
import proofs.«137384_j82008105549935_1_alg».proof.Proof.RefRaw

set_option maxRecDepth 16384

noncomputable section

namespace Cert.RefEval

open Cert.ReferenceIdeal Cert.ReferenceIdeal.Gen Cert.ReferenceIdeal.ValueP
open Idealize.ShloMosaic Idealize.ShloMosaic.TcCoe Idealize.ShloMosaic.StableHlo
open Idealize.SL.Sem

variable {F : FTy → Type} [FloatOps F] (Vv : Valuation τ sig (Elt F))

set_option maxHeartbeats 2000000 in
theorem K0_main_arg0 : after (ops0 (F := F)) Vv (Proc.devRef .tc main_arg0) = Vv (Proc.devRef .tc main_arg0) := by
  dsimp only [ops0]
  after_results_simp
set_option maxHeartbeats 2000000 in
theorem K0_main_arg1 : after (ops0 (F := F)) Vv (Proc.devRef .tc main_arg1) = Vv (Proc.devRef .tc main_arg1) := by
  dsimp only [ops0]
  after_results_simp
set_option maxHeartbeats 2000000 in
theorem K0_main_arg2 : after (ops0 (F := F)) Vv (Proc.devRef .tc main_arg2) = Vv (Proc.devRef .tc main_arg2) := by
  dsimp only [ops0]
  after_results_simp
set_option maxHeartbeats 2000000 in
theorem K0_main_arg3 : after (ops0 (F := F)) Vv (Proc.devRef .tc main_arg3) = Vv (Proc.devRef .tc main_arg3) := by
  dsimp only [ops0]
  after_results_simp
set_option maxHeartbeats 2000000 in
theorem K0_main_arg4 : after (ops0 (F := F)) Vv (Proc.devRef .tc main_arg4) = Vv (Proc.devRef .tc main_arg4) := by
  dsimp only [ops0]
  after_results_simp
set_option maxHeartbeats 2000000 in
theorem K0_main_arg5 : after (ops0 (F := F)) Vv (Proc.devRef .tc main_arg5) = Vv (Proc.devRef .tc main_arg5) := by
  dsimp only [ops0]
  after_results_simp
set_option maxHeartbeats 2000000 in
theorem K0_main_arg6 : after (ops0 (F := F)) Vv (Proc.devRef .tc main_arg6) = Vv (Proc.devRef .tc main_arg6) := by
  dsimp only [ops0]
  after_results_simp
set_option maxHeartbeats 2000000 in
theorem K0_main_arg7 : after (ops0 (F := F)) Vv (Proc.devRef .tc main_arg7) = Vv (Proc.devRef .tc main_arg7) := by
  dsimp only [ops0]
  after_results_simp
set_option maxHeartbeats 2000000 in
theorem K0_main_arg8 : after (ops0 (F := F)) Vv (Proc.devRef .tc main_arg8) = Vv (Proc.devRef .tc main_arg8) := by
  dsimp only [ops0]
  after_results_simp
set_option maxHeartbeats 2000000 in
theorem K0_main_arg9 : after (ops0 (F := F)) Vv (Proc.devRef .tc main_arg9) = Vv (Proc.devRef .tc main_arg9) := by
  dsimp only [ops0]
  after_results_simp
set_option maxHeartbeats 2000000 in
theorem K0_main_arg10 : after (ops0 (F := F)) Vv (Proc.devRef .tc main_arg10) = Vv (Proc.devRef .tc main_arg10) := by
  dsimp only [ops0]
  after_results_simp
set_option maxHeartbeats 2000000 in
theorem K0_main_arg11 : after (ops0 (F := F)) Vv (Proc.devRef .tc main_arg11) = Vv (Proc.devRef .tc main_arg11) := by
  dsimp only [ops0]
  after_results_simp
set_option maxHeartbeats 2000000 in
theorem K0_main_arg12 : after (ops0 (F := F)) Vv (Proc.devRef .tc main_arg12) = Vv (Proc.devRef .tc main_arg12) := by
  dsimp only [ops0]
  after_results_simp

end Cert.RefEval

end
-- ==== Proof.RefEval0.lean ====
/-
  Chunk 0 of the reference's operations, evaluated: from the launch memory it leaves the joined input features, the source
  and destination node of every edge, and the first layer's result at the stages `val_…` of the arguments.
-/
import proofs.«137384_j82008105549935_1_alg».proof.Proof.RefRaw
import proofs.«137384_j82008105549935_1_alg».proof.Proof.RefRead
import proofs.«137384_j82008105549935_1_alg».proof.Proof.RefKeep0

set_option maxRecDepth 16384

noncomputable section

namespace Cert.RefEval

open Cert.ReferenceIdeal Cert.ReferenceIdeal.Gen Cert.ReferenceIdeal.ValueP
open Idealize.ShloMosaic Idealize.ShloMosaic.TcCoe Idealize.ShloMosaic.StableHlo
open Idealize.SL.Sem

variable (m : (ℓ : Loc nD τ sig) → Buf (Elt Ideal) ℓ) (c : Dev nD)

/-- The argument arrays as the reference finds them at launch. -/
abbrev b0 := m ((c.tc : Thread nD τ).loc main_arg0)
abbrev b1 := m ((c.tc : Thread nD τ).loc main_arg1)
abbrev b2 := m ((c.tc : Thread nD τ).loc main_arg2)
abbrev b3 := m ((c.tc : Thread nD τ).loc main_arg3)
abbrev b4 := m ((c.tc : Thread nD τ).loc main_arg4)
abbrev b5 := m ((c.tc : Thread nD τ).loc main_arg5)
abbrev b6 := m ((c.tc : Thread nD τ).loc main_arg6)
abbrev b7 := m ((c.tc : Thread nD τ).loc main_arg7)
abbrev b8 := m ((c.tc : Thread nD τ).loc main_arg8)
abbrev b9 := m ((c.tc : Thread nD τ).loc main_arg9)
abbrev b10 := m ((c.tc : Thread nD τ).loc main_arg10)
abbrev b11 := m ((c.tc : Thread nD τ).loc main_arg11)
abbrev b12 := m ((c.tc : Thread nD τ).loc main_arg12)

/-- The arrays at launch, and after each chunk. -/
abbrev R0 : Valuation τ sig (Elt Ideal) := launchContents m c
def R1 : Valuation τ sig (Elt Ideal) := after ops0 (R0 m c)
def R2 : Valuation τ sig (Elt Ideal) := after ops1 (R1 m c)
def R3 : Valuation τ sig (Elt Ideal) := after ops2 (R2 m c)
def R4 : Valuation τ sig (Elt Ideal) := after ops3 (R3 m c)
def R5 : Valuation τ sig (Elt Ideal) := after ops4 (R4 m c)
def R6 : Valuation τ sig (Elt Ideal) := after ops5 (R5 m c)

set_option maxHeartbeats 4000000 in
theorem R1_out : R1 m c (Proc.devRef .tc main_v29) = Cert.ReferenceIdeal.ReadP.val_main_v29 (F := Ideal) (b0 m c) (b1 m c) (b2 m c) (b4 m c) (b5 m c) (b6 m c) := by
  unfold R1
  dsimp only [ops0, R0]
  after_results_simp
  rfl
set_option maxHeartbeats 4000000 in
theorem R1_v4 : R1 m c (Proc.devRef .tc main_v4) = Cert.ReferenceIdeal.ReadP.val_main_v4 (F := Ideal) (b0 m c) (b2 m c) := by
  unfold R1
  dsimp only [ops0, R0]
  after_results_simp
  rfl
set_option maxHeartbeats 4000000 in
theorem R1_v1 : R1 m c (Proc.devRef .tc main_v1) = Cert.ReferenceIdeal.ReadP.val_main_v1 (F := Ideal) (b1 m c) := by
  unfold R1
  dsimp only [ops0, R0]
  after_results_simp
  rfl
set_option maxHeartbeats 4000000 in
theorem R1_v3 : R1 m c (Proc.devRef .tc main_v3) = Cert.ReferenceIdeal.ReadP.val_main_v3 (F := Ideal) (b1 m c) := by
  unfold R1
  dsimp only [ops0, R0]
  after_results_simp
  rfl
theorem R1_arg3 : R1 m c (Proc.devRef .tc main_arg3) = b3 m c := K0_main_arg3 (R0 m c)
theorem R1_arg7 : R1 m c (Proc.devRef .tc main_arg7) = b7 m c := K0_main_arg7 (R0 m c)
theorem R1_arg8 : R1 m c (Proc.devRef .tc main_arg8) = b8 m c := K0_main_arg8 (R0 m c)
theorem R1_arg9 : R1 m c (Proc.devRef .tc main_arg9) = b9 m c := K0_main_arg9 (R0 m c)
theorem R1_arg10 : R1 m c (Proc.devRef .tc main_arg10) = b10 m c := K0_main_arg10 (R0 m c)
theorem R1_arg11 : R1 m c (Proc.devRef .tc main_arg11) = b11 m c := K0_main_arg11 (R0 m c)
theorem R1_arg12 : R1 m c (Proc.devRef .tc main_arg12) = b12 m c := K0_main_arg12 (R0 m c)

end Cert.RefEval

end
-- ==== Proof.RefKeep1.lean ====
/-
  Chunk 1 of the reference's operations writes none of the argument arrays, nor the joined input features and the
  edge index arrays computed in chunk 0: each holds after the chunk what it held before.
-/
import proofs.«137384_j82008105549935_1_alg».proof.Proof.RefRaw

set_option maxRecDepth 16384

noncomputable section

namespace Cert.RefEval

open Cert.ReferenceIdeal Cert.ReferenceIdeal.Gen Cert.ReferenceIdeal.ValueP
open Idealize.ShloMosaic Idealize.ShloMosaic.TcCoe Idealize.ShloMosaic.StableHlo
open Idealize.SL.Sem

variable {F : FTy → Type} [FloatOps F] (Vv : Valuation τ sig (Elt F))

set_option maxHeartbeats 2000000 in
theorem K1_main_arg0 : after (ops1 (F := F)) Vv (Proc.devRef .tc main_arg0) = Vv (Proc.devRef .tc main_arg0) := by
  dsimp only [ops1]
  after_results_simp
set_option maxHeartbeats 2000000 in
theorem K1_main_arg1 : after (ops1 (F := F)) Vv (Proc.devRef .tc main_arg1) = Vv (Proc.devRef .tc main_arg1) := by
  dsimp only [ops1]
  after_results_simp
set_option maxHeartbeats 2000000 in
theorem K1_main_arg2 : after (ops1 (F := F)) Vv (Proc.devRef .tc main_arg2) = Vv (Proc.devRef .tc main_arg2) := by
  dsimp only [ops1]
  after_results_simp
set_option maxHeartbeats 2000000 in
theorem K1_main_arg3 : after (ops1 (F := F)) Vv (Proc.devRef .tc main_arg3) = Vv (Proc.devRef .tc main_arg3) := by
  dsimp only [ops1]
  after_results_simp
set_option maxHeartbeats 2000000 in
theorem K1_main_arg4 : after (ops1 (F := F)) Vv (Proc.devRef .tc main_arg4) = Vv (Proc.devRef .tc main_arg4) := by
  dsimp only [ops1]
  after_results_simp
set_option maxHeartbeats 2000000 in
theorem K1_main_arg5 : after (ops1 (F := F)) Vv (Proc.devRef .tc main_arg5) = Vv (Proc.devRef .tc main_arg5) := by
  dsimp only [ops1]
  after_results_simp
set_option maxHeartbeats 2000000 in
theorem K1_main_arg6 : after (ops1 (F := F)) Vv (Proc.devRef .tc main_arg6) = Vv (Proc.devRef .tc main_arg6) := by
  dsimp only [ops1]
  after_results_simp
set_option maxHeartbeats 2000000 in
theorem K1_main_arg7 : after (ops1 (F := F)) Vv (Proc.devRef .tc main_arg7) = Vv (Proc.devRef .tc main_arg7) := by
  dsimp only [ops1]
  after_results_simp
set_option maxHeartbeats 2000000 in
theorem K1_main_arg8 : after (ops1 (F := F)) Vv (Proc.devRef .tc main_arg8) = Vv (Proc.devRef .tc main_arg8) := by
  dsimp only [ops1]
  after_results_simp
set_option maxHeartbeats 2000000 in
theorem K1_main_arg9 : after (ops1 (F := F)) Vv (Proc.devRef .tc main_arg9) = Vv (Proc.devRef .tc main_arg9) := by
  dsimp only [ops1]
  after_results_simp
set_option maxHeartbeats 2000000 in
theorem K1_main_arg10 : after (ops1 (F := F)) Vv (Proc.devRef .tc main_arg10) = Vv (Proc.devRef .tc main_arg10) := by
  dsimp only [ops1]
  after_results_simp
set_option maxHeartbeats 2000000 in
theorem K1_main_arg11 : after (ops1 (F := F)) Vv (Proc.devRef .tc main_arg11) = Vv (Proc.devRef .tc main_arg11) := by
  dsimp only [ops1]
  after_results_simp
set_option maxHeartbeats 2000000 in
theorem K1_main_arg12 : after (ops1 (F := F)) Vv (Proc.devRef .tc main_arg12) = Vv (Proc.devRef .tc main_arg12) := by
  dsimp only [ops1]
  after_results_simp
set_option maxHeartbeats 2000000 in
theorem K1_main_v4 : after (ops1 (F := F)) Vv (Proc.devRef .tc main_v4) = Vv (Proc.devRef .tc main_v4) := by
  dsimp only [ops1]
  after_results_simp
set_option maxHeartbeats 2000000 in
theorem K1_main_v1 : after (ops1 (F := F)) Vv (Proc.devRef .tc main_v1) = Vv (Proc.devRef .tc main_v1) := by
  dsimp only [ops1]
  after_results_simp
set_option maxHeartbeats 2000000 in
theorem K1_main_v3 : after (ops1 (F := F)) Vv (Proc.devRef .tc main_v3) = Vv (Proc.devRef .tc main_v3) := by
  dsimp only [ops1]
  after_results_simp

end Cert.RefEval

end
-- ==== Proof.RefEval1.lean ====
/-
  Chunk 1 of the reference's operations, evaluated: given what the chunks before it left, it leaves layer 1's result at its
  stage `val_…` of the arguments; the arrays it does not write stay as they were.
-/
import proofs.«137384_j82008105549935_1_alg».proof.Proof.RefEval0
import proofs.«137384_j82008105549935_1_alg».proof.Proof.RefKeep1
import proofs.«137384_j82008105549935_1_alg».proof.Proof.LibNary3

set_option maxRecDepth 16384

noncomputable section

namespace Cert.RefEval

open Cert.ReferenceIdeal Cert.ReferenceIdeal.Gen Cert.ReferenceIdeal.ValueP
open Idealize.ShloMosaic Idealize.ShloMosaic.TcCoe Idealize.ShloMosaic.StableHlo
open Idealize.SL.Sem

variable (m : (ℓ : Loc nD τ sig) → Buf (Elt Ideal) ℓ) (c : Dev nD)

/-- The layer's input: the previous result, a slab of latent features and the input features side by side. -/
theorem catR1 (G : Valuation τ sig (Elt Ideal)) (hxs hy) :
    (StableHlo.nary (τ := τ) ![main_v29, main_v31, main_v4] main_v32 (fun u => concatenate S100000x198 1 [⟨S100000x128, u 0⟩, ⟨S100000x64, u 1⟩, ⟨S100000x6, u 2⟩] concatenates_S100000x128_S100000x64_S100000x6_S100000x198_d1) hxs hy).result G (no_index (Proc.devRef .tc main_v32))
      = concatenate S100000x198 1 [⟨S100000x128, G (Proc.devRef .tc main_v29)⟩, ⟨S100000x64, G (Proc.devRef .tc main_v31)⟩, ⟨S100000x6, G (Proc.devRef .tc main_v4)⟩] concatenates_S100000x128_S100000x64_S100000x6_S100000x198_d1 :=
  (StableHlo.nary_result _ _ _ hxs hy G).trans rfl

set_option maxHeartbeats 4000000 in
theorem R2_out : R2 m c (Proc.devRef .tc main_v63) = Cert.ReferenceIdeal.ReadP.val_main_v63 (F := Ideal) (b0 m c) (b1 m c) (b2 m c) (b3 m c) (b4 m c) (b5 m c) (b6 m c) (b7 m c) (b8 m c) (b9 m c) := by
  have hprev := R1_out m c
  have h4 := R1_v4 m c
  have h1 := R1_v1 m c
  have h3 := R1_v3 m c
  have hz := R1_arg3 m c
  have h7 := R1_arg7 m c
  have h8 := R1_arg8 m c
  have h9 := R1_arg9 m c
  unfold R2
  dsimp only [ops1]
  after_results_with [catR1]
  after_results_rw
  rw [hprev, h4, h1, h3, hz, h7, h8, h9]
  rfl
theorem R2_v4 : R2 m c (Proc.devRef .tc main_v4) = Cert.ReferenceIdeal.ReadP.val_main_v4 (F := Ideal) (b0 m c) (b2 m c) := (K1_main_v4 (R1 m c)).trans (R1_v4 m c)
theorem R2_v1 : R2 m c (Proc.devRef .tc main_v1) = Cert.ReferenceIdeal.ReadP.val_main_v1 (F := Ideal) (b1 m c) := (K1_main_v1 (R1 m c)).trans (R1_v1 m c)
theorem R2_v3 : R2 m c (Proc.devRef .tc main_v3) = Cert.ReferenceIdeal.ReadP.val_main_v3 (F := Ideal) (b1 m c) := (K1_main_v3 (R1 m c)).trans (R1_v3 m c)
theorem R2_arg3 : R2 m c (Proc.devRef .tc main_arg3) = b3 m c := (K1_main_arg3 (R1 m c)).trans (R1_arg3 m c)
theorem R2_arg7 : R2 m c (Proc.devRef .tc main_arg7) = b7 m c := (K1_main_arg7 (R1 m c)).trans (R1_arg7 m c)
theorem R2_arg8 : R2 m c (Proc.devRef .tc main_arg8) = b8 m c := (K1_main_arg8 (R1 m c)).trans (R1_arg8 m c)
theorem R2_arg9 : R2 m c (Proc.devRef .tc main_arg9) = b9 m c := (K1_main_arg9 (R1 m c)).trans (R1_arg9 m c)
theorem R2_arg10 : R2 m c (Proc.devRef .tc main_arg10) = b10 m c := (K1_main_arg10 (R1 m c)).trans (R1_arg10 m c)
theorem R2_arg11 : R2 m c (Proc.devRef .tc main_arg11) = b11 m c := (K1_main_arg11 (R1 m c)).trans (R1_arg11 m c)
theorem R2_arg12 : R2 m c (Proc.devRef .tc main_arg12) = b12 m c := (K1_main_arg12 (R1 m c)).trans (R1_arg12 m c)

end Cert.RefEval

end
-- ==== Proof.RefKeep2.lean ====
/-
  Chunk 2 of the reference's operations writes none of the argument arrays, nor the joined input features and the
  edge index arrays computed in chunk 0: each holds after the chunk what it held before.
-/
import proofs.«137384_j82008105549935_1_alg».proof.Proof.RefRaw

set_option maxRecDepth 16384

noncomputable section

namespace Cert.RefEval

open Cert.ReferenceIdeal Cert.ReferenceIdeal.Gen Cert.ReferenceIdeal.ValueP
open Idealize.ShloMosaic Idealize.ShloMosaic.TcCoe Idealize.ShloMosaic.StableHlo
open Idealize.SL.Sem

variable {F : FTy → Type} [FloatOps F] (Vv : Valuation τ sig (Elt F))

set_option maxHeartbeats 2000000 in
theorem K2_main_arg0 : after (ops2 (F := F)) Vv (Proc.devRef .tc main_arg0) = Vv (Proc.devRef .tc main_arg0) := by
  dsimp only [ops2]
  after_results_simp
set_option maxHeartbeats 2000000 in
theorem K2_main_arg1 : after (ops2 (F := F)) Vv (Proc.devRef .tc main_arg1) = Vv (Proc.devRef .tc main_arg1) := by
  dsimp only [ops2]
  after_results_simp
set_option maxHeartbeats 2000000 in
theorem K2_main_arg2 : after (ops2 (F := F)) Vv (Proc.devRef .tc main_arg2) = Vv (Proc.devRef .tc main_arg2) := by
  dsimp only [ops2]
  after_results_simp
set_option maxHeartbeats 2000000 in
theorem K2_main_arg3 : after (ops2 (F := F)) Vv (Proc.devRef .tc main_arg3) = Vv (Proc.devRef .tc main_arg3) := by
  dsimp only [ops2]
  after_results_simp
set_option maxHeartbeats 2000000 in
theorem K2_main_arg4 : after (ops2 (F := F)) Vv (Proc.devRef .tc main_arg4) = Vv (Proc.devRef .tc main_arg4) := by
  dsimp only [ops2]
  after_results_simp
set_option maxHeartbeats 2000000 in
theorem K2_main_arg5 : after (ops2 (F := F)) Vv (Proc.devRef .tc main_arg5) = Vv (Proc.devRef .tc main_arg5) := by
  dsimp only [ops2]
  after_results_simp
set_option maxHeartbeats 2000000 in
theorem K2_main_arg6 : after (ops2 (F := F)) Vv (Proc.devRef .tc main_arg6) = Vv (Proc.devRef .tc main_arg6) := by
  dsimp only [ops2]
  after_results_simp
set_option maxHeartbeats 2000000 in
theorem K2_main_arg7 : after (ops2 (F := F)) Vv (Proc.devRef .tc main_arg7) = Vv (Proc.devRef .tc main_arg7) := by
  dsimp only [ops2]
  after_results_simp
set_option maxHeartbeats 2000000 in
theorem K2_main_arg8 : after (ops2 (F := F)) Vv (Proc.devRef .tc main_arg8) = Vv (Proc.devRef .tc main_arg8) := by
  dsimp only [ops2]
  after_results_simp
set_option maxHeartbeats 2000000 in
theorem K2_main_arg9 : after (ops2 (F := F)) Vv (Proc.devRef .tc main_arg9) = Vv (Proc.devRef .tc main_arg9) := by
  dsimp only [ops2]
  after_results_simp
set_option maxHeartbeats 2000000 in
theorem K2_main_arg10 : after (ops2 (F := F)) Vv (Proc.devRef .tc main_arg10) = Vv (Proc.devRef .tc main_arg10) := by
  dsimp only [ops2]
  after_results_simp
set_option maxHeartbeats 2000000 in
theorem K2_main_arg11 : after (ops2 (F := F)) Vv (Proc.devRef .tc main_arg11) = Vv (Proc.devRef .tc main_arg11) := by
  dsimp only [ops2]
  after_results_simp
set_option maxHeartbeats 2000000 in
theorem K2_main_arg12 : after (ops2 (F := F)) Vv (Proc.devRef .tc main_arg12) = Vv (Proc.devRef .tc main_arg12) := by
  dsimp only [ops2]
  after_results_simp
set_option maxHeartbeats 2000000 in
theorem K2_main_v4 : after (ops2 (F := F)) Vv (Proc.devRef .tc main_v4) = Vv (Proc.devRef .tc main_v4) := by
  dsimp only [ops2]
  after_results_simp
set_option maxHeartbeats 2000000 in
theorem K2_main_v1 : after (ops2 (F := F)) Vv (Proc.devRef .tc main_v1) = Vv (Proc.devRef .tc main_v1) := by
  dsimp only [ops2]
  after_results_simp
set_option maxHeartbeats 2000000 in
theorem K2_main_v3 : after (ops2 (F := F)) Vv (Proc.devRef .tc main_v3) = Vv (Proc.devRef .tc main_v3) := by
  dsimp only [ops2]
  after_results_simp

end Cert.RefEval

end
-- ==== Proof.RefEval2.lean ====
/-
  Chunk 2 of the reference's operations, evaluated: given what the chunks before it left, it leaves layer 2's result at its
  stage `val_…` of the arguments; the arrays it does not write stay as they were.
-/
import proofs.«137384_j82008105549935_1_alg».proof.Proof.RefEval1
import proofs.«137384_j82008105549935_1_alg».proof.Proof.RefKeep2
import proofs.«137384_j82008105549935_1_alg».proof.Proof.LibNary3

set_option maxRecDepth 16384

noncomputable section

namespace Cert.RefEval

open Cert.ReferenceIdeal Cert.ReferenceIdeal.Gen Cert.ReferenceIdeal.ValueP
open Idealize.ShloMosaic Idealize.ShloMosaic.TcCoe Idealize.ShloMosaic.StableHlo
open Idealize.SL.Sem

variable (m : (ℓ : Loc nD τ sig) → Buf (Elt Ideal) ℓ) (c : Dev nD)

/-- The layer's input: the previous result, a slab of latent features and the input features side by side. -/
theorem catR2 (G : Valuation τ sig (Elt Ideal)) (hxs hy) :
    (StableHlo.nary (τ := τ) ![main_v63, main_v65, main_v4] main_v66 (fun u => concatenate S100000x198 1 [⟨S100000x128, u 0⟩, ⟨S100000x64, u 1⟩, ⟨S100000x6, u 2⟩] concatenates_S100000x128_S100000x64_S100000x6_S100000x198_d1) hxs hy).result G (no_index (Proc.devRef .tc main_v66))
      = concatenate S100000x198 1 [⟨S100000x128, G (Proc.devRef .tc main_v63)⟩, ⟨S100000x64, G (Proc.devRef .tc main_v65)⟩, ⟨S100000x6, G (Proc.devRef .tc main_v4)⟩] concatenates_S100000x128_S100000x64_S100000x6_S100000x198_d1 :=
  (StableHlo.nary_result _ _ _ hxs hy G).trans rfl

set_option maxHeartbeats 4000000 in
theorem R3_out : R3 m c (Proc.devRef .tc main_v97) = Cert.ReferenceIdeal.ReadP.val_main_v97 (F := Ideal) (b0 m c) (b1 m c) (b2 m c) (b3 m c) (b4 m c) (b5 m c) (b6 m c) (b7 m c) (b8 m c) (b9 m c) := by
  have hprev := R2_out m c
  have h4 := R2_v4 m c
  have h1 := R2_v1 m c
  have h3 := R2_v3 m c
  have hz := R2_arg3 m c
  have h7 := R2_arg7 m c
  have h8 := R2_arg8 m c
  have h9 := R2_arg9 m c
  unfold R3
  dsimp only [ops2]
  after_results_with [catR2]
  after_results_rw
  rw [hprev, h4, h1, h3, hz, h7, h8, h9]
  rfl
theorem R3_v4 : R3 m c (Proc.devRef .tc main_v4) = Cert.ReferenceIdeal.ReadP.val_main_v4 (F := Ideal) (b0 m c) (b2 m c) := (K2_main_v4 (R2 m c)).trans (R2_v4 m c)
theorem R3_v1 : R3 m c (Proc.devRef .tc main_v1) = Cert.ReferenceIdeal.ReadP.val_main_v1 (F := Ideal) (b1 m c) := (K2_main_v1 (R2 m c)).trans (R2_v1 m c)
theorem R3_v3 : R3 m c (Proc.devRef .tc main_v3) = Cert.ReferenceIdeal.ReadP.val_main_v3 (F := Ideal) (b1 m c) := (K2_main_v3 (R2 m c)).trans (R2_v3 m c)
theorem R3_arg3 : R3 m c (Proc.devRef .tc main_arg3) = b3 m c := (K2_main_arg3 (R2 m c)).trans (R2_arg3 m c)
theorem R3_arg7 : R3 m c (Proc.devRef .tc main_arg7) = b7 m c := (K2_main_arg7 (R2 m c)).trans (R2_arg7 m c)
theorem R3_arg8 : R3 m c (Proc.devRef .tc main_arg8) = b8 m c := (K2_main_arg8 (R2 m c)).trans (R2_arg8 m c)
theorem R3_arg9 : R3 m c (Proc.devRef .tc main_arg9) = b9 m c := (K2_main_arg9 (R2 m c)).trans (R2_arg9 m c)
theorem R3_arg10 : R3 m c (Proc.devRef .tc main_arg10) = b10 m c := (K2_main_arg10 (R2 m c)).trans (R2_arg10 m c)
theorem R3_arg11 : R3 m c (Proc.devRef .tc main_arg11) = b11 m c := (K2_main_arg11 (R2 m c)).trans (R2_arg11 m c)
theorem R3_arg12 : R3 m c (Proc.devRef .tc main_arg12) = b12 m c := (K2_main_arg12 (R2 m c)).trans (R2_arg12 m c)

end Cert.RefEval

end
-- ==== Proof.RefKeep3.lean ====
/-
  Chunk 3 of the reference's operations writes none of the argument arrays, nor the joined input features and the
  edge index arrays computed in chunk 0: each holds after the chunk what it held before.
-/
import proofs.«137384_j82008105549935_1_alg».proof.Proof.RefRaw

set_option maxRecDepth 16384

noncomputable section

namespace Cert.RefEval

open Cert.ReferenceIdeal Cert.ReferenceIdeal.Gen Cert.ReferenceIdeal.ValueP
open Idealize.ShloMosaic Idealize.ShloMosaic.TcCoe Idealize.ShloMosaic.StableHlo
open Idealize.SL.Sem

variable {F : FTy → Type} [FloatOps F] (Vv : Valuation τ sig (Elt F))

set_option maxHeartbeats 2000000 in
theorem K3_main_arg0 : after (ops3 (F := F)) Vv (Proc.devRef .tc main_arg0) = Vv (Proc.devRef .tc main_arg0) := by
  dsimp only [ops3]
  after_results_simp
set_option maxHeartbeats 2000000 in
theorem K3_main_arg1 : after (ops3 (F := F)) Vv (Proc.devRef .tc main_arg1) = Vv (Proc.devRef .tc main_arg1) := by
  dsimp only [ops3]
  after_results_simp
set_option maxHeartbeats 2000000 in
theorem K3_main_arg2 : after (ops3 (F := F)) Vv (Proc.devRef .tc main_arg2) = Vv (Proc.devRef .tc main_arg2) := by
  dsimp only [ops3]
  after_results_simp
set_option maxHeartbeats 2000000 in
theorem K3_main_arg3 : after (ops3 (F := F)) Vv (Proc.devRef .tc main_arg3) = Vv (Proc.devRef .tc main_arg3) := by
  dsimp only [ops3]
  after_results_simp
set_option maxHeartbeats 2000000 in
theorem K3_main_arg4 : after (ops3 (F := F)) Vv (Proc.devRef .tc main_arg4) = Vv (Proc.devRef .tc main_arg4) := by
  dsimp only [ops3]
  after_results_simp
set_option maxHeartbeats 2000000 in
theorem K3_main_arg5 : after (ops3 (F := F)) Vv (Proc.devRef .tc main_arg5) = Vv (Proc.devRef .tc main_arg5) := by
  dsimp only [ops3]
  after_results_simp
set_option maxHeartbeats 2000000 in
theorem K3_main_arg6 : after (ops3 (F := F)) Vv (Proc.devRef .tc main_arg6) = Vv (Proc.devRef .tc main_arg6) := by
  dsimp only [ops3]
  after_results_simp
set_option maxHeartbeats 2000000 in
theorem K3_main_arg7 : after (ops3 (F := F)) Vv (Proc.devRef .tc main_arg7) = Vv (Proc.devRef .tc main_arg7) := by
  dsimp only [ops3]
  after_results_simp
set_option maxHeartbeats 2000000 in
theorem K3_main_arg8 : after (ops3 (F := F)) Vv (Proc.devRef .tc main_arg8) = Vv (Proc.devRef .tc main_arg8) := by
  dsimp only [ops3]
  after_results_simp
set_option maxHeartbeats 2000000 in
theorem K3_main_arg9 : after (ops3 (F := F)) Vv (Proc.devRef .tc main_arg9) = Vv (Proc.devRef .tc main_arg9) := by
  dsimp only [ops3]
  after_results_simp
set_option maxHeartbeats 2000000 in
theorem K3_main_arg10 : after (ops3 (F := F)) Vv (Proc.devRef .tc main_arg10) = Vv (Proc.devRef .tc main_arg10) := by
  dsimp only [ops3]
  after_results_simp
set_option maxHeartbeats 2000000 in
theorem K3_main_arg11 : after (ops3 (F := F)) Vv (Proc.devRef .tc main_arg11) = Vv (Proc.devRef .tc main_arg11) := by
  dsimp only [ops3]
  after_results_simp
set_option maxHeartbeats 2000000 in
theorem K3_main_arg12 : after (ops3 (F := F)) Vv (Proc.devRef .tc main_arg12) = Vv (Proc.devRef .tc main_arg12) := by
  dsimp only [ops3]
  after_results_simp
set_option maxHeartbeats 2000000 in
theorem K3_main_v4 : after (ops3 (F := F)) Vv (Proc.devRef .tc main_v4) = Vv (Proc.devRef .tc main_v4) := by
  dsimp only [ops3]
  after_results_simp
set_option maxHeartbeats 2000000 in
theorem K3_main_v1 : after (ops3 (F := F)) Vv (Proc.devRef .tc main_v1) = Vv (Proc.devRef .tc main_v1) := by
  dsimp only [ops3]
  after_results_simp
set_option maxHeartbeats 2000000 in
theorem K3_main_v3 : after (ops3 (F := F)) Vv (Proc.devRef .tc main_v3) = Vv (Proc.devRef .tc main_v3) := by
  dsimp only [ops3]
  after_results_simp

end Cert.RefEval

end
-- ==== Proof.RefEval3.lean ====
/-
  Chunk 3 of the reference's operations, evaluated: given what the chunks before it left, it leaves layer 3's result at its
  stage `val_…` of the arguments; the arrays it does not write stay as they were.
-/
import proofs.«137384_j82008105549935_1_alg».proof.Proof.RefEval2
import proofs.«137384_j82008105549935_1_alg».proof.Proof.RefKeep3
import proofs.«137384_j82008105549935_1_alg».proof.Proof.LibNary3

set_option maxRecDepth 16384

noncomputable section

namespace Cert.RefEval

open Cert.ReferenceIdeal Cert.ReferenceIdeal.Gen Cert.ReferenceIdeal.ValueP
open Idealize.ShloMosaic Idealize.ShloMosaic.TcCoe Idealize.ShloMosaic.StableHlo
open Idealize.SL.Sem

variable (m : (ℓ : Loc nD τ sig) → Buf (Elt Ideal) ℓ) (c : Dev nD)

/-- The layer's input: the previous result, a slab of latent features and the input features side by side. -/
theorem catR3 (G : Valuation τ sig (Elt Ideal)) (hxs hy) :
    (StableHlo.nary (τ := τ) ![main_v97, main_v99, main_v4] main_v100 (fun u => concatenate S100000x198 1 [⟨S100000x128, u 0⟩, ⟨S100000x64, u 1⟩, ⟨S100000x6, u 2⟩] concatenates_S100000x128_S100000x64_S100000x6_S100000x198_d1) hxs hy).result G (no_index (Proc.devRef .tc main_v100))
      = concatenate S100000x198 1 [⟨S100000x128, G (Proc.devRef .tc main_v97)⟩, ⟨S100000x64, G (Proc.devRef .tc main_v99)⟩, ⟨S100000x6, G (Proc.devRef .tc main_v4)⟩] concatenates_S100000x128_S100000x64_S100000x6_S100000x198_d1 :=
  (StableHlo.nary_result _ _ _ hxs hy G).trans rfl

set_option maxHeartbeats 4000000 in
theorem R4_out : R4 m c (Proc.devRef .tc main_v131) = Cert.ReferenceIdeal.ReadP.val_main_v131 (F := Ideal) (b0 m c) (b1 m c) (b2 m c) (b3 m c) (b4 m c) (b5 m c) (b6 m c) (b7 m c) (b8 m c) (b9 m c) := by
  have hprev := R3_out m c
  have h4 := R3_v4 m c
  have h1 := R3_v1 m c
  have h3 := R3_v3 m c
  have hz := R3_arg3 m c
  have h7 := R3_arg7 m c
  have h8 := R3_arg8 m c
  have h9 := R3_arg9 m c
  unfold R4
  dsimp only [ops3]
  after_results_with [catR3]
  after_results_rw
  rw [hprev, h4, h1, h3, hz, h7, h8, h9]
  rfl
theorem R4_v4 : R4 m c (Proc.devRef .tc main_v4) = Cert.ReferenceIdeal.ReadP.val_main_v4 (F := Ideal) (b0 m c) (b2 m c) := (K3_main_v4 (R3 m c)).trans (R3_v4 m c)
theorem R4_v1 : R4 m c (Proc.devRef .tc main_v1) = Cert.ReferenceIdeal.ReadP.val_main_v1 (F := Ideal) (b1 m c) := (K3_main_v1 (R3 m c)).trans (R3_v1 m c)
theorem R4_v3 : R4 m c (Proc.devRef .tc main_v3) = Cert.ReferenceIdeal.ReadP.val_main_v3 (F := Ideal) (b1 m c) := (K3_main_v3 (R3 m c)).trans (R3_v3 m c)
theorem R4_arg3 : R4 m c (Proc.devRef .tc main_arg3) = b3 m c := (K3_main_arg3 (R3 m c)).trans (R3_arg3 m c)
theorem R4_arg7 : R4 m c (Proc.devRef .tc main_arg7) = b7 m c := (K3_main_arg7 (R3 m c)).trans (R3_arg7 m c)
theorem R4_arg8 : R4 m c (Proc.devRef .tc main_arg8) = b8 m c := (K3_main_arg8 (R3 m c)).trans (R3_arg8 m c)
theorem R4_arg9 : R4 m c (Proc.devRef .tc main_arg9) = b9 m c := (K3_main_arg9 (R3 m c)).trans (R3_arg9 m c)
theorem R4_arg10 : R4 m c (Proc.devRef .tc main_arg10) = b10 m c := (K3_main_arg10 (R3 m c)).trans (R3_arg10 m c)
theorem R4_arg11 : R4 m c (Proc.devRef .tc main_arg11) = b11 m c := (K3_main_arg11 (R3 m c)).trans (R3_arg11 m c)
theorem R4_arg12 : R4 m c (Proc.devRef .tc main_arg12) = b12 m c := (K3_main_arg12 (R3 m c)).trans (R3_arg12 m c)

end Cert.RefEval

end
-- ==== Proof.RefKeep4.lean ====
/-
  Chunk 4 of the reference's operations writes none of the argument arrays, nor the joined input features and the
  edge index arrays computed in chunk 0: each holds after the chunk what it held before.
-/
import proofs.«137384_j82008105549935_1_alg».proof.Proof.RefRaw

set_option maxRecDepth 16384

noncomputable section

namespace Cert.RefEval

open Cert.ReferenceIdeal Cert.ReferenceIdeal.Gen Cert.ReferenceIdeal.ValueP
open Idealize.ShloMosaic Idealize.ShloMosaic.TcCoe Idealize.ShloMosaic.StableHlo
open Idealize.SL.Sem

variable {F : FTy → Type} [FloatOps F] (Vv : Valuation τ sig (Elt F))

set_option maxHeartbeats 2000000 in
theorem K4_main_arg0 : after (ops4 (F := F)) Vv (Proc.devRef .tc main_arg0) = Vv (Proc.devRef .tc main_arg0) := by
  dsimp only [ops4]
  after_results_simp
set_option maxHeartbeats 2000000 in
theorem K4_main_arg1 : after (ops4 (F := F)) Vv (Proc.devRef .tc main_arg1) = Vv (Proc.devRef .tc main_arg1) := by
  dsimp only [ops4]
  after_results_simp
set_option maxHeartbeats 2000000 in
theorem K4_main_arg2 : after (ops4 (F := F)) Vv (Proc.devRef .tc main_arg2) = Vv (Proc.devRef .tc main_arg2) := by
  dsimp only [ops4]
  after_results_simp
set_option maxHeartbeats 2000000 in
theorem K4_main_arg3 : after (ops4 (F := F)) Vv (Proc.devRef .tc main_arg3) = Vv (Proc.devRef .tc main_arg3) := by
  dsimp only [ops4]
  after_results_simp
set_option maxHeartbeats 2000000 in
theorem K4_main_arg4 : after (ops4 (F := F)) Vv (Proc.devRef .tc main_arg4) = Vv (Proc.devRef .tc main_arg4) := by
  dsimp only [ops4]
  after_results_simp
set_option maxHeartbeats 2000000 in
theorem K4_main_arg5 : after (ops4 (F := F)) Vv (Proc.devRef .tc main_arg5) = Vv (Proc.devRef .tc main_arg5) := by
  dsimp only [ops4]
  after_results_simp
set_option maxHeartbeats 2000000 in
theorem K4_main_arg6 : after (ops4 (F := F)) Vv (Proc.devRef .tc main_arg6) = Vv (Proc.devRef .tc main_arg6) := by
  dsimp only [ops4]
  after_results_simp
set_option maxHeartbeats 2000000 in
theorem K4_main_arg7 : after (ops4 (F := F)) Vv (Proc.devRef .tc main_arg7) = Vv (Proc.devRef .tc main_arg7) := by
  dsimp only [ops4]
  after_results_simp
set_option maxHeartbeats 2000000 in
theorem K4_main_arg8 : after (ops4 (F := F)) Vv (Proc.devRef .tc main_arg8) = Vv (Proc.devRef .tc main_arg8) := by
  dsimp only [ops4]
  after_results_simp
set_option maxHeartbeats 2000000 in
theorem K4_main_arg9 : after (ops4 (F := F)) Vv (Proc.devRef .tc main_arg9) = Vv (Proc.devRef .tc main_arg9) := by
  dsimp only [ops4]
  after_results_simp
set_option maxHeartbeats 2000000 in
theorem K4_main_arg10 : after (ops4 (F := F)) Vv (Proc.devRef .tc main_arg10) = Vv (Proc.devRef .tc main_arg10) := by
  dsimp only [ops4]
  after_results_simp
set_option maxHeartbeats 2000000 in
theorem K4_main_arg11 : after (ops4 (F := F)) Vv (Proc.devRef .tc main_arg11) = Vv (Proc.devRef .tc main_arg11) := by
  dsimp only [ops4]
  after_results_simp
set_option maxHeartbeats 2000000 in
theorem K4_main_arg12 : after (ops4 (F := F)) Vv (Proc.devRef .tc main_arg12) = Vv (Proc.devRef .tc main_arg12) := by
  dsimp only [ops4]
  after_results_simp
set_option maxHeartbeats 2000000 in
theorem K4_main_v4 : after (ops4 (F := F)) Vv (Proc.devRef .tc main_v4) = Vv (Proc.devRef .tc main_v4) := by
  dsimp only [ops4]
  after_results_simp
set_option maxHeartbeats 2000000 in
theorem K4_main_v1 : after (ops4 (F := F)) Vv (Proc.devRef .tc main_v1) = Vv (Proc.devRef .tc main_v1) := by
  dsimp only [ops4]
  after_results_simp
set_option maxHeartbeats 2000000 in
theorem K4_main_v3 : after (ops4 (F := F)) Vv (Proc.devRef .tc main_v3) = Vv (Proc.devRef .tc main_v3) := by
  dsimp only [ops4]
  after_results_simp

end Cert.RefEval

end
-- ==== Proof.RefEval4.lean ====
/-
  Chunk 4 of the reference's operations, evaluated: given what the chunks before it left, it leaves layer 4's result at its
  stage `val_…` of the arguments; the arrays it does not write stay as they were.
-/
import proofs.«137384_j82008105549935_1_alg».proof.Proof.RefEval3
import proofs.«137384_j82008105549935_1_alg».proof.Proof.RefKeep4
import proofs.«137384_j82008105549935_1_alg».proof.Proof.LibNary3

set_option maxRecDepth 16384

noncomputable section

namespace Cert.RefEval

open Cert.ReferenceIdeal Cert.ReferenceIdeal.Gen Cert.ReferenceIdeal.ValueP
open Idealize.ShloMosaic Idealize.ShloMosaic.TcCoe Idealize.ShloMosaic.StableHlo
open Idealize.SL.Sem

variable (m : (ℓ : Loc nD τ sig) → Buf (Elt Ideal) ℓ) (c : Dev nD)

/-- The layer's input: the previous result, a slab of latent features and the input features side by side. -/
theorem catR4 (G : Valuation τ sig (Elt Ideal)) (hxs hy) :
    (StableHlo.nary (τ := τ) ![main_v131, main_v133, main_v4] main_v134 (fun u => concatenate S100000x198 1 [⟨S100000x128, u 0⟩, ⟨S100000x64, u 1⟩, ⟨S100000x6, u 2⟩] concatenates_S100000x128_S100000x64_S100000x6_S100000x198_d1) hxs hy).result G (no_index (Proc.devRef .tc main_v134))
      = concatenate S100000x198 1 [⟨S100000x128, G (Proc.devRef .tc main_v131)⟩, ⟨S100000x64, G (Proc.devRef .tc main_v133)⟩, ⟨S100000x6, G (Proc.devRef .tc main_v4)⟩] concatenates_S100000x128_S100000x64_S100000x6_S100000x198_d1 :=
  (StableHlo.nary_result _ _ _ hxs hy G).trans rfl

set_option maxHeartbeats 4000000 in
theorem R5_out : R5 m c (Proc.devRef .tc main_v165) = Cert.ReferenceIdeal.ReadP.val_main_v165 (F := Ideal) (b0 m c) (b1 m c) (b2 m c) (b3 m c) (b4 m c) (b5 m c) (b6 m c) (b7 m c) (b8 m c) (b9 m c) := by
  have hprev := R4_out m c
  have h4 := R4_v4 m c
  have h1 := R4_v1 m c
  have h3 := R4_v3 m c
  have hz := R4_arg3 m c
  have h7 := R4_arg7 m c
  have h8 := R4_arg8 m c
  have h9 := R4_arg9 m c
  unfold R5
  dsimp only [ops4]
  after_results_with [catR4]
  after_results_rw
  rw [hprev, h4, h1, h3, hz, h7, h8, h9]
  rfl
theorem R5_v4 : R5 m c (Proc.devRef .tc main_v4) = Cert.ReferenceIdeal.ReadP.val_main_v4 (F := Ideal) (b0 m c) (b2 m c) := (K4_main_v4 (R4 m c)).trans (R4_v4 m c)
theorem R5_v1 : R5 m c (Proc.devRef .tc main_v1) = Cert.ReferenceIdeal.ReadP.val_main_v1 (F := Ideal) (b1 m c) := (K4_main_v1 (R4 m c)).trans (R4_v1 m c)
theorem R5_v3 : R5 m c (Proc.devRef .tc main_v3) = Cert.ReferenceIdeal.ReadP.val_main_v3 (F := Ideal) (b1 m c) := (K4_main_v3 (R4 m c)).trans (R4_v3 m c)
theorem R5_arg3 : R5 m c (Proc.devRef .tc main_arg3) = b3 m c := (K4_main_arg3 (R4 m c)).trans (R4_arg3 m c)
theorem R5_arg7 : R5 m c (Proc.devRef .tc main_arg7) = b7 m c := (K4_main_arg7 (R4 m c)).trans (R4_arg7 m c)
theorem R5_arg8 : R5 m c (Proc.devRef .tc main_arg8) = b8 m c := (K4_main_arg8 (R4 m c)).trans (R4_arg8 m c)
theorem R5_arg9 : R5 m c (Proc.devRef .tc main_arg9) = b9 m c := (K4_main_arg9 (R4 m c)).trans (R4_arg9 m c)
theorem R5_arg10 : R5 m c (Proc.devRef .tc main_arg10) = b10 m c := (K4_main_arg10 (R4 m c)).trans (R4_arg10 m c)
theorem R5_arg11 : R5 m c (Proc.devRef .tc main_arg11) = b11 m c := (K4_main_arg11 (R4 m c)).trans (R4_arg11 m c)
theorem R5_arg12 : R5 m c (Proc.devRef .tc main_arg12) = b12 m c := (K4_main_arg12 (R4 m c)).trans (R4_arg12 m c)

end Cert.RefEval

end
-- ==== Proof.RefKeep5.lean ====
/-
  Chunk 5 of the reference's operations writes none of the argument arrays, nor the joined input features and the
  edge index arrays computed in chunk 0: each holds after the chunk what it held before.
-/
import proofs.«137384_j82008105549935_1_alg».proof.Proof.RefRaw

set_option maxRecDepth 16384

noncomputable section

namespace Cert.RefEval

open Cert.ReferenceIdeal Cert.ReferenceIdeal.Gen Cert.ReferenceIdeal.ValueP
open Idealize.ShloMosaic Idealize.ShloMosaic.TcCoe Idealize.ShloMosaic.StableHlo
open Idealize.SL.Sem

variable {F : FTy → Type} [FloatOps F] (Vv : Valuation τ sig (Elt F))

set_option maxHeartbeats 2000000 in
theorem K5_main_arg0 : after (ops5 (F := F)) Vv (Proc.devRef .tc main_arg0) = Vv (Proc.devRef .tc main_arg0) := by
  dsimp only [ops5]
  after_results_simp
set_option maxHeartbeats 2000000 in
theorem K5_main_arg1 : after (ops5 (F := F)) Vv (Proc.devRef .tc main_arg1) = Vv (Proc.devRef .tc main_arg1) := by
  dsimp only [ops5]
  after_results_simp
set_option maxHeartbeats 2000000 in
theorem K5_main_arg2 : after (ops5 (F := F)) Vv (Proc.devRef .tc main_arg2) = Vv (Proc.devRef .tc main_arg2) := by
  dsimp only [ops5]
  after_results_simp
set_option maxHeartbeats 2000000 in
theorem K5_main_arg3 : after (ops5 (F := F)) Vv (Proc.devRef .tc main_arg3) = Vv (Proc.devRef .tc main_arg3) := by
  dsimp only [ops5]
  after_results_simp
set_option maxHeartbeats 2000000 in
theorem K5_main_arg4 : after (ops5 (F := F)) Vv (Proc.devRef .tc main_arg4) = Vv (Proc.devRef .tc main_arg4) := by
  dsimp only [ops5]
  after_results_simp
set_option maxHeartbeats 2000000 in
theorem K5_main_arg5 : after (ops5 (F := F)) Vv (Proc.devRef .tc main_arg5) = Vv (Proc.devRef .tc main_arg5) := by
  dsimp only [ops5]
  after_results_simp
set_option maxHeartbeats 2000000 in
theorem K5_main_arg6 : after (ops5 (F := F)) Vv (Proc.devRef .tc main_arg6) = Vv (Proc.devRef .tc main_arg6) := by
  dsimp only [ops5]
  after_results_simp
set_option maxHeartbeats 2000000 in
theorem K5_main_arg7 : after (ops5 (F := F)) Vv (Proc.devRef .tc main_arg7) = Vv (Proc.devRef .tc main_arg7) := by
  dsimp only [ops5]
  after_results_simp
set_option maxHeartbeats 2000000 in
theorem K5_main_arg8 : after (ops5 (F := F)) Vv (Proc.devRef .tc main_arg8) = Vv (Proc.devRef .tc main_arg8) := by
  dsimp only [ops5]
  after_results_simp
set_option maxHeartbeats 2000000 in
theorem K5_main_arg9 : after (ops5 (F := F)) Vv (Proc.devRef .tc main_arg9) = Vv (Proc.devRef .tc main_arg9) := by
  dsimp only [ops5]
  after_results_simp
set_option maxHeartbeats 2000000 in
theorem K5_main_arg10 : after (ops5 (F := F)) Vv (Proc.devRef .tc main_arg10) = Vv (Proc.devRef .tc main_arg10) := by
  dsimp only [ops5]
  after_results_simp
set_option maxHeartbeats 2000000 in
theorem K5_main_arg11 : after (ops5 (F := F)) Vv (Proc.devRef .tc main_arg11) = Vv (Proc.devRef .tc main_arg11) := by
  dsimp only [ops5]
  after_results_simp
set_option maxHeartbeats 2000000 in
theorem K5_main_arg12 : after (ops5 (F := F)) Vv (Proc.devRef .tc main_arg12) = Vv (Proc.devRef .tc main_arg12) := by
  dsimp only [ops5]
  after_results_simp
set_option maxHeartbeats 2000000 in
theorem K5_main_v4 : after (ops5 (F := F)) Vv (Proc.devRef .tc main_v4) = Vv (Proc.devRef .tc main_v4) := by
  dsimp only [ops5]
  after_results_simp
set_option maxHeartbeats 2000000 in
theorem K5_main_v1 : after (ops5 (F := F)) Vv (Proc.devRef .tc main_v1) = Vv (Proc.devRef .tc main_v1) := by
  dsimp only [ops5]
  after_results_simp
set_option maxHeartbeats 2000000 in
theorem K5_main_v3 : after (ops5 (F := F)) Vv (Proc.devRef .tc main_v3) = Vv (Proc.devRef .tc main_v3) := by
  dsimp only [ops5]
  after_results_simp

end Cert.RefEval

end
-- ==== Proof.RefEval5.lean ====
/-
  Chunk 5 of the reference's operations, evaluated: given what the chunks before it left, it leaves layer 5's result at its
  stage `val_…` of the arguments; the arrays it does not write stay as they were.
-/
import proofs.«137384_j82008105549935_1_alg».proof.Proof.RefEval4
import proofs.«137384_j82008105549935_1_alg».proof.Proof.RefKeep5
import proofs.«137384_j82008105549935_1_alg».proof.Proof.LibNary3

set_option maxRecDepth 16384

noncomputable section

namespace Cert.RefEval

open Cert.ReferenceIdeal Cert.ReferenceIdeal.Gen Cert.ReferenceIdeal.ValueP
open Idealize.ShloMosaic Idealize.ShloMosaic.TcCoe Idealize.ShloMosaic.StableHlo
open Idealize.SL.Sem

variable (m : (ℓ : Loc nD τ sig) → Buf (Elt Ideal) ℓ) (c : Dev nD)

set_option maxHeartbeats 4000000 in
theorem R6_out : R6 m c (Proc.devRef .tc main_v189) = Cert.ReferenceIdeal.ReadP.val_main_v189 (F := Ideal) (b0 m c) (b1 m c) (b2 m c) (b3 m c) (b4 m c) (b5 m c) (b6 m c) (b7 m c) (b8 m c) (b9 m c) (b10 m c) (b11 m c) (b12 m c) := by
  have hprev := R5_out m c
  have h1 := R5_v1 m c
  have h3 := R5_v3 m c
  have h10 := R5_arg10 m c
  have h11 := R5_arg11 m c
  have h12 := R5_arg12 m c
  unfold R6
  dsimp only [ops5]
  after_results_simp
  rw [hprev, h1, h3, h10, h11, h12]
  rfl

end Cert.RefEval

end
-- ==== Proof.RefValue.lean ====
/-
  The reference's run, read: every weakly fair execution ends with the result array at the last stage `val_main_v189` of
  the argument arrays as launched, and with the argument arrays unchanged — the raw run, its fold worked out chunk by chunk.
-/
import proofs.«137384_j82008105549935_1_alg».proof.Proof.RefEval5
import proofs.«137384_j82008105549935_1_alg».proof.Proof.RefKeep0
import proofs.«137384_j82008105549935_1_alg».proof.Proof.RefKeep1
import proofs.«137384_j82008105549935_1_alg».proof.Proof.RefKeep2
import proofs.«137384_j82008105549935_1_alg».proof.Proof.RefKeep3
import proofs.«137384_j82008105549935_1_alg».proof.Proof.RefKeep4
import proofs.«137384_j82008105549935_1_alg».proof.Proof.RefKeep5

set_option maxRecDepth 16384

noncomputable section

namespace Cert.RefEval

open Cert.ReferenceIdeal Cert.ReferenceIdeal.Gen Cert.ReferenceIdeal.ValueP
open Idealize.ShloMosaic Idealize.ShloMosaic.TcCoe Idealize.ShloMosaic.StableHlo
open Idealize.SL.Sem

variable (m : (ℓ : Loc nD τ sig) → Buf (Elt Ideal) ℓ) (ρ : Dev nD → PrngReg)

/-- No chunk writes an argument array. -/
theorem kept_main_arg0 (V : Valuation τ sig (Elt Ideal)) : after ops V (Proc.devRef .tc main_arg0) = V (Proc.devRef .tc main_arg0) := by
  rw [after_ops, K5_main_arg0, K4_main_arg0, K3_main_arg0, K2_main_arg0, K1_main_arg0, K0_main_arg0]
theorem kept_main_arg1 (V : Valuation τ sig (Elt Ideal)) : after ops V (Proc.devRef .tc main_arg1) = V (Proc.devRef .tc main_arg1) := by
  rw [after_ops, K5_main_arg1, K4_main_arg1, K3_main_arg1, K2_main_arg1, K1_main_arg1, K0_main_arg1]
theorem kept_main_arg2 (V : Valuation τ sig (Elt Ideal)) : after ops V (Proc.devRef .tc main_arg2) = V (Proc.devRef .tc main_arg2) := by
  rw [after_ops, K5_main_arg2, K4_main_arg2, K3_main_arg2, K2_main_arg2, K1_main_arg2, K0_main_arg2]
theorem kept_main_arg3 (V : Valuation τ sig (Elt Ideal)) : after ops V (Proc.devRef .tc main_arg3) = V (Proc.devRef .tc main_arg3) := by
  rw [after_ops, K5_main_arg3, K4_main_arg3, K3_main_arg3, K2_main_arg3, K1_main_arg3, K0_main_arg3]
theorem kept_main_arg4 (V : Valuation τ sig (Elt Ideal)) : after ops V (Proc.devRef .tc main_arg4) = V (Proc.devRef .tc main_arg4) := by
  rw [after_ops, K5_main_arg4, K4_main_arg4, K3_main_arg4, K2_main_arg4, K1_main_arg4, K0_main_arg4]
theorem kept_main_arg5 (V : Valuation τ sig (Elt Ideal)) : after ops V (Proc.devRef .tc main_arg5) = V (Proc.devRef .tc main_arg5) := by
  rw [after_ops, K5_main_arg5, K4_main_arg5, K3_main_arg5, K2_main_arg5, K1_main_arg5, K0_main_arg5]
theorem kept_main_arg6 (V : Valuation τ sig (Elt Ideal)) : after ops V (Proc.devRef .tc main_arg6) = V (Proc.devRef .tc main_arg6) := by
  rw [after_ops, K5_main_arg6, K4_main_arg6, K3_main_arg6, K2_main_arg6, K1_main_arg6, K0_main_arg6]
theorem kept_main_arg7 (V : Valuation τ sig (Elt Ideal)) : after ops V (Proc.devRef .tc main_arg7) = V (Proc.devRef .tc main_arg7) := by
  rw [after_ops, K5_main_arg7, K4_main_arg7, K3_main_arg7, K2_main_arg7, K1_main_arg7, K0_main_arg7]
theorem kept_main_arg8 (V : Valuation τ sig (Elt Ideal)) : after ops V (Proc.devRef .tc main_arg8) = V (Proc.devRef .tc main_arg8) := by
  rw [after_ops, K5_main_arg8, K4_main_arg8, K3_main_arg8, K2_main_arg8, K1_main_arg8, K0_main_arg8]
theorem kept_main_arg9 (V : Valuation τ sig (Elt Ideal)) : after ops V (Proc.devRef .tc main_arg9) = V (Proc.devRef .tc main_arg9) := by
  rw [after_ops, K5_main_arg9, K4_main_arg9, K3_main_arg9, K2_main_arg9, K1_main_arg9, K0_main_arg9]
theorem kept_main_arg10 (V : Valuation τ sig (Elt Ideal)) : after ops V (Proc.devRef .tc main_arg10) = V (Proc.devRef .tc main_arg10) := by
  rw [after_ops, K5_main_arg10, K4_main_arg10, K3_main_arg10, K2_main_arg10, K1_main_arg10, K0_main_arg10]
theorem kept_main_arg11 (V : Valuation τ sig (Elt Ideal)) : after ops V (Proc.devRef .tc main_arg11) = V (Proc.devRef .tc main_arg11) := by
  rw [after_ops, K5_main_arg11, K4_main_arg11, K3_main_arg11, K2_main_arg11, K1_main_arg11, K0_main_arg11]
theorem kept_main_arg12 (V : Valuation τ sig (Elt Ideal)) : after ops V (Proc.devRef .tc main_arg12) = V (Proc.devRef .tc main_arg12) := by
  rw [after_ops, K5_main_arg12, K4_main_arg12, K3_main_arg12, K2_main_arg12, K1_main_arg12, K0_main_arg12]

theorem ref_run : θ_run defs (onTc (τ := τ) (main (F := Ideal))) ⟨m, fun _ => 0, ρ⟩ fun r => ∀ c : Dev nD,
      r.2.mem ((c.tc : Thread nD τ).loc main_v189) = Cert.ReferenceIdeal.ReadP.val_main_v189 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c main_v189).trans (by rw [after_ops]; exact R6_out m c),
      (h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _),
      (h c main_arg8).trans (kept_main_arg8 _),
      (h c main_arg9).trans (kept_main_arg9 _),
      (h c main_arg10).trans (kept_main_arg10 _),
      (h c main_arg11).trans (kept_main_arg11 _),
      (h c main_arg12).trans (kept_main_arg12 _)⟩)
    (run_raw m ρ)

end Cert.RefEval

end
-- ==== Proof.lean ====
/-
  A six-layer graph network, each layer `relu (x W_s + mean_nb(x) W_n + b)` (the last without the activation), where
  `mean_nb` gathers the source row of every edge, adds the rows up per destination node and divides by the in-degree
  (at least one). The kernel's program computes the layer's dense part on the TensorCore, 4000 rows at a grid point,
  with the matrix products taken in a narrower float format; its reference computes everything on the host. Over
  the extended reals a change of float format is the identity and a matrix product is the plain sum of products, so
  a layer tiled over the rows is the whole layer, and all the other operations are the same in the two programs:
  the two results are equal array by array, layer after layer, both being the stages `val_…` of the argument arrays
  (Proof/Bridge for the kernel's program, Proof/RefEval for the reference). No law is used that would need the inputs
  finite.

  The frames: the kernel's program is six stretches of host operations, each followed by one tiled launch; each
  launch leaves its operands as found and writes only its result array, and no stretch writes an argument
  (Proof/Kernel, Proof/KernelIdeal). The reference is one straight line of host operations that writes no argument.
-/
import proofs.«137384_j82008105549935_1_alg».proof.Defs
import proofs.«137384_j82008105549935_1_alg».proof.Proof.Gen.Kernel
import proofs.«137384_j82008105549935_1_alg».proof.Proof.Gen.KernelIdeal
import proofs.«137384_j82008105549935_1_alg».proof.Proof.Gen.ReferenceIdeal
import proofs.«137384_j82008105549935_1_alg».proof.Proof.Gen.Pre_finite_inputs
import proofs.«137384_j82008105549935_1_alg».proof.Proof.Kernel.Run
import proofs.«137384_j82008105549935_1_alg».proof.Proof.KernelIdeal.Run
import proofs.«137384_j82008105549935_1_alg».proof.Proof.Bridge.L5
import proofs.«137384_j82008105549935_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frameH m ρ

theorem frame_ki : Cert.frame_KernelIdeal := fun m ρ _ => Cert.KernelIdeal.Hand.frameH m ρ

theorem frame_ri : Cert.frame_ReferenceIdeal := fun m ρ _ =>
  (θ_run Cert.ReferenceIdeal.defs _ _).mono (fun _ h c => (h c).2) (Cert.RefEval.ref_run m ρ)

theorem preserves : Cert.preserves_Kernel_KernelIdeal := trivial

/-- Both programs end with the last layer's array: the kernel's assembled from tiles, the reference's computed whole. -/
theorem algebraic : Cert.algebraic_KernelIdeal_ReferenceIdeal := by
  intro m ρ m' ρ' _ hagree
  refine ⟨fun c => Cert.KernelIdeal.Hand.W12 m c (Proc.devRef .tc Cert.KernelIdeal.main_v130), Cert.KernelIdeal.Hand.valueH m ρ, ?_⟩
  refine (θ_run Cert.ReferenceIdeal.defs _ _).mono (fun _ h c => ⟨(h c).1.trans ?_, (h c).2⟩)
    (Cert.RefEval.ref_run m' ρ')
  obtain ⟨g0, g1, g2, g3, g4, g5, g6, g7, g8, g9, g10, g11, g12⟩ := hagree c
  rw [g0, g1, g2, g3, g4, g5, g6, g7, g8, g9, g10, g11, g12]
  exact (Cert.Bridge.L5_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
